-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v2)) (v3 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v2) = v2 c
          ∧ r.2.mem ((c.tc : Thread Cert.KernelIdeal.nD Cert.KernelIdeal.τ).loc Cert.KernelIdeal.main_v3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_v30) = v2 c
          ∧ r.2.mem ((c.tc : Thread Cert.ReferenceIdeal.nD Cert.ReferenceIdeal.τ).loc Cert.ReferenceIdeal.main_v38) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S_ : Shape := ⟨0, ![]⟩
abbrev S8192 : Shape := ⟨1, ![8192]⟩
abbrev S4096 : Shape := ⟨1, ![4096]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  reducesTo_S8192x4096_S8192_d1 : S8192x4096.ReducesTo [1] S8192
  bcast_S_S8192 : S_.BroadcastsInDim S8192 (![] : Fin 0 → Fin S8192.rank)
  reducesTo_S8192_S_d0 : S8192.ReducesTo [0] S_
  reducesTo_S8192x4096_S4096_d0 : S8192x4096.ReducesTo [0] S4096
  bcast_S_S4096 : S_.BroadcastsInDim S4096 (![] : Fin 0 → Fin S4096.rank)
  reducesTo_S4096_S_d0 : S4096.ReducesTo [0] S_

variable [Facts]

def fn_part1 {F : FTy → Type} [FloatOps F] (main_v10 : IVec S_ 1) (main_v13 : FVec F S4096 .f32) (main_v14 : FVec F S4096 .f32) : IVec S_ 1 :=
  let main_v15 : IVec S4096 1 := cmpf .ogt main_v13 main_v14
  let main_c_7 : IVec S_ 1 := constantI S_ 1 1#1
  let main_v16 : IVec S_ 1 := (fun x v => Host.reduce IntOp.andi x v reducesTo_S4096_S_d0 h_S_) main_v15 main_c_7
  let main_v17 : IVec S_ 1 := andi main_v10 main_v16
  main_v17

def fn {F : FTy → Type} [FloatOps F] (main_arg0 : FVec F S8192x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_cst_0 : FVec F S_ .f32 := constant S_ .f32 0x00000000#32
  let main_v4 : FVec F S8192 .f32 := (fun x v => Host.reduceAdd x v reducesTo_S8192x4096_S8192_d1 h_S_) main_arg0 main_cst_0
  let main_cst_1 : FVec F S_ .f32 := constant S_ .f32 0x3F800000#32
  let main_v5 : FVec F S8192 .f32 := broadcastInDim S8192 ![] bcast_S_S8192 main_cst_1
  let main_v6 : FVec F S8192 .f32 := addf main_v4 main_v5
  let main_cst_2 : FVec F S_ .f32 := constant S_ .f32 0x00000000#32
  let main_v7 : FVec F S8192 .f32 := broadcastInDim S8192 ![] bcast_S_S8192 main_cst_2
  let main_v8 : IVec S8192 1 := cmpf .ogt main_v6 main_v7
  let main_c_3 : IVec S_ 1 := constantI S_ 1 1#1
  let main_v9 : IVec S_ 1 := (fun x v => Host.reduce IntOp.andi x v reducesTo_S8192_S_d0 h_S_) main_v8 main_c_3
  let main_v10 : IVec S_ 1 := andi main_v3 main_v9
  let main_cst_4 : FVec F S_ .f32 := constant S_ .f32 0x00000000#32
  let main_v11 : FVec F S4096 .f32 := (fun x v => Host.reduceAdd x v reducesTo_S8192x4096_S4096_d0 h_S_) main_arg0 main_cst_4
  let main_cst_5 : FVec F S_ .f32 := constant S_ .f32 0x3F800000#32
  let main_v12 : FVec F S4096 .f32 := broadcastInDim S4096 ![] bcast_S_S4096 main_cst_5
  let main_v13 : FVec F S4096 .f32 := addf main_v11 main_v12
  let main_cst_6 : FVec F S_ .f32 := constant S_ .f32 0x00000000#32
  let main_v14 : FVec F S4096 .f32 := broadcastInDim S4096 ![] bcast_S_S4096 main_cst_6
  fn_part1 (F := F) main_v10 main_v13 main_v14
-- ==== Kernel.lean ====
abbrev S8192x4096 : Shape := ⟨2, ![8192, 4096]⟩
abbrev S8192x1 : Shape := ⟨2, ![8192, 1]⟩
abbrev S1x4096 : Shape := ⟨2, ![1, 4096]⟩
abbrev S4096x1 : Shape := ⟨2, ![4096, 1]⟩
abbrev S512x4096 : Shape := ⟨2, ![512, 4096]⟩
abbrev S512x1 : Shape := ⟨2, ![512, 1]⟩
abbrev S512 : Shape := ⟨1, ![512]⟩
abbrev S4096 : Shape := ⟨1, ![4096]⟩
abbrev S4096x8192 : Shape := ⟨2, ![4096, 8192]⟩
abbrev S512x1024 : Shape := ⟨2, ![512, 1024]⟩
abbrev S1x1024 : Shape := ⟨2, ![1, 1024]⟩
abbrev S1024x512 : Shape := ⟨2, ![1024, 512]⟩
abbrev S8192x8192 : Shape := ⟨2, ![8192, 8192]⟩
abbrev S1024x1 : Shape := ⟨2, ![1024, 1]⟩
abbrev S1024x1024 : Shape := ⟨2, ![1024, 1024]⟩
abbrev S4096x4096 : Shape := ⟨2, ![4096, 4096]⟩

abbrev nBuf : Space → Nat
  | .hbm => 9
  | .vmem => 27
  | .smem => 0
  | _ => 0

abbrev bufTy : (tb : Table) → Fin (tcTables nBuf tb) → BufTy
  | .hbm, ⟨0, _⟩ => ⟨S8192x4096, .f32⟩
  | .hbm, ⟨1, _⟩ => ⟨S8192x1, .f32⟩
  | .hbm, ⟨2, _⟩ => ⟨S8192x1, .f32⟩
  | .hbm, ⟨3, _⟩ => ⟨S1x4096, .f32⟩
  | .hbm, ⟨4, _⟩ => ⟨S4096x1, .f32⟩
  | .hbm, ⟨5, _⟩ => ⟨S8192x4096, .f32⟩
  | .hbm, ⟨6, _⟩ => ⟨S4096x8192, .f32⟩
  | .hbm, ⟨7, _⟩ => ⟨S8192x8192, .f32⟩
  | .hbm, ⟨8, _⟩ => ⟨S4096x4096, .f32⟩
  | .local _ .vmem, ⟨0, _⟩ => ⟨S512x4096, .f32⟩
  | .local _ .vmem, ⟨1, _⟩ => ⟨S512x4096, .f32⟩
  | .local _ .vmem, ⟨2, _⟩ => ⟨S512x1, .f32⟩
  | .local _ .vmem, ⟨3, _⟩ => ⟨S512x1, .f32⟩
  | .local _ .vmem, ⟨4, _⟩ => ⟨S512x1, .f32⟩
  | .local _ .vmem, ⟨5, _⟩ => ⟨S512x1, .f32⟩
  | .local _ .vmem, ⟨6, _⟩ => ⟨S1x4096, .f32⟩
  | .local _ .vmem, ⟨7, _⟩ => ⟨S4096x1, .f32⟩
  | .local _ .vmem, ⟨8, _⟩ => ⟨S1x4096, .f32⟩
  | .local _ .vmem, ⟨9, _⟩ => ⟨S512x1024, .f32⟩
  | .local _ .vmem, ⟨10, _⟩ => ⟨S512x1024, .f32⟩
  | .local _ .vmem, ⟨11, _⟩ => ⟨S512x1, .f32⟩
  | .local _ .vmem, ⟨12, _⟩ => ⟨S512x1, .f32⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S1024x512, .f32⟩
  | .local _ .vmem, ⟨18, _⟩ => ⟨S1024x512, .f32⟩
  | .local _ .vmem, ⟨19, _⟩ => ⟨S1024x1, .f32⟩
  | .local _ .vmem, ⟨20, _⟩ => ⟨S1024x1, .f32⟩
  | .local _ .vmem, ⟨21, _⟩ => ⟨S1024x1024, .f32⟩
  | .local _ .vmem, ⟨22, _⟩ => ⟨S1024x1024, .f32⟩
  | .local _ .vmem, ⟨23, _⟩ => ⟨S1024x1, .f32⟩
  | .local _ .vmem, ⟨24, _⟩ => ⟨S1024x1, .f32⟩
  | .local _ .vmem, ⟨25, _⟩ => ⟨S1024x1024, .f32⟩
  | .local _ .vmem, ⟨26, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc3_sem0_0 : DmaSem sig := 22
abbrev cc3_sem0_1 : DmaSem sig := 23
abbrev cc3_sem1_0 : DmaSem sig := 24
abbrev cc3_sem1_1 : DmaSem sig := 25

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v24 : BitVec 1 := Scalar.cmpi .eq arg0 c15_i32
  let v25 : BitVec 32 := Scalar.extui v24
  let c0_i32_15 : BitVec 32 := 0#32
  let v26 : BitVec 1 := Scalar.cmpi .ne v25 c0_i32_15
  v26

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨2, ![16, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![8, 8], ![false, false]⟩

def k2_cond1 (i : grid2.Coords) : BitVec 1 :=
  let arg0 : BitVec 32 := BitVec.ofNat 32 (i 0).val
  let arg1 : BitVec 32 := BitVec.ofNat 32 (i 1).val
  let v0 : BitVec 1 := Scalar.cmpi .eq arg0 arg1
  let v1 : BitVec 32 := Scalar.extui v0
  let c0_i32 : BitVec 32 := 0#32
  let v2 : BitVec 1 := Scalar.cmpi .ne v1 c0_i32
  v2

def k2_cond2 (i : grid2.Coords) : BitVec 1 :=
  let arg0 : BitVec 32 := BitVec.ofNat 32 (i 0).val
  let arg1 : BitVec 32 := BitVec.ofNat 32 (i 1).val
  let v3 : BitVec 1 := Scalar.cmpi .ne arg0 arg1
  let v4 : BitVec 32 := Scalar.extui v3
  let c0_i32_0 : BitVec 32 := 0#32
  let v5 : BitVec 1 := Scalar.cmpi .ne v4 c0_i32_0
  v5

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev grid3 : Pipeline.Grid := ⟨2, ![4, 4], ![false, false]⟩

def k3_cond1 (i : grid3.Coords) : BitVec 1 :=
  let arg0 : BitVec 32 := BitVec.ofNat 32 (i 0).val
  let arg1 : BitVec 32 := BitVec.ofNat 32 (i 1).val
  let v0 : BitVec 1 := Scalar.cmpi .eq arg0 arg1
  let v1 : BitVec 32 := Scalar.extui v0
  let c0_i32 : BitVec 32 := 0#32
  let v2 : BitVec 1 := Scalar.cmpi .ne v1 c0_i32
  v2

def k3_cond2 (i : grid3.Coords) : BitVec 1 :=
  let arg0 : BitVec 32 := BitVec.ofNat 32 (i 0).val
  let arg1 : BitVec 32 := BitVec.ofNat 32 (i 1).val
  let v3 : BitVec 1 := Scalar.cmpi .ne arg0 arg1
  let v4 : BitVec 32 := Scalar.extui v3
  let c0_i32_0 : BitVec 32 := 0#32
  let v5 : BitVec 1 := Scalar.cmpi .ne v4 c0_i32_0
  v5

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x1 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1024x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

class Facts₀ : Prop where
  inb_S512x4096_S512x4096_0_0 : ∀ a, (![0, 0] : Fin 2 → Nat) a + S512x4096.size a ≤ S512x4096.size a
  h_S512x4096 : 0 < S512x4096.numel
  reduces_S512x4096_S512 : S512x4096.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  reduces_S512x4096_S4096 : S512x4096.Reduces [0] S4096
  shapeCasts_S4096_S1x4096 : S4096.ShapeCasts S1x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  transposes_S1x4096_p1_0_S4096x1 : S1x4096.Transposes [1, 0] S4096x1
  inb_S4096x1_S4096x1_0_0 : ∀ a, (![0, 0] : Fin 2 → Nat) a + S4096x1.size a ≤ S4096x1.size a
  h_S4096x1 : 0 < S4096x1.numel
  shapeCasts_S512x1_S512x1 : S512x1.ShapeCasts S512x1
  inb_S512x1024_S512x1024_0_0 : ∀ a, (![0, 0] : Fin 2 → Nat) a + S512x1024.size a ≤ S512x1024.size a
  h_S512x1024 : 0 < S512x1024.numel
  broadcasts_S512x1_S512x1024 : S512x1.Broadcasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  transposes_S512x1024_p1_0_S1024x512 : S512x1024.Transposes [1, 0] S1024x512
  inb_S1024x512_S1024x512_0_0 : ∀ a, (![0, 0] : Fin 2 → Nat) a + S1024x512.size a ≤ S1024x512.size a
  h_S1024x512 : 0 < S1024x512.numel
  iota_S1024x1024_d0_w32 : S1024x1024.Iotas .tc 32 [0]
  iota_S1024x1024_d1_w32 : S1024x1024.Iotas .tc 32 [1]
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  inb_S1024x1024_S1024x1024_0_0 : ∀ a, (![0, 0] : Fin 2 → Nat) a + S1024x1024.size a ≤ S1024x1024.size a
  h_S1024x1024 : 0 < S1024x1024.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .f32 = 32 ∨ (Rect.block (s := S8192x1) S512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x1.size a ≤ S4096x1.size a
  hwx0_4 : ∀ i : grid0.Coords, EltTy.bits .f32 = 32 ∨ (Rect.block (s := S4096x1) S4096x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x4096.size a
  hwx1_0 : ∀ i : grid1.Coords, EltTy.bits .f32 = 32 ∨ (Rect.block (s := S8192x4096) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1.size a ≤ S8192x1.size a
  hwx1_1 : ∀ i : grid1.Coords, EltTy.bits .f32 = 32 ∨ (Rect.block (s := S8192x1) S512x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S8192x4096.size a
  hwx1_3 : ∀ i : grid1.Coords, EltTy.bits .f32 = 32 ∨ (Rect.block (s := S8192x4096) S512x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x512.size a ≤ S4096x8192.size a
  hwx1_4 : ∀ i : grid1.Coords, EltTy.bits .f32 = 32 ∨ (Rect.block (s := S4096x8192) S1024x512.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1.size a ≤ S8192x1.size a
  hwx2_0 : ∀ i : grid2.Coords, EltTy.bits .f32 = 32 ∨ (Rect.block (s := S8192x1) S1024x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S8192x8192.size a
  hwx2_1 : ∀ i : grid2.Coords, EltTy.bits .f32 = 32 ∨ (Rect.block (s := S8192x8192) S1024x1024.size (cc2_transform_1 i) (hinb2_1 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1.size a ≤ S4096x1.size a
  hwx3_0 : ∀ i : grid3.Coords, EltTy.bits .f32 = 32 ∨ (Rect.block (s := S4096x1) S1024x1.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x1024.size a ≤ S4096x4096.size a
  hwx3_1 : ∀ i : grid3.Coords, EltTy.bits .f32 = 32 ∨ (Rect.block (s := S4096x4096) S1024x1024.size (cc3_transform_1 i) (hinb3_1 i)).WholeWords (EltTy.packing .f32)

variable [Facts₀]

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S512x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S512x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_2) S1x4096.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_3) S4096x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S512x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1_0) S512x1024.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1_1) S1024x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v0_1) S1024x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1024x1024.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev idle2 : Fin 2 → grid2.Coords → Bool := fun | 0 => fun _ => false | 1 => fun i => !(k2_cond1 i == 1#1) && !(k2_cond2 i == 1#1) | ⟨_ + 2, h⟩ => absurd h (Nat.not_lt.2 (Nat.le_add_left _ _))

abbrev win3_0 : Pipeline.Window sig grid3 :=
  Pipeline.Window.ofSpec (Memref.whole main_v0_3) S1024x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S1024x1024.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

abbrev idle3 : Fin 2 → grid3.Coords → Bool := fun | 0 => fun _ => false | 1 => fun i => !(k3_cond1 i == 1#1) && !(k3_cond2 i == 1#1) | ⟨_ + 2, h⟩ => absurd h (Nat.not_lt.2 (Nat.le_add_left _ _))

class Facts : Prop extends Facts₀ where

variable [Facts]
-- ==== ReferenceIdeal.lean ====
abbrev S8192x4096 : Shape := ⟨2, ![8192, 4096]⟩
abbrev S_ : Shape := ⟨0, ![]⟩
abbrev S8192 : Shape := ⟨1, ![8192]⟩
abbrev S4096 : Shape := ⟨1, ![4096]⟩
abbrev S8192x1 : Shape := ⟨2, ![8192, 1]⟩
abbrev S1x4096 : Shape := ⟨2, ![1, 4096]⟩
abbrev S4096x1 : Shape := ⟨2, ![4096, 1]⟩
abbrev S4096x8192 : Shape := ⟨2, ![4096, 8192]⟩
abbrev S1x8192 : Shape := ⟨2, ![1, 8192]⟩
abbrev S8192x8192 : Shape := ⟨2, ![8192, 8192]⟩
abbrev S4096x4096 : Shape := ⟨2, ![4096, 4096]⟩

abbrev nBuf : Space → Nat
  | .hbm => 78
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S_, .f32⟩
  | .hbm, ⟨2, _⟩ => ⟨S8192, .f32⟩
  | .hbm, ⟨3, _⟩ => ⟨S_, .f32⟩
  | .hbm, ⟨4, _⟩ => ⟨S8192, .f32⟩
  | .hbm, ⟨5, _⟩ => ⟨S8192, .f32⟩
  | .hbm, ⟨6, _⟩ => ⟨S_, .f32⟩
  | .hbm, ⟨7, _⟩ => ⟨S8192, .f32⟩
  | .hbm, ⟨8, _⟩ => ⟨S8192, .f32⟩
  | .hbm, ⟨9, _⟩ => ⟨S_, .f32⟩
  | .hbm, ⟨10, _⟩ => ⟨S4096, .f32⟩
  | .hbm, ⟨11, _⟩ => ⟨S_, .f32⟩
  | .hbm, ⟨12, _⟩ => ⟨S4096, .f32⟩
  | .hbm, ⟨13, _⟩ => ⟨S4096, .f32⟩
  | .hbm, ⟨14, _⟩ => ⟨S_, .f32⟩
  | .hbm, ⟨15, _⟩ => ⟨S4096, .f32⟩
  | .hbm, ⟨16, _⟩ => ⟨S4096, .f32⟩
  | .hbm, ⟨17, _⟩ => ⟨S8192x1, .f32⟩
  | .hbm, ⟨18, _⟩ => ⟨S8192x4096, .f32⟩
  | .hbm, ⟨19, _⟩ => ⟨S8192x4096, .f32⟩
  | .hbm, ⟨20, _⟩ => ⟨S1x4096, .f32⟩
  | .hbm, ⟨21, _⟩ => ⟨S8192x4096, .f32⟩
  | .hbm, ⟨22, _⟩ => ⟨S8192x4096, .f32⟩
  | .hbm, ⟨23, _⟩ => ⟨S4096x1, .f32⟩
  | .hbm, ⟨24, _⟩ => ⟨S4096x8192, .f32⟩
  | .hbm, ⟨25, _⟩ => ⟨S4096x8192, .f32⟩
  | .hbm, ⟨26, _⟩ => ⟨S4096x8192, .f32⟩
  | .hbm, ⟨27, _⟩ => ⟨S1x8192, .f32⟩
  | .hbm, ⟨28, _⟩ => ⟨S4096x8192, .f32⟩
  | .hbm, ⟨29, _⟩ => ⟨S4096x8192, .f32⟩
  | .hbm, ⟨30, _⟩ => ⟨S_, .f32⟩
  | .hbm, ⟨31, _⟩ => ⟨S8192, .f32⟩
  | .hbm, ⟨32, _⟩ => ⟨S_, .f32⟩
  | .hbm, ⟨33, _⟩ => ⟨S8192, .f32⟩
  | .hbm, ⟨34, _⟩ => ⟨S8192, .f32⟩
  | .hbm, ⟨35, _⟩ => ⟨S_, .f32⟩
  | .hbm, ⟨36, _⟩ => ⟨S8192, .f32⟩
  | .hbm, ⟨37, _⟩ => ⟨S8192, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192x8192, .i32⟩
  | .hbm, ⟨44, _⟩ => ⟨S8192x8192, .i32⟩
  | .hbm, ⟨45, _⟩ => ⟨S_, .i32⟩
  | .hbm, ⟨46, _⟩ => ⟨S8192x8192, .i32⟩
  | .hbm, ⟨47, _⟩ => ⟨S8192x8192, .i32⟩
  | .hbm, ⟨48, _⟩ => ⟨S8192x8192, .i1⟩
  | .hbm, ⟨49, _⟩ => ⟨S8192x1, .f32⟩
  | .hbm, ⟨50, _⟩ => ⟨S_, .f32⟩
  | .hbm, ⟨51, _⟩ => ⟨S8192x8192, .f32⟩
  | .hbm, ⟨52, _⟩ => ⟨S8192x8192, .f32⟩
  | .hbm, ⟨53, _⟩ => ⟨S8192x8192, .f32⟩
  | .hbm, ⟨54, _⟩ => ⟨S_, .f32⟩
  | .hbm, ⟨55, _⟩ => ⟨S4096, .f32⟩
  | .hbm, ⟨56, _⟩ => ⟨S_, .f32⟩
  | .hbm, ⟨57, _⟩ => ⟨S4096, .f32⟩
  | .hbm, ⟨58, _⟩ => ⟨S4096, .f32⟩
  | .hbm, ⟨59, _⟩ => ⟨S_, .f32⟩
  | .hbm, ⟨60, _⟩ => ⟨S4096, .f32⟩
  | .hbm, ⟨61, _⟩ => ⟨S4096, .f32⟩
  | .hbm, ⟨62, _⟩ => ⟨S_, .f32⟩
  | .hbm, ⟨63, _⟩ => ⟨S4096, .f32⟩
  | .hbm, ⟨64, _⟩ => ⟨S4096, .f32⟩
  | .hbm, ⟨65, _⟩ => ⟨S_, .f32⟩
  | .hbm, ⟨66, _⟩ => ⟨S4096, .f32⟩
  | .hbm, ⟨67, _⟩ => ⟨S4096x4096, .i32⟩
  | .hbm, ⟨68, _⟩ => ⟨S4096x4096, .i32⟩
  | .hbm, ⟨69, _⟩ => ⟨S_, .i32⟩
  | .hbm, ⟨70, _⟩ => ⟨S4096x4096, .i32⟩
  | .hbm, ⟨71, _⟩ => ⟨S4096x4096, .i32⟩
  | .hbm, ⟨72, _⟩ => ⟨S4096x4096, .i1⟩
  | .hbm, ⟨73, _⟩ => ⟨S4096x1, .f32⟩
  | .hbm, ⟨74, _⟩ => ⟨S_, .f32⟩
  | .hbm, ⟨75, _⟩ => ⟨S4096x4096, .f32⟩
  | .hbm, ⟨76, _⟩ => ⟨S4096x4096, .f32⟩
  | .hbm, ⟨77, _⟩ => ⟨S4096x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_v4 : Ref sig .tc := ⟨.hbm, 8, rfl⟩
abbrev main_cst_2 : Ref sig .tc := ⟨.hbm, 9, rfl⟩
abbrev main_v5 : Ref sig .tc := ⟨.hbm, 10, rfl⟩
abbrev main_cst_3 : Ref sig .tc := ⟨.hbm, 11, rfl⟩
abbrev main_v6 : Ref sig .tc := ⟨.hbm, 12, rfl⟩
abbrev main_v7 : Ref sig .tc := ⟨.hbm, 13, rfl⟩
abbrev main_cst_4 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_5 : Ref sig .tc := ⟨.hbm, 30, rfl⟩
abbrev main_v23 : Ref sig .tc := ⟨.hbm, 31, rfl⟩
abbrev main_cst_6 : Ref sig .tc := ⟨.hbm, 32, rfl⟩
abbrev main_v24 : Ref sig .tc := ⟨.hbm, 33, rfl⟩
abbrev main_v25 : Ref sig .tc := ⟨.hbm, 34, rfl⟩
abbrev main_cst_7 : Ref sig .tc := ⟨.hbm, 35, rfl⟩
abbrev main_v26 : Ref sig .tc := ⟨.hbm, 36, rfl⟩
abbrev main_v27 : Ref sig .tc := ⟨.hbm, 37, rfl⟩
abbrev main_cst_8 : Ref sig .tc := ⟨.hbm, 38, rfl⟩
abbrev main_v28 : Ref sig .tc := ⟨.hbm, 39, rfl⟩
abbrev main_v29 : Ref sig .tc := ⟨.hbm, 40, rfl⟩
abbrev main_call0_cst : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_c : Ref sig .tc := ⟨.hbm, 45, rfl⟩
abbrev main_call0_v3 : Ref sig .tc := ⟨.hbm, 46, rfl⟩
abbrev main_call0_v4 : Ref sig .tc := ⟨.hbm, 47, rfl⟩
abbrev main_call0_v5 : Ref sig .tc := ⟨.hbm, 48, rfl⟩
abbrev main_call0_v6 : Ref sig .tc := ⟨.hbm, 49, rfl⟩
abbrev main_call0_cst_0 : Ref sig .tc := ⟨.hbm, 50, rfl⟩
abbrev main_call0_call0_v0 : Ref sig .tc := ⟨.hbm, 51, rfl⟩
abbrev main_call0_call0_v1 : Ref sig .tc := ⟨.hbm, 52, rfl⟩
abbrev main_v30 : Ref sig .tc := ⟨.hbm, 53, rfl⟩
abbrev main_cst_9 : Ref sig .tc := ⟨.hbm, 54, rfl⟩
abbrev main_v31 : Ref sig .tc := ⟨.hbm, 55, rfl⟩
abbrev main_cst_10 : Ref sig .tc := ⟨.hbm, 56, rfl⟩
abbrev main_v32 : Ref sig .tc := ⟨.hbm, 57, rfl⟩
abbrev main_v33 : Ref sig .tc := ⟨.hbm, 58, rfl⟩
abbrev main_cst_11 : Ref sig .tc := ⟨.hbm, 59, rfl⟩
abbrev main_v34 : Ref sig .tc := ⟨.hbm, 60, rfl⟩
abbrev main_v35 : Ref sig .tc := ⟨.hbm, 61, rfl⟩
abbrev main_cst_12 : Ref sig .tc := ⟨.hbm, 62, rfl⟩
abbrev main_v36 : Ref sig .tc := ⟨.hbm, 63, rfl⟩
abbrev main_v37 : Ref sig .tc := ⟨.hbm, 64, rfl⟩
abbrev main_call1_cst : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_call1_c : Ref sig .tc := ⟨.hbm, 69, rfl⟩
abbrev main_call1_v3 : Ref sig .tc := ⟨.hbm, 70, rfl⟩
abbrev main_call1_v4 : Ref sig .tc := ⟨.hbm, 71, rfl⟩
abbrev main_call1_v5 : Ref sig .tc := ⟨.hbm, 72, rfl⟩
abbrev main_call1_v6 : Ref sig .tc := ⟨.hbm, 73, rfl⟩
abbrev main_call1_cst_0 : Ref sig .tc := ⟨.hbm, 74, rfl⟩
abbrev main_call1_call0_v0 : Ref sig .tc := ⟨.hbm, 75, rfl⟩
abbrev main_call1_call0_v1 : Ref sig .tc := ⟨.hbm, 76, rfl⟩
abbrev main_v38 : Ref sig .tc := ⟨.hbm, 77, rfl⟩

abbrev nD : Nat := 1
abbrev τ : Topo := Topo.v7x

variable {F : FTy → Type} [FloatOps F]

class Facts₀ : Prop where
  reducesTo_S8192x4096_S8192_d1 : S8192x4096.ReducesTo [1] S8192
  h_S_ : 0 < S_.numel
  bcast_S_S8192 : S_.BroadcastsInDim S8192 (![] : Fin 0 → Fin S8192.rank)
  reducesTo_S8192x4096_S4096_d0 : S8192x4096.ReducesTo [0] S4096
  bcast_S_S4096 : S_.BroadcastsInDim S4096 (![] : Fin 0 → Fin S4096.rank)
  bcast_S8192_S8192x1_0 : S8192.BroadcastsInDim S8192x1 (![0] : Fin 1 → Fin S8192x1.rank)
  bcast_S8192x1_S8192x4096_0_1 : S8192x1.BroadcastsInDim S8192x4096 (![0, 1] : Fin 2 → Fin S8192x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S4096_S4096x1_0 : S4096.BroadcastsInDim S4096x1 (![0] : Fin 1 → Fin S4096x1.rank)
  transposes_S8192x4096_S4096x8192_1_0 : S8192x4096.Transposes [1, 0] S4096x8192
  bcast_S4096x1_S4096x8192_0_1 : S4096x1.BroadcastsInDim S4096x8192 (![0, 1] : Fin 2 → Fin S4096x8192.rank)
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  pads_S8192_S8192_000 : S8192.Pads (![0] : Fin 1 → Nat) ![0] ![0] S8192
  bcast_S_S8192x8192 : S_.BroadcastsInDim S8192x8192 (![] : Fin 0 → Fin S8192x8192.rank)
  bcast_S8192x1_S8192x8192_0_1 : S8192x1.BroadcastsInDim S8192x8192 (![0, 1] : Fin 2 → Fin S8192x8192.rank)
  pads_S4096_S4096_000 : S4096.Pads (![0] : Fin 1 → Nat) ![0] ![0] S4096
  bcast_S_S4096x4096 : S_.BroadcastsInDim S4096x4096 (![] : Fin 0 → Fin S4096x4096.rank)
  bcast_S4096x1_S4096x4096_0_1 : S4096x1.BroadcastsInDim S4096x4096 (![0, 1] : Fin 2 → Fin S4096x4096.rank)

variable [Facts₀]

class Facts : Prop extends Facts₀ where

variable [Facts]
-- ==== Proof.K.Reg0Defs.lean ====
/-
  The row-and-column statistics pipeline (pipeline 0: sixteen row strips of 512 rows) at the contents `V` its region
  is entered with — what its runs are stated over. Each strip's block of the input; the two conditions the body branches
  on, decided over the sixteen points (the first point resets the running column sums, the last point turns them into the
  two column outputs); where the two column outputs' windows are idle (every point but the last); the staging memrefs as
  the pipeline passes them and the scratch that carries the running column sums from one point to the next.
-/
import proofs.«132844_j8031588843576_2_alg».proof.Proof.Gen.Kernel.Launch
import proofs.«132844_j8031588843576_2_alg».proof.Proof.Gen.Kernel.Skeleton
import proofs.«132844_j8031588843576_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input strip's current staging buffer holds its block at every point, for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions, over the sixteen points -/

/-- "This is the first strip": the running column sums are reset. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- "This is the last strip": the column sums are complete and the two column outputs are written. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Before the last strip the column outputs' windows are idle and nothing of them is written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last strip they are live. -/
theorem liveAt0_3 : ∀ t : Fin cfg0.N, cond0_1 (grid0.coords t) → cfg0.idle 3 (grid0.coords t) = false := by decide +kernel
theorem liveAt0_4 : ∀ t : Fin cfg0.N, cond0_1 (grid0.coords t) → cfg0.idle 4 (grid0.coords t) = false := by decide +kernel

/-! ## The memrefs the body is called with -/

abbrev ms0_0 (t : Fin cfg0.N) : Memref sig .tc .vmem S512x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x1 .f32 := win0_4.stage (cfg0.slots t 4)
abbrev hs0_4 (t : Fin cfg0.N) : (ms0_4 t).IsWhole := hstage0_4 ((cfg0.slots t 4).cast nbuf0_4)
/-- The scratch that holds the running column sums: a whole buffer of the kernel's own. -/
abbrev scM0_0 : Memref sig .tc .vmem S1x4096 .f32 := Memref.whole cc0_scratch0
abbrev VS0_0 : View sig .tc .vmem S1x4096 .f32 := scM0_0.view
/-- One staging buffer per output window, through which its contents are stated. -/
abbrev VO0_1 : View sig .tc .vmem S512x1 .f32 := (Memref.whole cc0_stg1_0 : Memref sig .tc .vmem S512x1 .f32).view
abbrev VO0_2 : View sig .tc .vmem S512x1 .f32 := (Memref.whole cc0_stg2_0 : Memref sig .tc .vmem S512x1 .f32).view
abbrev VO0_3 : View sig .tc .vmem S1x4096 .f32 := (Memref.whole cc0_stg3_0 : Memref sig .tc .vmem S1x4096 .f32).view
abbrev VO0_4 : View sig .tc .vmem S4096x1 .f32 := (Memref.whole cc0_stg4_0 : Memref sig .tc .vmem S4096x1 .f32).view

/-- The other pipelines' staging buffers, each whole at some contents: this pipeline never touches them. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg0_1), ((c : Thread nD τ).loc cc3_stg0_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg1_1), ((c : Thread nD τ).loc cc3_stg1_1) ↦{fullShare} f))

/-- The class invariant: the scratch as a memref owned at some contents, the other pipelines' buffers, the generator register. -/
theorem PhiA0_eq (c : Dev nD) :
    (Pipeline.ΦA spec0 c : sProp 𝕄)
      = iprop(iprop((∃ d, owns (c : Thread nD τ) scM0_0 fullShare d) ∗ rest0 (F := F) c) ∗ (∃ r, prngReg c r)) := by
  unfold Pipeline.ΦA; rw [scopedRest0_eq]; simp only [scM0_0, owns_whole, rest0]; try rfl

end Cert.Kernel.Hand

end
-- ==== Proof.K.Reg0RunA.lean ====
/-
  The statistics body at the FIRST strip (the reset branch taken, the last-strip branch not): on whole memrefs, the
  input strip at its contents, the two row outputs' buffers and the scratch at anything, the two column outputs' buffers
  handed back untouched, the body runs and leaves each row output's buffer and the scratch with its stores written.
-/
import proofs.«132844_j8031588843576_2_alg».proof.Proof.K.Reg0Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The stores the body makes at the first strip, per buffer (last first), with the run that finds them. -/
noncomputable def kernelRun0_A (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : cond0_0 i) (hc1 : ¬cond0_1 i)
    (x0 : Vec F S512x4096 .f32) :
    Σ' (L1 : List (View.Piece (Elt F) S512x1 .f32)) (L2 : List (View.Piece (Elt F) S512x1 .f32)), { LS0 : List (View.Piece (Elt F) S1x4096 .f32) //
      ∀ (xi3 : Vec F S1x4096 .f32) (xi4 : Vec F S4096x1 .f32) (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ owns (c : Thread nD τ) arg4 fullShare xi3 ∗ owns (c : Thread nD τ) arg5 fullShare xi4 ∗ (∃ d, owns (c : Thread nD τ) arg6 fullShare d)
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2)
                ∗ owns (c : Thread nD τ) arg4 fullShare xi3 ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc0__stats_kernel i arg1 harg1 arg2 harg2 arg3 harg3 arg4 harg4 arg5 harg5 arg6 harg6) K } := by
  refine ⟨?_, ?_, ?_, fun xi3 xi4 E K => ?run⟩
  case run =>
    simp only [cc0__stats_kernel_eq_skeleton]; unfold cc0__stats_kernel_skel
    unfold owns
    iintro ⟨⟨%f0, %hf0, H0⟩, ⟨%d1, %f1, -, H1⟩, ⟨%d2, %f2, -, H2⟩, ⟨%f3, %hf3, H3⟩, ⟨%f4, %hf4, H4⟩, ⟨%ds0, %fs0, -, HS0⟩, Hk⟩
    obtain rfl := harg1.eq_unread hf0; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; iexact H1
    isplitl [H2]
    · iexists _; iexact H2
    isplitl [H3]
    · iexists _; isplitr; · ipureintro; exact harg4.read_unread _
      iexact H3
    isplitl [H4]
    · iexists _; isplitr; · ipureintro; exact harg5.read_unread _
      iexact H4
    iexists _; iexact HS0

end Cert.Kernel.Hand

end
-- ==== Proof.K.Reg0RunB.lean ====
/-
  The statistics body at a MIDDLE strip (neither branch taken): the scratch comes in holding the column sums of the
  strips before, and leaves with this strip's partial column sums added; the two row outputs' buffers get their stores;
  the two column outputs' buffers are handed back untouched.
-/
import proofs.«132844_j8031588843576_2_alg».proof.Proof.K.Reg0RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The stores the body makes at a middle strip, per buffer (last first), with the run that finds them. -/
noncomputable def kernelRun0_B (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : ¬cond0_0 i) (hc1 : ¬cond0_1 i)
    (x0 : Vec F S512x4096 .f32) (xs0 : Vec F S1x4096 .f32) :
    Σ' (L1 : List (View.Piece (Elt F) S512x1 .f32)) (L2 : List (View.Piece (Elt F) S512x1 .f32)), { LS0 : List (View.Piece (Elt F) S1x4096 .f32) //
      ∀ (xi3 : Vec F S1x4096 .f32) (xi4 : Vec F S4096x1 .f32) (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ owns (c : Thread nD τ) arg4 fullShare xi3 ∗ owns (c : Thread nD τ) arg5 fullShare xi4 ∗ owns (c : Thread nD τ) arg6 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2)
                ∗ owns (c : Thread nD τ) arg4 fullShare xi3 ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc0__stats_kernel i arg1 harg1 arg2 harg2 arg3 harg3 arg4 harg4 arg5 harg5 arg6 harg6) K } := by
  refine ⟨?_, ?_, ?_, fun xi3 xi4 E K => ?run⟩
  case run =>
    simp only [cc0__stats_kernel_eq_skeleton]; unfold cc0__stats_kernel_skel
    unfold owns
    iintro ⟨⟨%f0, %hf0, H0⟩, ⟨%d1, %f1, -, H1⟩, ⟨%d2, %f2, -, H2⟩, ⟨%f3, %hf3, H3⟩, ⟨%f4, %hf4, H4⟩, ⟨%fs0, %hfs0, HS0⟩, Hk⟩
    obtain rfl := harg1.eq_unread hf0; obtain rfl := harg4.eq_unread hf3; obtain rfl := harg5.eq_unread hf4; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; iexact H1
    isplitl [H2]
    · iexists _; iexact H2
    isplitl [H3]
    · iexists _; isplitr; · ipureintro; exact harg4.read_unread _
      iexact H3
    isplitl [H4]
    · iexists _; isplitr; · ipureintro; exact harg5.read_unread _
      iexact H4
    iexists _; iexact HS0

end Cert.Kernel.Hand

end
-- ==== Proof.K.Reg0RunC.lean ====
/-
  The statistics body at the LAST strip (the reset branch not taken, the last-strip branch taken): the scratch comes in
  holding the column sums of the fifteen strips before and leaves complete; all four outputs' buffers get their stores — the
  two row outputs as at every strip, the two column outputs from the completed sums.
-/
import proofs.«132844_j8031588843576_2_alg».proof.Proof.K.Reg0RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The stores the body makes at the last strip, per buffer (last first), with the run that finds them. -/
noncomputable def kernelRun0_C (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : ¬cond0_0 i) (hc1 : cond0_1 i)
    (x0 : Vec F S512x4096 .f32) (xs0 : Vec F S1x4096 .f32) :
    Σ' (L1 : List (View.Piece (Elt F) S512x1 .f32)) (L2 : List (View.Piece (Elt F) S512x1 .f32)) (L3 : List (View.Piece (Elt F) S1x4096 .f32)) (L4 : List (View.Piece (Elt F) S4096x1 .f32)), { LS0 : List (View.Piece (Elt F) S1x4096 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ (∃ d, owns (c : Thread nD τ) arg4 fullShare d) ∗ (∃ d, owns (c : Thread nD τ) arg5 fullShare d) ∗ owns (c : Thread nD τ) arg6 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc0__stats_kernel i arg1 harg1 arg2 harg2 arg3 harg3 arg4 harg4 arg5 harg5 arg6 harg6) K } := by
  refine ⟨?_, ?_, ?_, ?_, ?_, fun E K => ?run⟩
  case run =>
    simp only [cc0__stats_kernel_eq_skeleton]; unfold cc0__stats_kernel_skel
    unfold owns
    iintro ⟨⟨%f0, %hf0, H0⟩, ⟨%d1, %f1, -, H1⟩, ⟨%d2, %f2, -, H2⟩, ⟨%d3, %f3, -, H3⟩, ⟨%d4, %f4, -, H4⟩, ⟨%fs0, %hfs0, HS0⟩, Hk⟩
    obtain rfl := harg1.eq_unread hf0; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; iexact H1
    isplitl [H2]
    · iexists _; iexact H2
    isplitl [H3]
    · iexists _; iexact H3
    isplitl [H4]
    · iexists _; iexact H4
    iexists _; iexact HS0

end Cert.Kernel.Hand

end
-- ==== Proof.K.Reg0.lean ====
/-
  The row-and-column statistics pipeline (pipeline 0) at the contents `V` its region is entered with: what each of the
  three kinds of strip (first, middle, last) leaves in every buffer, the accumulation of the running column sums over the
  sixteen strips, the proof data of the pipeline and the body's obligation at every strip. The scratch carries
  0 + (partial column sums of strips 0..n) after strip n; the last strip turns the complete sums into rsqrt (s + 1) and
  1 / (s + 1) + 1, and every strip writes rsqrt (row sum + 1) and 1 / (row sum + 1) + 1 for its 512 rows.
-/
import proofs.«132844_j8031588843576_2_alg».proof.Proof.K.Reg0RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The first strip: what its stores leave -/

/-- The row output `rsqrt (row sum + 1)`'s buffer after the body: its stores read back. -/
def out0_A_1 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : cond0_0 i) (hc1 : ¬cond0_1 i) (x0 : Vec F S512x4096 .f32) : Vec F S512x1 .f32 :=
  VO0_1.read (Elt F) (VO0_1.writes (Elt F) VO0_1.junk (kernelRun0_A c i arg1 harg1 arg2 harg2 arg3 harg3 arg4 harg4 arg5 harg5 arg6 harg6 hc0 hc1 x0).1)
theorem cover0_A_1 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : cond0_0 i) (hc1 : ¬cond0_1 i) (x0 : Vec F S512x4096 .f32) (y : S512x1.Idx) : ∃ pc ∈ (kernelRun0_A c i arg1 harg1 arg2 harg2 arg3 harg3 arg4 harg4 arg5 harg5 arg6 harg6 hc0 hc1 x0).1, y ∈ pc.1.set :=
  View.cover_of_tiledL (kernelRun0_A c i arg1 harg1 arg2 harg2 arg3 harg3 arg4 harg4 arg5 harg5 arg6 harg6 hc0 hc1 x0).1 S512x1.size (by sl_kernel_rfl) y
/-- The row output `1 / (row sum + 1) + 1`'s buffer after the body. -/
def out0_A_2 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : cond0_0 i) (hc1 : ¬cond0_1 i) (x0 : Vec F S512x4096 .f32) : Vec F S512x1 .f32 :=
  VO0_2.read (Elt F) (VO0_2.writes (Elt F) VO0_2.junk (kernelRun0_A c i arg1 harg1 arg2 harg2 arg3 harg3 arg4 harg4 arg5 harg5 arg6 harg6 hc0 hc1 x0).2.1)
theorem cover0_A_2 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : cond0_0 i) (hc1 : ¬cond0_1 i) (x0 : Vec F S512x4096 .f32) (y : S512x1.Idx) : ∃ pc ∈ (kernelRun0_A c i arg1 harg1 arg2 harg2 arg3 harg3 arg4 harg4 arg5 harg5 arg6 harg6 hc0 hc1 x0).2.1, y ∈ pc.1.set :=
  View.cover_of_tiledL (kernelRun0_A c i arg1 harg1 arg2 harg2 arg3 harg3 arg4 harg4 arg5 harg5 arg6 harg6 hc0 hc1 x0).2.1 S512x1.size (by sl_kernel_rfl) y
/-- The running column sums after the body. -/
def sout0_A_0 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : cond0_0 i) (hc1 : ¬cond0_1 i) (x0 : Vec F S512x4096 .f32) : Vec F S1x4096 .f32 :=
  VS0_0.read (Elt F) (VS0_0.writes (Elt F) VS0_0.junk (kernelRun0_A c i arg1 harg1 arg2 harg2 arg3 harg3 arg4 harg4 arg5 harg5 arg6 harg6 hc0 hc1 x0).2.2.1)
theorem scover0_A_0 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : cond0_0 i) (hc1 : ¬cond0_1 i) (x0 : Vec F S512x4096 .f32) (y : S1x4096.Idx) : ∃ pc ∈ (kernelRun0_A c i arg1 harg1 arg2 harg2 arg3 harg3 arg4 harg4 arg5 harg5 arg6 harg6 hc0 hc1 x0).2.2.1, y ∈ pc.1.set :=
  View.cover_of_tiledL (kernelRun0_A c i arg1 harg1 arg2 harg2 arg3 harg3 arg4 harg4 arg5 harg5 arg6 harg6 hc0 hc1 x0).2.2.1 S1x4096.size (by sl_kernel_rfl) y

/-! ## The middle strip: what its stores leave -/

/-- The row output `rsqrt (row sum + 1)`'s buffer after the body: its stores read back. -/
def out0_B_1 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : ¬cond0_0 i) (hc1 : ¬cond0_1 i) (x0 : Vec F S512x4096 .f32) (xs0 : Vec F S1x4096 .f32) : Vec F S512x1 .f32 :=
  VO0_1.read (Elt F) (VO0_1.writes (Elt F) VO0_1.junk (kernelRun0_B c i arg1 harg1 arg2 harg2 arg3 harg3 arg4 harg4 arg5 harg5 arg6 harg6 hc0 hc1 x0 xs0).1)
theorem cover0_B_1 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : ¬cond0_0 i) (hc1 : ¬cond0_1 i) (x0 : Vec F S512x4096 .f32) (xs0 : Vec F S1x4096 .f32) (y : S512x1.Idx) : ∃ pc ∈ (kernelRun0_B c i arg1 harg1 arg2 harg2 arg3 harg3 arg4 harg4 arg5 harg5 arg6 harg6 hc0 hc1 x0 xs0).1, y ∈ pc.1.set :=
  View.cover_of_tiledL (kernelRun0_B c i arg1 harg1 arg2 harg2 arg3 harg3 arg4 harg4 arg5 harg5 arg6 harg6 hc0 hc1 x0 xs0).1 S512x1.size (by sl_kernel_rfl) y
/-- The row output `1 / (row sum + 1) + 1`'s buffer after the body. -/
def out0_B_2 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : ¬cond0_0 i) (hc1 : ¬cond0_1 i) (x0 : Vec F S512x4096 .f32) (xs0 : Vec F S1x4096 .f32) : Vec F S512x1 .f32 :=
  VO0_2.read (Elt F) (VO0_2.writes (Elt F) VO0_2.junk (kernelRun0_B c i arg1 harg1 arg2 harg2 arg3 harg3 arg4 harg4 arg5 harg5 arg6 harg6 hc0 hc1 x0 xs0).2.1)
theorem cover0_B_2 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : ¬cond0_0 i) (hc1 : ¬cond0_1 i) (x0 : Vec F S512x4096 .f32) (xs0 : Vec F S1x4096 .f32) (y : S512x1.Idx) : ∃ pc ∈ (kernelRun0_B c i arg1 harg1 arg2 harg2 arg3 harg3 arg4 harg4 arg5 harg5 arg6 harg6 hc0 hc1 x0 xs0).2.1, y ∈ pc.1.set :=
  View.cover_of_tiledL (kernelRun0_B c i arg1 harg1 arg2 harg2 arg3 harg3 arg4 harg4 arg5 harg5 arg6 harg6 hc0 hc1 x0 xs0).2.1 S512x1.size (by sl_kernel_rfl) y
/-- The running column sums after the body. -/
def sout0_B_0 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : ¬cond0_0 i) (hc1 : ¬cond0_1 i) (x0 : Vec F S512x4096 .f32) (xs0 : Vec F S1x4096 .f32) : Vec F S1x4096 .f32 :=
  VS0_0.read (Elt F) (VS0_0.writes (Elt F) VS0_0.junk (kernelRun0_B c i arg1 harg1 arg2 harg2 arg3 harg3 arg4 harg4 arg5 harg5 arg6 harg6 hc0 hc1 x0 xs0).2.2.1)
theorem scover0_B_0 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : ¬cond0_0 i) (hc1 : ¬cond0_1 i) (x0 : Vec F S512x4096 .f32) (xs0 : Vec F S1x4096 .f32) (y : S1x4096.Idx) : ∃ pc ∈ (kernelRun0_B c i arg1 harg1 arg2 harg2 arg3 harg3 arg4 harg4 arg5 harg5 arg6 harg6 hc0 hc1 x0 xs0).2.2.1, y ∈ pc.1.set :=
  View.cover_of_tiledL (kernelRun0_B c i arg1 harg1 arg2 harg2 arg3 harg3 arg4 harg4 arg5 harg5 arg6 harg6 hc0 hc1 x0 xs0).2.2.1 S1x4096.size (by sl_kernel_rfl) y

/-! ## The last strip: what its stores leave -/

/-- The row output `rsqrt (row sum + 1)`'s buffer after the body: its stores read back. -/
def out0_C_1 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : ¬cond0_0 i) (hc1 : cond0_1 i) (x0 : Vec F S512x4096 .f32) (xs0 : Vec F S1x4096 .f32) : Vec F S512x1 .f32 :=
  VO0_1.read (Elt F) (VO0_1.writes (Elt F) VO0_1.junk (kernelRun0_C c i arg1 harg1 arg2 harg2 arg3 harg3 arg4 harg4 arg5 harg5 arg6 harg6 hc0 hc1 x0 xs0).1)
theorem cover0_C_1 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : ¬cond0_0 i) (hc1 : cond0_1 i) (x0 : Vec F S512x4096 .f32) (xs0 : Vec F S1x4096 .f32) (y : S512x1.Idx) : ∃ pc ∈ (kernelRun0_C c i arg1 harg1 arg2 harg2 arg3 harg3 arg4 harg4 arg5 harg5 arg6 harg6 hc0 hc1 x0 xs0).1, y ∈ pc.1.set :=
  View.cover_of_tiledL (kernelRun0_C c i arg1 harg1 arg2 harg2 arg3 harg3 arg4 harg4 arg5 harg5 arg6 harg6 hc0 hc1 x0 xs0).1 S512x1.size (by sl_kernel_rfl) y
/-- The row output `1 / (row sum + 1) + 1`'s buffer after the body. -/
def out0_C_2 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : ¬cond0_0 i) (hc1 : cond0_1 i) (x0 : Vec F S512x4096 .f32) (xs0 : Vec F S1x4096 .f32) : Vec F S512x1 .f32 :=
  VO0_2.read (Elt F) (VO0_2.writes (Elt F) VO0_2.junk (kernelRun0_C c i arg1 harg1 arg2 harg2 arg3 harg3 arg4 harg4 arg5 harg5 arg6 harg6 hc0 hc1 x0 xs0).2.1)
theorem cover0_C_2 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : ¬cond0_0 i) (hc1 : cond0_1 i) (x0 : Vec F S512x4096 .f32) (xs0 : Vec F S1x4096 .f32) (y : S512x1.Idx) : ∃ pc ∈ (kernelRun0_C c i arg1 harg1 arg2 harg2 arg3 harg3 arg4 harg4 arg5 harg5 arg6 harg6 hc0 hc1 x0 xs0).2.1, y ∈ pc.1.set :=
  View.cover_of_tiledL (kernelRun0_C c i arg1 harg1 arg2 harg2 arg3 harg3 arg4 harg4 arg5 harg5 arg6 harg6 hc0 hc1 x0 xs0).2.1 S512x1.size (by sl_kernel_rfl) y
/-- The column output `rsqrt (column sum + 1)`'s buffer after the body. -/
def out0_C_3 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : ¬cond0_0 i) (hc1 : cond0_1 i) (x0 : Vec F S512x4096 .f32) (xs0 : Vec F S1x4096 .f32) : Vec F S1x4096 .f32 :=
  VO0_3.read (Elt F) (VO0_3.writes (Elt F) VO0_3.junk (kernelRun0_C c i arg1 harg1 arg2 harg2 arg3 harg3 arg4 harg4 arg5 harg5 arg6 harg6 hc0 hc1 x0 xs0).2.2.1)
theorem cover0_C_3 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : ¬cond0_0 i) (hc1 : cond0_1 i) (x0 : Vec F S512x4096 .f32) (xs0 : Vec F S1x4096 .f32) (y : S1x4096.Idx) : ∃ pc ∈ (kernelRun0_C c i arg1 harg1 arg2 harg2 arg3 harg3 arg4 harg4 arg5 harg5 arg6 harg6 hc0 hc1 x0 xs0).2.2.1, y ∈ pc.1.set :=
  View.cover_of_tiledL (kernelRun0_C c i arg1 harg1 arg2 harg2 arg3 harg3 arg4 harg4 arg5 harg5 arg6 harg6 hc0 hc1 x0 xs0).2.2.1 S1x4096.size (by sl_kernel_rfl) y
/-- The column output `1 / (column sum + 1) + 1`'s buffer (a column) after the body. -/
def out0_C_4 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : ¬cond0_0 i) (hc1 : cond0_1 i) (x0 : Vec F S512x4096 .f32) (xs0 : Vec F S1x4096 .f32) : Vec F S4096x1 .f32 :=
  VO0_4.read (Elt F) (VO0_4.writes (Elt F) VO0_4.junk (kernelRun0_C c i arg1 harg1 arg2 harg2 arg3 harg3 arg4 harg4 arg5 harg5 arg6 harg6 hc0 hc1 x0 xs0).2.2.2.1)
theorem cover0_C_4 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : ¬cond0_0 i) (hc1 : cond0_1 i) (x0 : Vec F S512x4096 .f32) (xs0 : Vec F S1x4096 .f32) (y : S4096x1.Idx) : ∃ pc ∈ (kernelRun0_C c i arg1 harg1 arg2 harg2 arg3 harg3 arg4 harg4 arg5 harg5 arg6 harg6 hc0 hc1 x0 xs0).2.2.2.1, y ∈ pc.1.set :=
  View.cover_of_tiledL (kernelRun0_C c i arg1 harg1 arg2 harg2 arg3 harg3 arg4 harg4 arg5 harg5 arg6 harg6 hc0 hc1 x0 xs0).2.2.2.1 S4096x1.size (by sl_kernel_rfl) y
/-- The running column sums after the body. -/
def sout0_C_0 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : ¬cond0_0 i) (hc1 : cond0_1 i) (x0 : Vec F S512x4096 .f32) (xs0 : Vec F S1x4096 .f32) : Vec F S1x4096 .f32 :=
  VS0_0.read (Elt F) (VS0_0.writes (Elt F) VS0_0.junk (kernelRun0_C c i arg1 harg1 arg2 harg2 arg3 harg3 arg4 harg4 arg5 harg5 arg6 harg6 hc0 hc1 x0 xs0).2.2.2.2.1)
theorem scover0_C_0 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : ¬cond0_0 i) (hc1 : cond0_1 i) (x0 : Vec F S512x4096 .f32) (xs0 : Vec F S1x4096 .f32) (y : S1x4096.Idx) : ∃ pc ∈ (kernelRun0_C c i arg1 harg1 arg2 harg2 arg3 harg3 arg4 harg4 arg5 harg5 arg6 harg6 hc0 hc1 x0 xs0).2.2.2.2.1, y ∈ pc.1.set :=
  View.cover_of_tiledL (kernelRun0_C c i arg1 harg1 arg2 harg2 arg3 harg3 arg4 harg4 arg5 harg5 arg6 harg6 hc0 hc1 x0 xs0).2.2.2.2.1 S1x4096.size (by sl_kernel_rfl) y

/-! ## What the buffers hold after each strip -/

/-- Placeholders for the two column outputs' buffers at the strips where their windows are idle: nothing consults them. -/
def jnk0_3 : Vec F S1x4096 .f32 := VO0_3.read (Elt F) VO0_3.junk
def jnk0_4 : Vec F S4096x1 .f32 := VO0_4.read (Elt F) VO0_4.junk

/-- THE ACCUMULATION over the sixteen strips: after strip `n`, the four outputs' buffers and, last, the running column
    sums — the first strip from the reset, every later strip from what the strip before left, the last strip also
    writing the two column outputs. -/
def outsAt0 (c : Dev nD) : (n : ℕ) → n < cfg0.N → Vec F S512x1 .f32 × Vec F S512x1 .f32 × Vec F S1x4096 .f32 × Vec F S4096x1 .f32 × Vec F S1x4096 .f32
  | 0, hn => (out0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), jnk0_3, jnk0_4, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    have hN : n + 1 < 16 := lt_of_lt_of_eq hn (show cfg0.N = 16 from N_0)
    have h0 : ¬(n + 1) % 16 = 0 := by omega
    if h1 : (n + 1) % 16 = 15 then
      (out0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2.2.2, out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2.2.2, out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2.2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2.2.2)
    else
      (out0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2.2.2, out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2.2.2, jnk0_3, jnk0_4, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2.2.2)

theorem outsAt0_A (c : Dev nD) (t : Fin cfg0.N) (h0 : t.val % 16 = 0) (h1 : ¬t.val % 16 = 15) :
    outsAt0 V c t.val t.isLt = (out0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t), out0_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t), jnk0_3, jnk0_4, sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t)) := by
  obtain ⟨n, hn⟩ := t
  have hN : n < 16 := lt_of_lt_of_eq hn (show cfg0.N = 16 from N_0)
  cases n with
  | zero => exact rfl
  | succ n => exact absurd h0 (by (try dsimp only); omega)

theorem outsAt0_B (c : Dev nD) (t : Fin cfg0.N) (h0 : ¬t.val % 16 = 0) (h1 : ¬t.val % 16 = 15) :
    outsAt0 V c t.val t.isLt = (out0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2.2.2, out0_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2.2.2, jnk0_3, jnk0_4, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h1).trans rfl

theorem outsAt0_C (c : Dev nD) (t : Fin cfg0.N) (h0 : ¬t.val % 16 = 0) (h1 : t.val % 16 = 15) :
    outsAt0 V c t.val t.isLt = (out0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.2.2, out0_C_2 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.2.2, out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.2.2, out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_pos h1).trans rfl

/-- The invariant before strip `n`: before the first strip the class's (the scratch at anything); afterwards the scratch
    at the running column sums the strip before left, beside the other pipelines' buffers and the generator register. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.2) ∗ rest0 (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2.2.2.2) ∗ rest0 (F := F) c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2.2.2.2) ∗ rest0 (F := F) c) ∗ (∃ r, prngReg c r)) := by
  cases n with
  | zero => exact absurd rfl hz
  | succ n => rfl

/-! ## The pipeline's proof data -/

/-- The proof data of the statistics pipeline: the arrays as the region finds them; after strip `t` the input's buffer at
    its block and the outputs' at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2.1
    | ⟨3, _⟩ => (outsAt0 V c t.val t.isLt).2.2.1
    | ⟨4, _⟩ => (outsAt0 V c t.val t.isLt).2.2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2.1 := by dsimp only [dat0]
theorem after0_3 (c : Dev nD) (t : Fin cfg0.N) : (dat0 V c).after 3 t = (outsAt0 V c t.val t.isLt).2.2.1 := by dsimp only [dat0]
theorem after0_4 (c : Dev nD) (t : Fin cfg0.N) : (dat0 V c).after 4 t = (outsAt0 V c t.val t.isLt).2.2.2.1 := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation, at a generic strip -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any strip: the input's buffer holds its block; the closed forms say which of the three cases the strip is
    in; the invariant hands the body the scratch at what the strip before left (at anything before the first strip) and
    takes it back at this strip's running sums; the idle column outputs pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 16 := lt_of_lt_of_eq t.isLt (show cfg0.N = 16 from N_0)
  by_cases h0 : t.val % 16 = 0
  · by_cases h1 : t.val % 16 = 15
    · exfalso; omega
    ·
        rw [show (dat0 V c).leavesExact 0 t = owns (c : Thread nD τ) (ms0_0 t) fullShare ((dat0 V c).after 0 t) from by
          unfold Dat.leavesExact; rw [liveAt0_0 t], after0_0]
        rw [show (dat0 V c).leavesExact 1 t = owns (c : Thread nD τ) (ms0_1 t) fullShare ((dat0 V c).after 1 t) from by
          unfold Dat.leavesExact; rw [liveAt0_1 t], after0_1]
        rw [show (dat0 V c).leavesExact 2 t = owns (c : Thread nD τ) (ms0_2 t) fullShare ((dat0 V c).after 2 t) from by
          unfold Dat.leavesExact; rw [liveAt0_2 t], after0_2]
        rw [Dat.leavesExact_idle (dat0 V c) 3 t (idleAt0_3 t (fun h => h1 ((hcond0_1 t).mp h))) (noFlush0_3 t (fun h => h1 ((hcond0_1 t).mp h)))]
        rw [Dat.leavesExact_idle (dat0 V c) 4 t (idleAt0_4 t (fun h => h1 ((hcond0_1 t).mp h))) (noFlush0_4 t (fun h => h1 ((hcond0_1 t).mp h)))]
        rw [outsAt0_A V c t h0 h1]
        unfold out0_A_1 out0_A_2 sout0_A_0; (try dsimp only)
        rw [PhiS_castSucc V c t, PhiS_zero V c _ _ (by omega), PhiA0_eq]
        iintro ⟨⟨⟨HS0, Hrest⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t)).2.2.2 _ _ Set.univ _)
        isplitl [H0]; · iexact H0
        isplitl [H1]; · iexists _; iexact H1
        isplitl [H2]; · iexists _; iexact H2
        isplitl [H3]; · iexact H3
        isplitl [H4]; · iexact H4
        isplitl [HS0]; · iexact HS0
        iintro ⟨H0, ⟨%e1, H1⟩, ⟨%e2, H2⟩, H3, H4, ⟨%es0, HS0⟩⟩
        isplitl [HS0 Hrest Hg]
        · isplitl [HS0 Hrest]
          · isplitl [HS0]
            · unfold owns; iexists _; isplitr; swap; iexact HS0; ipureintro; exact View.read_writes_of_cover _ _ _ _ _ (scover0_A_0 c _ _ _ _ _ _ _ _ _ _ _ _ _ _ _ _)
            iexact Hrest
          iexact Hg
        isplitl [Ho]; · iexact Ho
        isplitl [H0]; · iexact H0
        isplitl [H1]
        · unfold owns; iexists _; isplitr; swap; iexact H1; ipureintro; exact View.read_writes_of_cover _ _ _ _ _ (cover0_A_1 c _ _ _ _ _ _ _ _ _ _ _ _ _ _ _ _)
        isplitl [H2]
        · unfold owns; iexists _; isplitr; swap; iexact H2; ipureintro; exact View.read_writes_of_cover _ _ _ _ _ (cover0_A_2 c _ _ _ _ _ _ _ _ _ _ _ _ _ _ _ _)
        isplitl [H3]; · iexists _; iexact H3
        iexists _; iexact H4
  · by_cases h1 : t.val % 16 = 15
    ·
        rw [show (dat0 V c).leavesExact 0 t = owns (c : Thread nD τ) (ms0_0 t) fullShare ((dat0 V c).after 0 t) from by
          unfold Dat.leavesExact; rw [liveAt0_0 t], after0_0]
        rw [show (dat0 V c).leavesExact 1 t = owns (c : Thread nD τ) (ms0_1 t) fullShare ((dat0 V c).after 1 t) from by
          unfold Dat.leavesExact; rw [liveAt0_1 t], after0_1]
        rw [show (dat0 V c).leavesExact 2 t = owns (c : Thread nD τ) (ms0_2 t) fullShare ((dat0 V c).after 2 t) from by
          unfold Dat.leavesExact; rw [liveAt0_2 t], after0_2]
        rw [show (dat0 V c).leavesExact 3 t = owns (c : Thread nD τ) (ms0_3 t) fullShare ((dat0 V c).after 3 t) from by
          unfold Dat.leavesExact; rw [liveAt0_3 t ((hcond0_1 t).mpr h1)], after0_3]
        rw [show (dat0 V c).leavesExact 4 t = owns (c : Thread nD τ) (ms0_4 t) fullShare ((dat0 V c).after 4 t) from by
          unfold Dat.leavesExact; rw [liveAt0_4 t ((hcond0_1 t).mpr h1)], after0_4]
        rw [outsAt0_C V c t h0 h1]
        unfold out0_C_1 out0_C_2 out0_C_3 out0_C_4 sout0_C_0; (try dsimp only)
        rw [PhiS_castSucc V c t, PhiS_pos V c _ _ (by omega)]
        iintro ⟨⟨⟨HS0, Hrest⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ (fun h => h0 ((hcond0_0 t).mp h)) ((hcond0_1 t).mpr h1) (iblk0 V c 0 t) _).2.2.2.2.2 Set.univ _)
        isplitl [H0]; · iexact H0
        isplitl [H1]; · iexists _; iexact H1
        isplitl [H2]; · iexists _; iexact H2
        isplitl [H3]; · iexists _; iexact H3
        isplitl [H4]; · iexists _; iexact H4
        isplitl [HS0]; · iexact HS0
        iintro ⟨H0, ⟨%e1, H1⟩, ⟨%e2, H2⟩, ⟨%e3, H3⟩, ⟨%e4, H4⟩, ⟨%es0, HS0⟩⟩
        isplitl [HS0 Hrest Hg]
        · isplitl [HS0 Hrest]
          · isplitl [HS0]
            · unfold owns; iexists _; isplitr; swap; iexact HS0; ipureintro; exact View.read_writes_of_cover _ _ _ _ _ (scover0_C_0 c _ _ _ _ _ _ _ _ _ _ _ _ _ _ _ _ _)
            iexact Hrest
          iexact Hg
        isplitl [Ho]; · iexact Ho
        isplitl [H0]; · iexact H0
        isplitl [H1]
        · unfold owns; iexists _; isplitr; swap; iexact H1; ipureintro; exact View.read_writes_of_cover _ _ _ _ _ (cover0_C_1 c _ _ _ _ _ _ _ _ _ _ _ _ _ _ _ _ _)
        isplitl [H2]
        · unfold owns; iexists _; isplitr; swap; iexact H2; ipureintro; exact View.read_writes_of_cover _ _ _ _ _ (cover0_C_2 c _ _ _ _ _ _ _ _ _ _ _ _ _ _ _ _ _)
        isplitl [H3]
        · unfold owns; iexists _; isplitr; swap; iexact H3; ipureintro; exact View.read_writes_of_cover _ _ _ _ _ (cover0_C_3 c _ _ _ _ _ _ _ _ _ _ _ _ _ _ _ _ _)
        unfold owns; iexists _; isplitr; swap; iexact H4; ipureintro; exact View.read_writes_of_cover _ _ _ _ _ (cover0_C_4 c _ _ _ _ _ _ _ _ _ _ _ _ _ _ _ _ _)
    ·
        rw [show (dat0 V c).leavesExact 0 t = owns (c : Thread nD τ) (ms0_0 t) fullShare ((dat0 V c).after 0 t) from by
          unfold Dat.leavesExact; rw [liveAt0_0 t], after0_0]
        rw [show (dat0 V c).leavesExact 1 t = owns (c : Thread nD τ) (ms0_1 t) fullShare ((dat0 V c).after 1 t) from by
          unfold Dat.leavesExact; rw [liveAt0_1 t], after0_1]
        rw [show (dat0 V c).leavesExact 2 t = owns (c : Thread nD τ) (ms0_2 t) fullShare ((dat0 V c).after 2 t) from by
          unfold Dat.leavesExact; rw [liveAt0_2 t], after0_2]
        rw [Dat.leavesExact_idle (dat0 V c) 3 t (idleAt0_3 t (fun h => h1 ((hcond0_1 t).mp h))) (noFlush0_3 t (fun h => h1 ((hcond0_1 t).mp h)))]
        rw [Dat.leavesExact_idle (dat0 V c) 4 t (idleAt0_4 t (fun h => h1 ((hcond0_1 t).mp h))) (noFlush0_4 t (fun h => h1 ((hcond0_1 t).mp h)))]
        rw [outsAt0_B V c t h0 h1]
        unfold out0_B_1 out0_B_2 sout0_B_0; (try dsimp only)
        rw [PhiS_castSucc V c t, PhiS_pos V c _ _ (by omega)]
        iintro ⟨⟨⟨HS0, Hrest⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ (fun h => h0 ((hcond0_0 t).mp h)) (fun h => h1 ((hcond0_1 t).mp h)) (iblk0 V c 0 t) _).2.2.2 _ _ Set.univ _)
        isplitl [H0]; · iexact H0
        isplitl [H1]; · iexists _; iexact H1
        isplitl [H2]; · iexists _; iexact H2
        isplitl [H3]; · iexact H3
        isplitl [H4]; · iexact H4
        isplitl [HS0]; · iexact HS0
        iintro ⟨H0, ⟨%e1, H1⟩, ⟨%e2, H2⟩, H3, H4, ⟨%es0, HS0⟩⟩
        isplitl [HS0 Hrest Hg]
        · isplitl [HS0 Hrest]
          · isplitl [HS0]
            · unfold owns; iexists _; isplitr; swap; iexact HS0; ipureintro; exact View.read_writes_of_cover _ _ _ _ _ (scover0_B_0 c _ _ _ _ _ _ _ _ _ _ _ _ _ _ _ _ _)
            iexact Hrest
          iexact Hg
        isplitl [Ho]; · iexact Ho
        isplitl [H0]; · iexact H0
        isplitl [H1]
        · unfold owns; iexists _; isplitr; swap; iexact H1; ipureintro; exact View.read_writes_of_cover _ _ _ _ _ (cover0_B_1 c _ _ _ _ _ _ _ _ _ _ _ _ _ _ _ _ _)
        isplitl [H2]
        · unfold owns; iexists _; isplitr; swap; iexact H2; ipureintro; exact View.read_writes_of_cover _ _ _ _ _ (cover0_B_2 c _ _ _ _ _ _ _ _ _ _ _ _ _ _ _ _ _)
        isplitl [H3]; · iexists _; iexact H3
        iexists _; iexact H4

/-- The library's body obligation, at every strip. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first strip. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last strip the invariant gives the class's back: the scratch's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 16 := N_0; omega), PhiA0_eq]
  iintro ⟨⟨HS0, Hrest⟩, Hg⟩
  isplitl [HS0 Hrest]
  · isplitl [HS0]
    · iexists _; iexact HS0
    iexact Hrest
  iexact Hg

end Cert.Kernel.Hand

end
-- ==== Proof.K.Reg1.lean ====
/-
  Pipeline 1 of the kernel program as printed at the contents `V` its region is entered with.

  The grid is 16 x 4. At point (i, j) the body reads three blocks — the 512 x 1024 tile (i, j) of the matrix, the
  512 x 1 strip i of the row scale and the 1 x 1024 strip j of the column scale — and fills two: the tile (i, j) of
  the first result with (row scale * matrix) * column scale, entry by entry, and the tile (j, i) of the second
  result with the transpose of that tile. Each result buffer is also read once before it is filled; what is read
  there is used by nothing.

  Stated here, for any float model: each window's block at a point as a reading of the array the region finds;
  what the body leaves in each window's buffer (an input's block as it was, a result's buffer at its one store,
  which covers it); the body's triple; and the body's obligation at every point of the grid.
-/
import proofs.«132844_j8031588843576_2_alg».proof.Proof.Gen.Kernel.Launch
import proofs.«132844_j8031588843576_2_alg».proof.Proof.Gen.Kernel.Skeleton
import proofs.«132844_j8031588843576_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, for any proof data whose array is `V`'s and
    whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point — also at the points where it is not fetched
    (the block index moves only with the first grid coordinate, so between fetches the block is the same one). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its buffer -/

abbrev r1_0 : Rect S512x1024 := Rect.unit (s := S512x1024) ![0, 0] S512x1024.size inb_S512x1024_S512x1024_0_0
abbrev r1_1 : Rect S512x1 := Rect.unit (s := S512x1) ![0, 0] S512x1.size inb_S512x1_S512x1_0_0
abbrev r1_2 : Rect S1x1024 := Rect.unit (s := S1x1024) ![0, 0] S1x1024.size inb_S1x1024_S1x1024_0_0
abbrev r1_4 : Rect S1024x512 := Rect.unit (s := S1024x512) ![0, 0] S1024x512.size inb_S1024x512_S1024x512_0_0

/-! ## What the body leaves in each result window's buffer -/

/-- Window 3's buffer after the body, from the input blocks: its one store, of the scaled tile. -/
def out1_3 (x0 : Vec F S512x1024 .f32) (x1 : Vec F S512x1 .f32) (x2 : Vec F S1x1024 .f32) : Vec F S512x1024 .f32 :=
  View.canon [⟨r1_0, k1_pay1 (View.ld x1 r1_1) (View.ld x0 r1_0) (View.ld x2 r1_2)⟩]

/-- The store is of the whole buffer, so it covers it. -/
theorem cover1_3 (p0 : Vec F S512x1024 .f32) (y : S512x1024.Idx) :
    ∃ pc ∈ ([⟨r1_0, p0⟩] : List (View.Piece (Elt F) S512x1024 .f32)), y ∈ pc.1.set :=
  View.cover_of_tiled [⟨r1_0, p0⟩] S512x1024.size (by rfl) y

/-- Window 4's buffer after the body, from the input blocks: its one store, of the scaled tile transposed. -/
def out1_4 (x0 : Vec F S512x1024 .f32) (x1 : Vec F S512x1 .f32) (x2 : Vec F S1x1024 .f32) : Vec F S1024x512 .f32 :=
  View.canon [⟨r1_4, k1_pay2 (View.ld x1 r1_1) (View.ld x0 r1_0) (View.ld x2 r1_2)⟩]

/-- The store is of the whole buffer, so it covers it. -/
theorem cover1_4 (p0 : Vec F S1024x512 .f32) (y : S1024x512.Idx) :
    ∃ pc ∈ ([⟨r1_4, p0⟩] : List (View.Piece (Elt F) S1024x512 .f32)), y ∈ pc.1.set :=
  View.cover_of_tiled [⟨r1_4, p0⟩] S1024x512.size (by rfl) y

/-! ## The body's triple -/

set_option maxHeartbeats 1000000 in
/-- The body on whole buffers, the inputs' at read contents `xW` and the results' at anything, runs to the
    continuation holding the inputs' as they were and each result's at `out1_W` of the inputs'. -/
theorem sound_kernel1 (c : Dev nD) (E : Set ℕ) (i : grid1.Coords)
    (arg2 : Memref sig .tc .vmem S512x1024 .f32) (harg2 : arg2.IsWhole) (arg3 : Memref sig .tc .vmem S512x1 .f32) (harg3 : arg3.IsWhole)
    (arg4 : Memref sig .tc .vmem S1x1024 .f32) (harg4 : arg4.IsWhole) (arg5 : Memref sig .tc .vmem S512x1024 .f32) (harg5 : arg5.IsWhole)
    (arg6 : Memref sig .tc .vmem S1024x512 .f32) (harg6 : arg6.IsWhole)
    (x0 : Vec F S512x1024 .f32) (x1 : Vec F S512x1 .f32) (x2 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2) ∗ owns (c : Thread nD τ) arg6 fullShare (out1_4 x0 x1 x2)) -∗ K ⟨⟩))
      ⊢ wp frame (wpE (defs₀ (F := F)) Variants.none c none) E (cc1__agg_fused_kernel i arg2 harg2 arg3 harg3 arg4 harg4 arg5 harg5 arg6 harg6) K := by
  simp only [cc1__agg_fused_kernel_eq_skeleton]; unfold cc1__agg_fused_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-! ## The pipeline's proof data -/

/-- The proof data of pipeline 1 on core `c`: the arrays as the region finds them; after the body at point `t` each
    input's buffer at its block and each result's at `out1_W` of the input blocks; the invariant the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]
theorem after1_4 (c : Dev nD) (t : Fin cfg1.N) :
    (dat1 V c).after 4 t = out1_4 (iblk1 V c 0 t) (iblk1 V c 1 t) (iblk1 V c 2 t) := by dsimp only [dat1]

/-- Each input's current buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body's obligation, at every point. -/
theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := .rfl

theorem hout1 (c : Dev nD) : (dat1 V c).Φ (Fin.last cfg1.N) ⊢ Pipeline.ΦA spec1 c := .rfl

end Cert.Kernel.Hand

end
-- ==== Proof.K.Reg2.lean ====
/-
  Pipeline 2 of the kernel program as printed (the diagonal kernel on its 8x8 grid of 1024x1024 tiles), at the
  contents `V` its region is entered with. At grid point (i, j) the body stores the whole output tile: on the
  diagonal (i = j) the tile whose entry (r, s) is the input block's entry (r, 0) if r = s and zero otherwise; off the
  diagonal (i ≠ j) the zero tile. Exactly one of the body's two conditionals holds at every point, so what the body
  leaves in the output window's buffer is the single store of the case the point is in, and nothing is carried from
  point to point. The input window's buffer holds the input's block (i, 0) at every point, fetched there or not.
-/
import proofs.«132844_j8031588843576_2_alg».proof.Proof.Gen.Kernel.Launch
import proofs.«132844_j8031588843576_2_alg».proof.Proof.Gen.Kernel.Skeleton
import proofs.«132844_j8031588843576_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's current buffer holds its block at every point, fetched there or not (an unfetched point has
    the block index of the point before), for any proof data whose array is `V`'s and whose body leaves the block
    in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-! ## The body's two cases -/

/-- The first conditional is taken exactly where the second is not. -/
theorem hcond2 : ∀ t : Fin cfg2.N, k2_cond2 (grid2.coords t) = 1#1 ↔ ¬ k2_cond1 (grid2.coords t) = 1#1 :=
  (by decide +kernel : ∀ t : Fin grid2.N, k2_cond2 (grid2.coords t) = 1#1 ↔ ¬ k2_cond1 (grid2.coords t) = 1#1)

/-- The input window is idle at no point, -/
theorem liveAt2_0 : ∀ t : Fin cfg2.N, cfg2.idle 0 (grid2.coords t) = false := by decide +kernel
/-- and neither is the output window: one of the two stores happens at each point. -/
theorem liveAt2_1 : ∀ t : Fin cfg2.N, cfg2.idle 1 (grid2.coords t) = false := by decide +kernel

/-! ## The body's accesses and what it leaves in the output window's buffer -/

abbrev r2_0 : Rect S1024x1 := Rect.unit (s := S1024x1) ![0, 0] S1024x1.size inb_S1024x1_S1024x1_0_0
abbrev r2_1 : Rect S1024x1024 := Rect.unit (s := S1024x1024) ![0, 0] S1024x1024.size inb_S1024x1024_S1024x1024_0_0

/-- On the diagonal: the one store of the selected tile, over the input block. -/
def out2_diag (x0 : Vec F S1024x1 .f32) : Vec F S1024x1024 .f32 :=
  View.canon [⟨r2_1, k2_pay1 (View.ld x0 r2_0)⟩]

/-- Off the diagonal: the one store of the zero tile. -/
def out2_off : Vec F S1024x1024 .f32 :=
  View.canon [⟨r2_1, k2_pay2 (F := F)⟩]

/-- The one whole-tile store covers the buffer. -/
theorem cover2_1 (p0 : Vec F S1024x1024 .f32) (y : S1024x1024.Idx) :
    ∃ pc ∈ ([⟨r2_1, p0⟩] : List (View.Piece (Elt F) S1024x1024 .f32)), y ∈ pc.1.set :=
  View.cover_of_tiled [⟨r2_1, p0⟩] S1024x1024.size (by rfl) y

/-! ## The body's triple, case by case -/

set_option maxHeartbeats 1000000 in
/-- On the diagonal (the first conditional taken, the second not) the body, on whole staging memrefs with the input's
    at contents `x0` and the output's at anything, runs to the continuation holding the input's as it was and the
    output's at `out2_diag x0`. -/
theorem sound_kernel2_diag (c : Dev nD) (E : Set ℕ) (i : grid2.Coords) (arg2 : Memref sig .tc .vmem S1024x1 .f32) (harg2 : arg2.IsWhole) (arg3 : Memref sig .tc .vmem S1024x1024 .f32) (harg3 : arg3.IsWhole)
    (h1 : k2_cond1 i = 1#1) (h2 : ¬ k2_cond2 i = 1#1)
    (x0 : Vec F S1024x1 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out2_diag x0)) -∗ K ⟨⟩))
      ⊢ wp frame (wpE (defs₀ (F := F)) Variants.none c none) E (cc2__diag_kernel i arg2 harg2 arg3 harg3) K := by
  simp only [cc2__diag_kernel_eq_skeleton]; unfold cc2__diag_kernel_skel
  unfold owns
  iintro ⟨⟨%f0, %hf0, H0⟩, ⟨%d1, %f1, -, H1⟩, Hk⟩
  subst hf0
  sl_exec (disch := first | exact h1 | exact h2)
  sl_step
  iapply Hk
  isplitl [H0]
  · iexists f0; isplitr; · ipureintro; rfl
    iexact H0
  iexists _; isplitr
  swap; · iexact H1
  ipureintro
  exact View.read_writes_eq_canon _ _ _ (cover2_1 _)

set_option maxHeartbeats 1000000 in
/-- Off the diagonal (the first conditional not taken, the second taken) the body runs to the continuation holding
    the input's buffer as it was and the output's at `out2_off`. -/
theorem sound_kernel2_off (c : Dev nD) (E : Set ℕ) (i : grid2.Coords) (arg2 : Memref sig .tc .vmem S1024x1 .f32) (harg2 : arg2.IsWhole) (arg3 : Memref sig .tc .vmem S1024x1024 .f32) (harg3 : arg3.IsWhole)
    (h1 : ¬ k2_cond1 i = 1#1) (h2 : k2_cond2 i = 1#1)
    (x0 : Vec F S1024x1 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out2_off (F := F))) -∗ K ⟨⟩))
      ⊢ wp frame (wpE (defs₀ (F := F)) Variants.none c none) E (cc2__diag_kernel i arg2 harg2 arg3 harg3) K := by
  simp only [cc2__diag_kernel_eq_skeleton]; unfold cc2__diag_kernel_skel
  unfold owns
  iintro ⟨⟨%f0, %hf0, H0⟩, ⟨%d1, %f1, -, H1⟩, Hk⟩
  subst hf0
  sl_exec (disch := first | exact h1 | exact h2)
  sl_step
  iapply Hk
  isplitl [H0]
  · iexists f0; isplitr; · ipureintro; rfl
    iexact H0
  iexists _; isplitr
  swap; · iexact H1
  ipureintro
  exact View.read_writes_eq_canon _ _ _ (cover2_1 _)

/-! ## The pipeline's proof data -/

/-- The proof data of pipeline 2 on core `c`: the arrays as the region finds them; after the body at point `t` the
    input's buffer at its block and the output's at the store of the case the point is in; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => if k2_cond1 (grid2.coords t) = 1#1 then out2_diag (iblk2 V c 0 t) else out2_off
  Φ _ := Pipeline.ΦA spec2 c
  q _ := fullShare
  owed _ := 0

theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) :
    (dat2 V c).after 1 t = if k2_cond1 (grid2.coords t) = 1#1 then out2_diag (iblk2 V c 0 t) else out2_off := by dsimp only [dat2]
theorem after2_1_diag (c : Dev nD) (t : Fin cfg2.N) (h : k2_cond1 (grid2.coords t) = 1#1) :
    (dat2 V c).after 1 t = out2_diag (iblk2 V c 0 t) := by rw [after2_1, if_pos h]
theorem after2_1_off (c : Dev nD) (t : Fin cfg2.N) (h : ¬ k2_cond1 (grid2.coords t) = 1#1) :
    (dat2 V c).after 1 t = out2_off := by rw [after2_1, if_neg h]

/-- The input's current buffer holds its block at every point. -/
theorem before2_0 (c : Dev nD) (t : Fin cfg2.N) (d) : (dat2 V c).before 0 t d = iblk2 V c 0 t :=
  before2_0_of V (dat2 V c) (A_eq2 V c 0) (after2_0 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t)

/-- The body at any point: the input's memref holds its block, the point is in one of the two cases, and that case's
    triple applies; the invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t]]
  by_cases h1 : k2_cond1 (grid2.coords t) = 1#1
  · have h2 : ¬ k2_cond2 (grid2.coords t) = 1#1 := fun h => (hcond2 t).mp h h1
    rw [after2_1_diag V c t h1]
    iintro ⟨HΦ, Ho, ⟨%d0, H0⟩, ⟨%d1, H1⟩⟩
    iapply (sound_kernel2_diag c Set.univ _ _ _ _ _ h1 h2 (iblk2 V c 0 t) _)
    isplitl [H0]; · iexact H0
    isplitl [H1]; · iexists _; iexact H1
    iintro ⟨H0, H1⟩
    isplitl [HΦ]; · iexact HΦ
    isplitl [Ho]; · iexact Ho
    isplitl [H0]; · iexact H0
    iexact H1
  · have h2 : k2_cond2 (grid2.coords t) = 1#1 := (hcond2 t).mpr h1
    rw [after2_1_off V c t h1]
    iintro ⟨HΦ, Ho, ⟨%d0, H0⟩, ⟨%d1, H1⟩⟩
    iapply (sound_kernel2_off c Set.univ _ _ _ _ _ h1 h2 (iblk2 V c 0 t) _)
    isplitl [H0]; · iexact H0
    isplitl [H1]; · iexists _; iexact H1
    iintro ⟨H0, H1⟩
    isplitl [HΦ]; · iexact HΦ
    isplitl [Ho]; · iexact Ho
    isplitl [H0]; · iexact H0
    iexact H1

/-- The library's body obligation, at every point: the output window is idle nowhere. -/
theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := .rfl

theorem hout2 (c : Dev nD) : (dat2 V c).Φ (Fin.last cfg2.N) ⊢ Pipeline.ΦA spec2 c := .rfl

end Cert.Kernel.Hand

end
-- ==== Proof.K.Reg3.lean ====
/-
  Pipeline 3 of the kernel program as printed (the diagonal kernel on its 4x4 grid of 1024x1024 tiles), at the
  contents `V` its region is entered with. At grid point (i, j) the body stores the whole output tile: on the
  diagonal (i = j) the tile whose entry (r, s) is the input block's entry (r, 0) if r = s and zero otherwise; off the
  diagonal (i ≠ j) the zero tile. Exactly one of the body's two conditionals holds at every point, so what the body
  leaves in the output window's buffer is the single store of the case the point is in, and nothing is carried from
  point to point. The input window's buffer holds the input's block (i, 0) at every point, fetched there or not.
-/
import proofs.«132844_j8031588843576_2_alg».proof.Proof.Gen.Kernel.Launch
import proofs.«132844_j8031588843576_2_alg».proof.Proof.Gen.Kernel.Skeleton
import proofs.«132844_j8031588843576_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The input window's current buffer holds its block at every point, fetched there or not (an unfetched point has
    the block index of the point before), for any proof data whose array is `V`'s and whose body leaves the block
    in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-! ## The body's two cases -/

/-- The first conditional is taken exactly where the second is not. -/
theorem hcond3 : ∀ t : Fin cfg3.N, k3_cond2 (grid3.coords t) = 1#1 ↔ ¬ k3_cond1 (grid3.coords t) = 1#1 :=
  (by decide +kernel : ∀ t : Fin grid3.N, k3_cond2 (grid3.coords t) = 1#1 ↔ ¬ k3_cond1 (grid3.coords t) = 1#1)

/-- The input window is idle at no point, -/
theorem liveAt3_0 : ∀ t : Fin cfg3.N, cfg3.idle 0 (grid3.coords t) = false := by decide +kernel
/-- and neither is the output window: one of the two stores happens at each point. -/
theorem liveAt3_1 : ∀ t : Fin cfg3.N, cfg3.idle 1 (grid3.coords t) = false := by decide +kernel

/-! ## The body's accesses and what it leaves in the output window's buffer -/

abbrev r3_0 : Rect S1024x1 := Rect.unit (s := S1024x1) ![0, 0] S1024x1.size inb_S1024x1_S1024x1_0_0
abbrev r3_1 : Rect S1024x1024 := Rect.unit (s := S1024x1024) ![0, 0] S1024x1024.size inb_S1024x1024_S1024x1024_0_0

/-- On the diagonal: the one store of the selected tile, over the input block. -/
def out3_diag (x0 : Vec F S1024x1 .f32) : Vec F S1024x1024 .f32 :=
  View.canon [⟨r3_1, k3_pay1 (View.ld x0 r3_0)⟩]

/-- Off the diagonal: the one store of the zero tile. -/
def out3_off : Vec F S1024x1024 .f32 :=
  View.canon [⟨r3_1, k3_pay2 (F := F)⟩]

/-- The one whole-tile store covers the buffer. -/
theorem cover3_1 (p0 : Vec F S1024x1024 .f32) (y : S1024x1024.Idx) :
    ∃ pc ∈ ([⟨r3_1, p0⟩] : List (View.Piece (Elt F) S1024x1024 .f32)), y ∈ pc.1.set :=
  View.cover_of_tiled [⟨r3_1, p0⟩] S1024x1024.size (by rfl) y

/-! ## The body's triple, case by case -/

set_option maxHeartbeats 1000000 in
/-- On the diagonal (the first conditional taken, the second not) the body, on whole staging memrefs with the input's
    at contents `x0` and the output's at anything, runs to the continuation holding the input's as it was and the
    output's at `out3_diag x0`. -/
theorem sound_kernel3_diag (c : Dev nD) (E : Set ℕ) (i : grid3.Coords) (arg2 : Memref sig .tc .vmem S1024x1 .f32) (harg2 : arg2.IsWhole) (arg3 : Memref sig .tc .vmem S1024x1024 .f32) (harg3 : arg3.IsWhole)
    (h1 : k3_cond1 i = 1#1) (h2 : ¬ k3_cond2 i = 1#1)
    (x0 : Vec F S1024x1 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out3_diag x0)) -∗ K ⟨⟩))
      ⊢ wp frame (wpE (defs₀ (F := F)) Variants.none c none) E (cc3__diag_kernel i arg2 harg2 arg3 harg3) K := by
  simp only [cc3__diag_kernel_eq_skeleton]; unfold cc3__diag_kernel_skel
  unfold owns
  iintro ⟨⟨%f0, %hf0, H0⟩, ⟨%d1, %f1, -, H1⟩, Hk⟩
  subst hf0
  sl_exec (disch := first | exact h1 | exact h2)
  sl_step
  iapply Hk
  isplitl [H0]
  · iexists f0; isplitr; · ipureintro; rfl
    iexact H0
  iexists _; isplitr
  swap; · iexact H1
  ipureintro
  exact View.read_writes_eq_canon _ _ _ (cover3_1 _)

set_option maxHeartbeats 1000000 in
/-- Off the diagonal (the first conditional not taken, the second taken) the body runs to the continuation holding
    the input's buffer as it was and the output's at `out3_off`. -/
theorem sound_kernel3_off (c : Dev nD) (E : Set ℕ) (i : grid3.Coords) (arg2 : Memref sig .tc .vmem S1024x1 .f32) (harg2 : arg2.IsWhole) (arg3 : Memref sig .tc .vmem S1024x1024 .f32) (harg3 : arg3.IsWhole)
    (h1 : ¬ k3_cond1 i = 1#1) (h2 : k3_cond2 i = 1#1)
    (x0 : Vec F S1024x1 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out3_off (F := F))) -∗ K ⟨⟩))
      ⊢ wp frame (wpE (defs₀ (F := F)) Variants.none c none) E (cc3__diag_kernel i arg2 harg2 arg3 harg3) K := by
  simp only [cc3__diag_kernel_eq_skeleton]; unfold cc3__diag_kernel_skel
  unfold owns
  iintro ⟨⟨%f0, %hf0, H0⟩, ⟨%d1, %f1, -, H1⟩, Hk⟩
  subst hf0
  sl_exec (disch := first | exact h1 | exact h2)
  sl_step
  iapply Hk
  isplitl [H0]
  · iexists f0; isplitr; · ipureintro; rfl
    iexact H0
  iexists _; isplitr
  swap; · iexact H1
  ipureintro
  exact View.read_writes_eq_canon _ _ _ (cover3_1 _)

/-! ## The pipeline's proof data -/

/-- The proof data of pipeline 3 on core `c`: the arrays as the region finds them; after the body at point `t` the
    input's buffer at its block and the output's at the store of the case the point is in; the invariant the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => if k3_cond1 (grid3.coords t) = 1#1 then out3_diag (iblk3 V c 0 t) else out3_off
  Φ _ := Pipeline.ΦA spec3 c
  q _ := fullShare
  owed _ := 0

theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) :
    (dat3 V c).after 1 t = if k3_cond1 (grid3.coords t) = 1#1 then out3_diag (iblk3 V c 0 t) else out3_off := by dsimp only [dat3]
theorem after3_1_diag (c : Dev nD) (t : Fin cfg3.N) (h : k3_cond1 (grid3.coords t) = 1#1) :
    (dat3 V c).after 1 t = out3_diag (iblk3 V c 0 t) := by rw [after3_1, if_pos h]
theorem after3_1_off (c : Dev nD) (t : Fin cfg3.N) (h : ¬ k3_cond1 (grid3.coords t) = 1#1) :
    (dat3 V c).after 1 t = out3_off := by rw [after3_1, if_neg h]

/-- The input's current buffer holds its block at every point. -/
theorem before3_0 (c : Dev nD) (t : Fin cfg3.N) (d) : (dat3 V c).before 0 t d = iblk3 V c 0 t :=
  before3_0_of V (dat3 V c) (A_eq3 V c 0) (after3_0 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t)

/-- The body at any point: the input's memref holds its block, the point is in one of the two cases, and that case's
    triple applies; the invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).Φ t.succ = (dat3 V c).Φ t.castSucc from rfl,
    show (dat3 V c).owesAt () t.succ = (dat3 V c).owesAt () t.castSucc from rfl]
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t]]
  by_cases h1 : k3_cond1 (grid3.coords t) = 1#1
  · have h2 : ¬ k3_cond2 (grid3.coords t) = 1#1 := fun h => (hcond3 t).mp h h1
    rw [after3_1_diag V c t h1]
    iintro ⟨HΦ, Ho, ⟨%d0, H0⟩, ⟨%d1, H1⟩⟩
    iapply (sound_kernel3_diag c Set.univ _ _ _ _ _ h1 h2 (iblk3 V c 0 t) _)
    isplitl [H0]; · iexact H0
    isplitl [H1]; · iexists _; iexact H1
    iintro ⟨H0, H1⟩
    isplitl [HΦ]; · iexact HΦ
    isplitl [Ho]; · iexact Ho
    isplitl [H0]; · iexact H0
    iexact H1
  · have h2 : k3_cond2 (grid3.coords t) = 1#1 := (hcond3 t).mpr h1
    rw [after3_1_off V c t h1]
    iintro ⟨HΦ, Ho, ⟨%d0, H0⟩, ⟨%d1, H1⟩⟩
    iapply (sound_kernel3_off c Set.univ _ _ _ _ _ h1 h2 (iblk3 V c 0 t) _)
    isplitl [H0]; · iexact H0
    isplitl [H1]; · iexists _; iexact H1
    iintro ⟨H0, H1⟩
    isplitl [HΦ]; · iexact HΦ
    isplitl [Ho]; · iexact Ho
    isplitl [H0]; · iexact H0
    iexact H1

/-- The library's body obligation, at every point: the output window is idle nowhere. -/
theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := .rfl

theorem hout3 (c : Dev nD) : (dat3 V c).Φ (Fin.last cfg3.N) ⊢ Pipeline.ΦA spec3 c := .rfl

end Cert.Kernel.Hand

end
-- ==== Proof.K.Run.lean ====
/-
  The run of the kernel program as printed: its four kernel regions one after another from the launch memory.
  The buffers' contents at each boundary are a fold through the program — a region leaves each of its windows'
  arrays at what its pipeline's write-backs make of it and every other buffer as it found it — and each region is
  entered from the contents the one before it leaves. Every weakly fair execution terminates with every unscoped
  buffer at the last boundary's contents; the argument array is never written, so it ends as launched.
-/
import proofs.«132844_j8031588843576_2_alg».proof.Proof.K.Reg0
import proofs.«132844_j8031588843576_2_alg».proof.Proof.K.Reg1
import proofs.«132844_j8031588843576_2_alg».proof.Proof.K.Reg2
import proofs.«132844_j8031588843576_2_alg».proof.Proof.K.Reg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents at each boundary: a fold through the program -/

/-- Core `c`'s buffers at launch (region 0's entry). -/
abbrev W0 : Dev nD → Valuation τ sig (Elt F) := fun c b => m ((c : Dev nD), b)
/-- The same read at the TensorCore's references (what region 0's proof data take). -/
abbrev V0 : (c : Dev nD) → (b : Ref sig .tc) → Buf (Elt F) ((c : Thread nD τ).loc b) := fun c b => W0 m c b

/-- At region 0's exit (region 1's entry): its arrays at what the pipeline leaves (an input as entered, an output's write-backs
    folded), every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references (region 0's exit contents). -/
abbrev V1 : (c : Dev nD) → (b : Ref sig .tc) → Buf (Elt F) ((c : Thread nD τ).loc b) := fun c b => W1 m c b
/-- At region 0's exit each of its arrays holds what the pipeline leaves (`hF0`) and every other buffer what it
    held at entry (`hrest0`). -/
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- At region 1's exit (region 2's entry): its arrays at what the pipeline leaves (an input as entered, an output's write-backs
    folded), every other buffer as entered. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
/-- The same read at the TensorCore's references (region 1's exit contents). -/
abbrev V2 : (c : Dev nD) → (b : Ref sig .tc) → Buf (Elt F) ((c : Thread nD τ).loc b) := fun c b => W2 m c b
/-- At region 1's exit each of its arrays holds what the pipeline leaves (`hF1`) and every other buffer what it
    held at entry (`hrest1`). -/
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-- At region 2's exit (region 3's entry): its arrays at what the pipeline leaves (an input as entered, an output's write-backs
    folded), every other buffer as entered. -/
def W3 (c : Dev nD) : Valuation τ sig (Elt F) :=
  Pipeline.withArrays spec2 c (W2 m c) fun w => (dat2 (V2 m) c).arrAt w cfg2.N
theorem W3_arr (c : Dev nD) (w : Fin cfg2.W) :
    W3 m c (Proc.devRef .tc (Pipeline.arrRef spec2 w)) = (dat2 (V2 m) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m c (Proc.devRef .tc b) = W2 m c (Proc.devRef .tc b) := by
  unfold W3; exact Pipeline.withArrays_of_ne spec2 c _ _ b hb
/-- The same read at the TensorCore's references (region 2's exit contents). -/
abbrev V3 : (c : Dev nD) → (b : Ref sig .tc) → Buf (Elt F) ((c : Thread nD τ).loc b) := fun c b => W3 m c b
/-- At region 2's exit each of its arrays holds what the pipeline leaves (`hF2`) and every other buffer what it
    held at entry (`hrest2`). -/
theorem hF2 (c : Dev nD) (w : Fin cfg2.W) : (dat2 (V2 m) c).arrAt w cfg2.N = V3 m c (Pipeline.arrRef spec2 w) :=
  (W3_arr m c w).symm
theorem hrest2 (c : Dev nD) : ∀ b, b ∉ Finset.univ.image (Pipeline.arrRef spec2) → V3 m c b = V2 m c b :=
  fun b hb => W3_of_ne m c b fun w e => hb (Finset.mem_image.mpr ⟨w, Finset.mem_univ _, e⟩)

/-- At region 3's exit (the end): its arrays at what the pipeline leaves (an input as entered, an output's write-backs
    folded), every other buffer as entered. -/
def W4 (c : Dev nD) : Valuation τ sig (Elt F) :=
  Pipeline.withArrays spec3 c (W3 m c) fun w => (dat3 (V3 m) c).arrAt w cfg3.N
theorem W4_arr (c : Dev nD) (w : Fin cfg3.W) :
    W4 m c (Proc.devRef .tc (Pipeline.arrRef spec3 w)) = (dat3 (V3 m) c).arrAt w cfg3.N := by
  unfold W4; exact Pipeline.withArrays_arr spec3 launch3.win.arr_inj c _ _ w
theorem W4_of_ne (c : Dev nD) (b : Ref sig .tc) (hb : ∀ w, Pipeline.arrRef spec3 w ≠ b) :
    W4 m c (Proc.devRef .tc b) = W3 m c (Proc.devRef .tc b) := by
  unfold W4; exact Pipeline.withArrays_of_ne spec3 c _ _ b hb
/-- The same read at the TensorCore's references (region 3's exit contents). -/
abbrev V4 : (c : Dev nD) → (b : Ref sig .tc) → Buf (Elt F) ((c : Thread nD τ).loc b) := fun c b => W4 m c b
/-- At region 3's exit each of its arrays holds what the pipeline leaves (`hF3`) and every other buffer what it
    held at entry (`hrest3`). -/
theorem hF3 (c : Dev nD) (w : Fin cfg3.W) : (dat3 (V3 m) c).arrAt w cfg3.N = V4 m c (Pipeline.arrRef spec3 w) :=
  (W4_arr m c w).symm
theorem hrest3 (c : Dev nD) : ∀ b, b ∉ Finset.univ.image (Pipeline.arrRef spec3) → V4 m c b = V3 m c b :=
  fun b hb => W4_of_ne m c b fun w e => hb (Finset.mem_image.mpr ⟨w, Finset.mem_univ _, e⟩)

/-! ## What each region finds in the buffers it reads, and what the end holds

Each read walks the fold back: past a region none of whose windows is on the buffer (`WJ_of_ne`), to the region that
wrote it (`WJ_arr`) or, for an input window, through that region unchanged. -/

/-- Region 1 finds the argument array as launched: region 0 only reads it. -/
theorem V1_main_arg0 (c : Dev nD) : V1 m c main_arg0 = m ((c : Thread nD τ).loc main_arg0) :=
  (W1_arr m c 0).trans (((dat0 (V0 m) c).arrAt_in 0 rfl _).trans (A_eq0 (V0 m) c 0))
/-- Region 1 finds in `main_v0_0` what region 0's window 1 leaves. -/
theorem V1_main_v0_0 (c : Dev nD) : V1 m c main_v0_0 = (dat0 (V0 m) c).arrAt 1 cfg0.N := W1_arr m c 1
/-- Region 1 finds in `main_v0_2` what region 0's window 3 leaves. -/
theorem V1_main_v0_2 (c : Dev nD) : V1 m c main_v0_2 = (dat0 (V0 m) c).arrAt 3 cfg0.N := W1_arr m c 3
/-- Region 2 finds in `main_v0_1` what region 0's window 2 leaves: region 1 has no window on it. -/
theorem V2_main_v0_1 (c : Dev nD) : V2 m c main_v0_1 = (dat0 (V0 m) c).arrAt 2 cfg0.N :=
  (W2_of_ne m c main_v0_1 (by decide)).trans (W1_arr m c 2)
/-- Region 3 finds in `main_v0_3` what region 0's window 4 leaves: regions 1 and 2 have no window on it. -/
theorem V3_main_v0_3 (c : Dev nD) : V3 m c main_v0_3 = (dat0 (V0 m) c).arrAt 4 cfg0.N :=
  (W3_of_ne m c main_v0_3 (by decide)).trans ((W2_of_ne m c main_v0_3 (by decide)).trans (W1_arr m c 4))
/-- Region 2 is entered with the argument array as launched: region 1 only reads it. -/
theorem V2_main_arg0 (c : Dev nD) : V2 m c main_arg0 = m ((c : Thread nD τ).loc main_arg0) :=
  (W2_arr m c 0).trans (((dat1 (V1 m) c).arrAt_in 0 rfl _).trans ((A_eq1 (V1 m) c 0).trans (V1_main_arg0 m c)))
/-- The end holds in `main_v1_0` what region 1's window 3 leaves. -/
theorem V4_main_v1_0 (c : Dev nD) : V4 m c main_v1_0 = (dat1 (V1 m) c).arrAt 3 cfg1.N :=
  (W4_of_ne m c main_v1_0 (by decide)).trans ((W3_of_ne m c main_v1_0 (by decide)).trans (W2_arr m c 3))
/-- The end holds in `main_v1_1` what region 1's window 4 leaves. -/
theorem V4_main_v1_1 (c : Dev nD) : V4 m c main_v1_1 = (dat1 (V1 m) c).arrAt 4 cfg1.N :=
  (W4_of_ne m c main_v1_1 (by decide)).trans ((W3_of_ne m c main_v1_1 (by decide)).trans (W2_arr m c 4))
/-- The end holds in `main_v2` what region 2's window 1 leaves. -/
theorem V4_main_v2 (c : Dev nD) : V4 m c main_v2 = (dat2 (V2 m) c).arrAt 1 cfg2.N :=
  (W4_of_ne m c main_v2 (by decide)).trans (W3_arr m c 1)
/-- The end holds in `main_v3` what region 3's window 1 leaves. -/
theorem V4_main_v3 (c : Dev nD) : V4 m c main_v3 = (dat3 (V3 m) c).arrAt 1 cfg3.N := W4_arr m c 1
/-- The argument array ends as launched: regions 0 and 1 only read it, regions 2 and 3 have no window on it. -/
theorem V4_main_arg0 (c : Dev nD) : V4 m c main_arg0 = m ((c : Thread nD τ).loc main_arg0) :=
  (W4_of_ne m c main_arg0 (by decide)).trans ((W3_of_ne m c main_arg0 (by decide)).trans (V2_main_arg0 m c))

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
  | ⟨2, _⟩ => fun c => dat2 (V2 m) c
  | ⟨3, _⟩ => fun c => dat3 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every region: the core's generator register at some state and its dues,
    at nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- REGION 0 over the thread state: entered from every unscoped buffer at `W0`, left at `W1`. Its arrays are
    split out of the unscoped buffers and put back at the exit contents; the generator register and the scoped buffers
    no window stages go into the pipeline's invariant at the first point and come back from it at the last; nothing
    is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) (A_eq0 (V0 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (V0 m) c).Φ 0 from rfl]
    iintro ⟨Hp, -, Hr⟩
    iapply (hin0 (V0 m) c)
    unfold Pipeline.ΦA
    isplitl [Hr]; · iexact Hr
    iexact Hp
  hout c := by
    rw [Pipeline.ownSems0_none, show (pdats m 0 c).Φ (Fin.last _) = (dat0 (V0 m) c).Φ (Fin.last cfg0.N) from rfl]
    have h := hout0 (V0 m) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W1`, left at `W2`. Its arrays are
    split out of the unscoped buffers and put back at the exit contents; the generator register and the scoped buffers
    no window stages go into the pipeline's invariant at the first point and come back from it at the last; nothing
    is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) (A_eq1 (V1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V1 m) c).Φ 0 from rfl]
    iintro ⟨Hp, -, Hr⟩
    iapply (hin1 (V1 m) c)
    unfold Pipeline.ΦA
    isplitl [Hr]; · iexact Hr
    iexact Hp
  hout c := by
    rw [Pipeline.ownSems0_none, show (pdats m 1 c).Φ (Fin.last _) = (dat1 (V1 m) c).Φ (Fin.last cfg1.N) from rfl]
    have h := hout1 (V1 m) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W2`, left at `W3`. Its arrays are
    split out of the unscoped buffers and put back at the exit contents; the generator register and the scoped buffers
    no window stages go into the pipeline's invariant at the first point and come back from it at the last; nothing
    is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m) c).loose
  hwaits := Pipeline.hwaits_of_owed_zero _ _ _ _ L lv 2 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec2 c (V2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V2 m c) (A_eq2 (V2 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (V2 m) c).Φ 0 from rfl]
    iintro ⟨Hp, -, Hr⟩
    iapply (hin2 (V2 m) c)
    unfold Pipeline.ΦA
    isplitl [Hr]; · iexact Hr
    iexact Hp
  hout c := by
    rw [Pipeline.ownSems0_none, show (pdats m 2 c).Φ (Fin.last _) = (dat2 (V2 m) c).Φ (Fin.last cfg2.N) from rfl]
    have h := hout2 (V2 m) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V2 m c) (V3 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W3`, left at `W4`. Its arrays are
    split out of the unscoped buffers and put back at the exit contents; the generator register and the scoped buffers
    no window stages go into the pipeline's invariant at the first point and come back from it at the last; nothing
    is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V3 m) c).loose
  hwaits := Pipeline.hwaits_of_owed_zero _ _ _ _ L lv 3 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V3 m c) (A_eq3 (V3 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = (dat3 (V3 m) c).Φ 0 from rfl]
    iintro ⟨Hp, -, Hr⟩
    iapply (hin3 (V3 m) c)
    unfold Pipeline.ΦA
    isplitl [Hr]; · iexact Hr
    iexact Hp
  hout c := by
    rw [Pipeline.ownSems0_none, show (pdats m 3 c).Φ (Fin.last _) = (dat3 (V3 m) c).Φ (Fin.last cfg3.N) from rfl]
    have h := hout3 (V3 m) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V3 m c) (V4 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's four segments in order: a region per kernel call, each entered from the contents the one before
    it leaves. -/
abbrev segs : List (Pipeline.Seg (pcfgs (F := F)) adm (pdats m) () defs₀ 𝒱₀ L lv) :=
  [ .region (reg0 m), .region (reg1 m), .region (reg2 m), .region (reg3 m) ]
/-- The program is the run of the segments. -/
theorem main_run (c : Dev nD) : main (F := F) c = Pipeline.Seg.run (segs m) := (main_chain c).trans (by chain_rfl)

set_option backward.isDefEq.respectTransparency.types false in
/-- THE RUN, at any post: from any memory with zero counters, every weakly fair execution of the program on the
    TensorCores terminates, nothing faulting, and every final state has every unscoped buffer at the last boundary's
    contents `W4` — so any `Q` those readings give holds of it. -/
theorem run_of (ρ : Dev nD → PrngReg) {Q : PUnit × MemSt nD τ sig (Elt F) → Prop}
    (hQ : ∀ s : MemSt nD τ sig (Elt F), (∀ c : Dev nD, ∀ b ∈ Pipeline.ucRefs τ sig, s.mem ((c : Thread nD τ).1, b) = W4 m c b) → Q (⟨⟩, s)) :
    θ_run defs (onTc (τ := τ) (main (F := F))) ⟨m, fun _ => 0, ρ⟩ Q :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := hQ)

/-- THE RUN: every final state has every unscoped buffer at the last boundary's contents. -/
theorem run (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = W4 m c b) :=
  run_of m ρ fun _ h => h

/-- THE FRAME: every final state has the argument array as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  run_of m ρ fun s h c => (h c _ (mem_uc main_arg0 (by decide))).trans (V4_main_arg0 m c)

/-- A final state's reading of an unscoped TensorCore buffer is the last boundary's contents there. -/
theorem read_end {s : MemSt nD τ sig (Elt F)}
    (h : ∀ c : Dev nD, ∀ b ∈ Pipeline.ucRefs τ sig, s.mem ((c : Thread nD τ).1, b) = W4 m c b)
    (c : Dev nD) (b : Ref sig .tc) (hb : ¬ (Proc.devRef .tc b : DevRef τ sig).isScoped) :
    s.mem ((c : Thread nD τ).loc b) = V4 m c b := h c _ (mem_uc b hb)

end Cert.Kernel.Hand

end
-- ==== Proof.KI.Reg0Defs.lean ====
/-
  The row-and-column statistics pipeline (pipeline 0: sixteen row strips of 512 rows) at the contents `V` its region
  is entered with — what its runs are stated over. Each strip's block of the input; the two conditions the body branches
  on, decided over the sixteen points (the first point resets the running column sums, the last point turns them into the
  two column outputs); where the two column outputs' windows are idle (every point but the last); the staging memrefs as
  the pipeline passes them and the scratch that carries the running column sums from one point to the next.
-/
import proofs.«132844_j8031588843576_2_alg».proof.Proof.Gen.KernelIdeal.Launch
import proofs.«132844_j8031588843576_2_alg».proof.Proof.Gen.KernelIdeal.Skeleton
import proofs.«132844_j8031588843576_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input strip's current staging buffer holds its block at every point, for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions, over the sixteen points -/

/-- "This is the first strip": the running column sums are reset. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- "This is the last strip": the column sums are complete and the two column outputs are written. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Before the last strip the column outputs' windows are idle and nothing of them is written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last strip they are live. -/
theorem liveAt0_3 : ∀ t : Fin cfg0.N, cond0_1 (grid0.coords t) → cfg0.idle 3 (grid0.coords t) = false := by decide +kernel
theorem liveAt0_4 : ∀ t : Fin cfg0.N, cond0_1 (grid0.coords t) → cfg0.idle 4 (grid0.coords t) = false := by decide +kernel

/-! ## The memrefs the body is called with -/

abbrev ms0_0 (t : Fin cfg0.N) : Memref sig .tc .vmem S512x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x1 .f32 := win0_4.stage (cfg0.slots t 4)
abbrev hs0_4 (t : Fin cfg0.N) : (ms0_4 t).IsWhole := hstage0_4 ((cfg0.slots t 4).cast nbuf0_4)
/-- The scratch that holds the running column sums: a whole buffer of the kernel's own. -/
abbrev scM0_0 : Memref sig .tc .vmem S1x4096 .f32 := Memref.whole cc0_scratch0
abbrev VS0_0 : View sig .tc .vmem S1x4096 .f32 := scM0_0.view
/-- One staging buffer per output window, through which its contents are stated. -/
abbrev VO0_1 : View sig .tc .vmem S512x1 .f32 := (Memref.whole cc0_stg1_0 : Memref sig .tc .vmem S512x1 .f32).view
abbrev VO0_2 : View sig .tc .vmem S512x1 .f32 := (Memref.whole cc0_stg2_0 : Memref sig .tc .vmem S512x1 .f32).view
abbrev VO0_3 : View sig .tc .vmem S1x4096 .f32 := (Memref.whole cc0_stg3_0 : Memref sig .tc .vmem S1x4096 .f32).view
abbrev VO0_4 : View sig .tc .vmem S4096x1 .f32 := (Memref.whole cc0_stg4_0 : Memref sig .tc .vmem S4096x1 .f32).view

/-- The other pipelines' staging buffers, each whole at some contents: this pipeline never touches them. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg0_1), ((c : Thread nD τ).loc cc3_stg0_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg1_1), ((c : Thread nD τ).loc cc3_stg1_1) ↦{fullShare} f))

/-- The class invariant: the scratch as a memref owned at some contents, the other pipelines' buffers, the generator register. -/
theorem PhiA0_eq (c : Dev nD) :
    (Pipeline.ΦA spec0 c : sProp 𝕄)
      = iprop(iprop((∃ d, owns (c : Thread nD τ) scM0_0 fullShare d) ∗ rest0 (F := F) c) ∗ (∃ r, prngReg c r)) := by
  unfold Pipeline.ΦA; rw [scopedRest0_eq]; simp only [scM0_0, owns_whole, rest0]; try rfl

end Cert.KernelIdeal.Hand

end
-- ==== Proof.KI.Reg0RunA.lean ====
/-
  The statistics body at the FIRST strip (the reset branch taken, the last-strip branch not): on whole memrefs, the
  input strip at its contents, the two row outputs' buffers and the scratch at anything, the two column outputs' buffers
  handed back untouched, the body runs and leaves each row output's buffer and the scratch with its stores written.
-/
import proofs.«132844_j8031588843576_2_alg».proof.Proof.KI.Reg0Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The stores the body makes at the first strip, per buffer (last first), with the run that finds them. -/
noncomputable def kernelRun0_A (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : cond0_0 i) (hc1 : ¬cond0_1 i)
    (x0 : Vec F S512x4096 .f32) :
    Σ' (L1 : List (View.Piece (Elt F) S512x1 .f32)) (L2 : List (View.Piece (Elt F) S512x1 .f32)), { LS0 : List (View.Piece (Elt F) S1x4096 .f32) //
      ∀ (xi3 : Vec F S1x4096 .f32) (xi4 : Vec F S4096x1 .f32) (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ owns (c : Thread nD τ) arg4 fullShare xi3 ∗ owns (c : Thread nD τ) arg5 fullShare xi4 ∗ (∃ d, owns (c : Thread nD τ) arg6 fullShare d)
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2)
                ∗ owns (c : Thread nD τ) arg4 fullShare xi3 ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc0__stats_kernel i arg1 harg1 arg2 harg2 arg3 harg3 arg4 harg4 arg5 harg5 arg6 harg6) K } := by
  refine ⟨?_, ?_, ?_, fun xi3 xi4 E K => ?run⟩
  case run =>
    simp only [cc0__stats_kernel_eq_skeleton]; unfold cc0__stats_kernel_skel
    unfold owns
    iintro ⟨⟨%f0, %hf0, H0⟩, ⟨%d1, %f1, -, H1⟩, ⟨%d2, %f2, -, H2⟩, ⟨%f3, %hf3, H3⟩, ⟨%f4, %hf4, H4⟩, ⟨%ds0, %fs0, -, HS0⟩, Hk⟩
    obtain rfl := harg1.eq_unread hf0; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; iexact H1
    isplitl [H2]
    · iexists _; iexact H2
    isplitl [H3]
    · iexists _; isplitr; · ipureintro; exact harg4.read_unread _
      iexact H3
    isplitl [H4]
    · iexists _; isplitr; · ipureintro; exact harg5.read_unread _
      iexact H4
    iexists _; iexact HS0

end Cert.KernelIdeal.Hand

end
-- ==== Proof.KI.Reg0RunB.lean ====
/-
  The statistics body at a MIDDLE strip (neither branch taken): the scratch comes in holding the column sums of the
  strips before, and leaves with this strip's partial column sums added; the two row outputs' buffers get their stores;
  the two column outputs' buffers are handed back untouched.
-/
import proofs.«132844_j8031588843576_2_alg».proof.Proof.KI.Reg0RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The stores the body makes at a middle strip, per buffer (last first), with the run that finds them. -/
noncomputable def kernelRun0_B (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : ¬cond0_0 i) (hc1 : ¬cond0_1 i)
    (x0 : Vec F S512x4096 .f32) (xs0 : Vec F S1x4096 .f32) :
    Σ' (L1 : List (View.Piece (Elt F) S512x1 .f32)) (L2 : List (View.Piece (Elt F) S512x1 .f32)), { LS0 : List (View.Piece (Elt F) S1x4096 .f32) //
      ∀ (xi3 : Vec F S1x4096 .f32) (xi4 : Vec F S4096x1 .f32) (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ owns (c : Thread nD τ) arg4 fullShare xi3 ∗ owns (c : Thread nD τ) arg5 fullShare xi4 ∗ owns (c : Thread nD τ) arg6 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2)
                ∗ owns (c : Thread nD τ) arg4 fullShare xi3 ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc0__stats_kernel i arg1 harg1 arg2 harg2 arg3 harg3 arg4 harg4 arg5 harg5 arg6 harg6) K } := by
  refine ⟨?_, ?_, ?_, fun xi3 xi4 E K => ?run⟩
  case run =>
    simp only [cc0__stats_kernel_eq_skeleton]; unfold cc0__stats_kernel_skel
    unfold owns
    iintro ⟨⟨%f0, %hf0, H0⟩, ⟨%d1, %f1, -, H1⟩, ⟨%d2, %f2, -, H2⟩, ⟨%f3, %hf3, H3⟩, ⟨%f4, %hf4, H4⟩, ⟨%fs0, %hfs0, HS0⟩, Hk⟩
    obtain rfl := harg1.eq_unread hf0; obtain rfl := harg4.eq_unread hf3; obtain rfl := harg5.eq_unread hf4; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; iexact H1
    isplitl [H2]
    · iexists _; iexact H2
    isplitl [H3]
    · iexists _; isplitr; · ipureintro; exact harg4.read_unread _
      iexact H3
    isplitl [H4]
    · iexists _; isplitr; · ipureintro; exact harg5.read_unread _
      iexact H4
    iexists _; iexact HS0

end Cert.KernelIdeal.Hand

end
-- ==== Proof.KI.Reg0RunC.lean ====
/-
  The statistics body at the LAST strip (the reset branch not taken, the last-strip branch taken): the scratch comes in
  holding the column sums of the fifteen strips before and leaves complete; all four outputs' buffers get their stores — the
  two row outputs as at every strip, the two column outputs from the completed sums.
-/
import proofs.«132844_j8031588843576_2_alg».proof.Proof.KI.Reg0RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The stores the body makes at the last strip, per buffer (last first), with the run that finds them. -/
noncomputable def kernelRun0_C (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : ¬cond0_0 i) (hc1 : cond0_1 i)
    (x0 : Vec F S512x4096 .f32) (xs0 : Vec F S1x4096 .f32) :
    Σ' (L1 : List (View.Piece (Elt F) S512x1 .f32)) (L2 : List (View.Piece (Elt F) S512x1 .f32)) (L3 : List (View.Piece (Elt F) S1x4096 .f32)) (L4 : List (View.Piece (Elt F) S4096x1 .f32)), { LS0 : List (View.Piece (Elt F) S1x4096 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ (∃ d, owns (c : Thread nD τ) arg4 fullShare d) ∗ (∃ d, owns (c : Thread nD τ) arg5 fullShare d) ∗ owns (c : Thread nD τ) arg6 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc0__stats_kernel i arg1 harg1 arg2 harg2 arg3 harg3 arg4 harg4 arg5 harg5 arg6 harg6) K } := by
  refine ⟨?_, ?_, ?_, ?_, ?_, fun E K => ?run⟩
  case run =>
    simp only [cc0__stats_kernel_eq_skeleton]; unfold cc0__stats_kernel_skel
    unfold owns
    iintro ⟨⟨%f0, %hf0, H0⟩, ⟨%d1, %f1, -, H1⟩, ⟨%d2, %f2, -, H2⟩, ⟨%d3, %f3, -, H3⟩, ⟨%d4, %f4, -, H4⟩, ⟨%fs0, %hfs0, HS0⟩, Hk⟩
    obtain rfl := harg1.eq_unread hf0; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; iexact H1
    isplitl [H2]
    · iexists _; iexact H2
    isplitl [H3]
    · iexists _; iexact H3
    isplitl [H4]
    · iexists _; iexact H4
    iexists _; iexact HS0

end Cert.KernelIdeal.Hand

end
-- ==== Proof.KI.Reg0.lean ====
/-
  The row-and-column statistics pipeline (pipeline 0) at the contents `V` its region is entered with: what each of the
  three kinds of strip (first, middle, last) leaves in every buffer, the accumulation of the running column sums over the
  sixteen strips, the proof data of the pipeline and the body's obligation at every strip. The scratch carries
  0 + (partial column sums of strips 0..n) after strip n; the last strip turns the complete sums into rsqrt (s + 1) and
  1 / (s + 1) + 1, and every strip writes rsqrt (row sum + 1) and 1 / (row sum + 1) + 1 for its 512 rows.
-/
import proofs.«132844_j8031588843576_2_alg».proof.Proof.KI.Reg0RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The first strip: what its stores leave -/

/-- The row output `rsqrt (row sum + 1)`'s buffer after the body: its stores read back. -/
def out0_A_1 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : cond0_0 i) (hc1 : ¬cond0_1 i) (x0 : Vec F S512x4096 .f32) : Vec F S512x1 .f32 :=
  VO0_1.read (Elt F) (VO0_1.writes (Elt F) VO0_1.junk (kernelRun0_A c i arg1 harg1 arg2 harg2 arg3 harg3 arg4 harg4 arg5 harg5 arg6 harg6 hc0 hc1 x0).1)
theorem cover0_A_1 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : cond0_0 i) (hc1 : ¬cond0_1 i) (x0 : Vec F S512x4096 .f32) (y : S512x1.Idx) : ∃ pc ∈ (kernelRun0_A c i arg1 harg1 arg2 harg2 arg3 harg3 arg4 harg4 arg5 harg5 arg6 harg6 hc0 hc1 x0).1, y ∈ pc.1.set :=
  View.cover_of_tiledL (kernelRun0_A c i arg1 harg1 arg2 harg2 arg3 harg3 arg4 harg4 arg5 harg5 arg6 harg6 hc0 hc1 x0).1 S512x1.size (by sl_kernel_rfl) y
/-- The row output `1 / (row sum + 1) + 1`'s buffer after the body. -/
def out0_A_2 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : cond0_0 i) (hc1 : ¬cond0_1 i) (x0 : Vec F S512x4096 .f32) : Vec F S512x1 .f32 :=
  VO0_2.read (Elt F) (VO0_2.writes (Elt F) VO0_2.junk (kernelRun0_A c i arg1 harg1 arg2 harg2 arg3 harg3 arg4 harg4 arg5 harg5 arg6 harg6 hc0 hc1 x0).2.1)
theorem cover0_A_2 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : cond0_0 i) (hc1 : ¬cond0_1 i) (x0 : Vec F S512x4096 .f32) (y : S512x1.Idx) : ∃ pc ∈ (kernelRun0_A c i arg1 harg1 arg2 harg2 arg3 harg3 arg4 harg4 arg5 harg5 arg6 harg6 hc0 hc1 x0).2.1, y ∈ pc.1.set :=
  View.cover_of_tiledL (kernelRun0_A c i arg1 harg1 arg2 harg2 arg3 harg3 arg4 harg4 arg5 harg5 arg6 harg6 hc0 hc1 x0).2.1 S512x1.size (by sl_kernel_rfl) y
/-- The running column sums after the body. -/
def sout0_A_0 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : cond0_0 i) (hc1 : ¬cond0_1 i) (x0 : Vec F S512x4096 .f32) : Vec F S1x4096 .f32 :=
  VS0_0.read (Elt F) (VS0_0.writes (Elt F) VS0_0.junk (kernelRun0_A c i arg1 harg1 arg2 harg2 arg3 harg3 arg4 harg4 arg5 harg5 arg6 harg6 hc0 hc1 x0).2.2.1)
theorem scover0_A_0 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : cond0_0 i) (hc1 : ¬cond0_1 i) (x0 : Vec F S512x4096 .f32) (y : S1x4096.Idx) : ∃ pc ∈ (kernelRun0_A c i arg1 harg1 arg2 harg2 arg3 harg3 arg4 harg4 arg5 harg5 arg6 harg6 hc0 hc1 x0).2.2.1, y ∈ pc.1.set :=
  View.cover_of_tiledL (kernelRun0_A c i arg1 harg1 arg2 harg2 arg3 harg3 arg4 harg4 arg5 harg5 arg6 harg6 hc0 hc1 x0).2.2.1 S1x4096.size (by sl_kernel_rfl) y

/-! ## The middle strip: what its stores leave -/

/-- The row output `rsqrt (row sum + 1)`'s buffer after the body: its stores read back. -/
def out0_B_1 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : ¬cond0_0 i) (hc1 : ¬cond0_1 i) (x0 : Vec F S512x4096 .f32) (xs0 : Vec F S1x4096 .f32) : Vec F S512x1 .f32 :=
  VO0_1.read (Elt F) (VO0_1.writes (Elt F) VO0_1.junk (kernelRun0_B c i arg1 harg1 arg2 harg2 arg3 harg3 arg4 harg4 arg5 harg5 arg6 harg6 hc0 hc1 x0 xs0).1)
theorem cover0_B_1 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : ¬cond0_0 i) (hc1 : ¬cond0_1 i) (x0 : Vec F S512x4096 .f32) (xs0 : Vec F S1x4096 .f32) (y : S512x1.Idx) : ∃ pc ∈ (kernelRun0_B c i arg1 harg1 arg2 harg2 arg3 harg3 arg4 harg4 arg5 harg5 arg6 harg6 hc0 hc1 x0 xs0).1, y ∈ pc.1.set :=
  View.cover_of_tiledL (kernelRun0_B c i arg1 harg1 arg2 harg2 arg3 harg3 arg4 harg4 arg5 harg5 arg6 harg6 hc0 hc1 x0 xs0).1 S512x1.size (by sl_kernel_rfl) y
/-- The row output `1 / (row sum + 1) + 1`'s buffer after the body. -/
def out0_B_2 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : ¬cond0_0 i) (hc1 : ¬cond0_1 i) (x0 : Vec F S512x4096 .f32) (xs0 : Vec F S1x4096 .f32) : Vec F S512x1 .f32 :=
  VO0_2.read (Elt F) (VO0_2.writes (Elt F) VO0_2.junk (kernelRun0_B c i arg1 harg1 arg2 harg2 arg3 harg3 arg4 harg4 arg5 harg5 arg6 harg6 hc0 hc1 x0 xs0).2.1)
theorem cover0_B_2 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : ¬cond0_0 i) (hc1 : ¬cond0_1 i) (x0 : Vec F S512x4096 .f32) (xs0 : Vec F S1x4096 .f32) (y : S512x1.Idx) : ∃ pc ∈ (kernelRun0_B c i arg1 harg1 arg2 harg2 arg3 harg3 arg4 harg4 arg5 harg5 arg6 harg6 hc0 hc1 x0 xs0).2.1, y ∈ pc.1.set :=
  View.cover_of_tiledL (kernelRun0_B c i arg1 harg1 arg2 harg2 arg3 harg3 arg4 harg4 arg5 harg5 arg6 harg6 hc0 hc1 x0 xs0).2.1 S512x1.size (by sl_kernel_rfl) y
/-- The running column sums after the body. -/
def sout0_B_0 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : ¬cond0_0 i) (hc1 : ¬cond0_1 i) (x0 : Vec F S512x4096 .f32) (xs0 : Vec F S1x4096 .f32) : Vec F S1x4096 .f32 :=
  VS0_0.read (Elt F) (VS0_0.writes (Elt F) VS0_0.junk (kernelRun0_B c i arg1 harg1 arg2 harg2 arg3 harg3 arg4 harg4 arg5 harg5 arg6 harg6 hc0 hc1 x0 xs0).2.2.1)
theorem scover0_B_0 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : ¬cond0_0 i) (hc1 : ¬cond0_1 i) (x0 : Vec F S512x4096 .f32) (xs0 : Vec F S1x4096 .f32) (y : S1x4096.Idx) : ∃ pc ∈ (kernelRun0_B c i arg1 harg1 arg2 harg2 arg3 harg3 arg4 harg4 arg5 harg5 arg6 harg6 hc0 hc1 x0 xs0).2.2.1, y ∈ pc.1.set :=
  View.cover_of_tiledL (kernelRun0_B c i arg1 harg1 arg2 harg2 arg3 harg3 arg4 harg4 arg5 harg5 arg6 harg6 hc0 hc1 x0 xs0).2.2.1 S1x4096.size (by sl_kernel_rfl) y

/-! ## The last strip: what its stores leave -/

/-- The row output `rsqrt (row sum + 1)`'s buffer after the body: its stores read back. -/
def out0_C_1 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : ¬cond0_0 i) (hc1 : cond0_1 i) (x0 : Vec F S512x4096 .f32) (xs0 : Vec F S1x4096 .f32) : Vec F S512x1 .f32 :=
  VO0_1.read (Elt F) (VO0_1.writes (Elt F) VO0_1.junk (kernelRun0_C c i arg1 harg1 arg2 harg2 arg3 harg3 arg4 harg4 arg5 harg5 arg6 harg6 hc0 hc1 x0 xs0).1)
theorem cover0_C_1 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : ¬cond0_0 i) (hc1 : cond0_1 i) (x0 : Vec F S512x4096 .f32) (xs0 : Vec F S1x4096 .f32) (y : S512x1.Idx) : ∃ pc ∈ (kernelRun0_C c i arg1 harg1 arg2 harg2 arg3 harg3 arg4 harg4 arg5 harg5 arg6 harg6 hc0 hc1 x0 xs0).1, y ∈ pc.1.set :=
  View.cover_of_tiledL (kernelRun0_C c i arg1 harg1 arg2 harg2 arg3 harg3 arg4 harg4 arg5 harg5 arg6 harg6 hc0 hc1 x0 xs0).1 S512x1.size (by sl_kernel_rfl) y
/-- The row output `1 / (row sum + 1) + 1`'s buffer after the body. -/
def out0_C_2 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : ¬cond0_0 i) (hc1 : cond0_1 i) (x0 : Vec F S512x4096 .f32) (xs0 : Vec F S1x4096 .f32) : Vec F S512x1 .f32 :=
  VO0_2.read (Elt F) (VO0_2.writes (Elt F) VO0_2.junk (kernelRun0_C c i arg1 harg1 arg2 harg2 arg3 harg3 arg4 harg4 arg5 harg5 arg6 harg6 hc0 hc1 x0 xs0).2.1)
theorem cover0_C_2 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : ¬cond0_0 i) (hc1 : cond0_1 i) (x0 : Vec F S512x4096 .f32) (xs0 : Vec F S1x4096 .f32) (y : S512x1.Idx) : ∃ pc ∈ (kernelRun0_C c i arg1 harg1 arg2 harg2 arg3 harg3 arg4 harg4 arg5 harg5 arg6 harg6 hc0 hc1 x0 xs0).2.1, y ∈ pc.1.set :=
  View.cover_of_tiledL (kernelRun0_C c i arg1 harg1 arg2 harg2 arg3 harg3 arg4 harg4 arg5 harg5 arg6 harg6 hc0 hc1 x0 xs0).2.1 S512x1.size (by sl_kernel_rfl) y
/-- The column output `rsqrt (column sum + 1)`'s buffer after the body. -/
def out0_C_3 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : ¬cond0_0 i) (hc1 : cond0_1 i) (x0 : Vec F S512x4096 .f32) (xs0 : Vec F S1x4096 .f32) : Vec F S1x4096 .f32 :=
  VO0_3.read (Elt F) (VO0_3.writes (Elt F) VO0_3.junk (kernelRun0_C c i arg1 harg1 arg2 harg2 arg3 harg3 arg4 harg4 arg5 harg5 arg6 harg6 hc0 hc1 x0 xs0).2.2.1)
theorem cover0_C_3 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : ¬cond0_0 i) (hc1 : cond0_1 i) (x0 : Vec F S512x4096 .f32) (xs0 : Vec F S1x4096 .f32) (y : S1x4096.Idx) : ∃ pc ∈ (kernelRun0_C c i arg1 harg1 arg2 harg2 arg3 harg3 arg4 harg4 arg5 harg5 arg6 harg6 hc0 hc1 x0 xs0).2.2.1, y ∈ pc.1.set :=
  View.cover_of_tiledL (kernelRun0_C c i arg1 harg1 arg2 harg2 arg3 harg3 arg4 harg4 arg5 harg5 arg6 harg6 hc0 hc1 x0 xs0).2.2.1 S1x4096.size (by sl_kernel_rfl) y
/-- The column output `1 / (column sum + 1) + 1`'s buffer (a column) after the body. -/
def out0_C_4 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : ¬cond0_0 i) (hc1 : cond0_1 i) (x0 : Vec F S512x4096 .f32) (xs0 : Vec F S1x4096 .f32) : Vec F S4096x1 .f32 :=
  VO0_4.read (Elt F) (VO0_4.writes (Elt F) VO0_4.junk (kernelRun0_C c i arg1 harg1 arg2 harg2 arg3 harg3 arg4 harg4 arg5 harg5 arg6 harg6 hc0 hc1 x0 xs0).2.2.2.1)
theorem cover0_C_4 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : ¬cond0_0 i) (hc1 : cond0_1 i) (x0 : Vec F S512x4096 .f32) (xs0 : Vec F S1x4096 .f32) (y : S4096x1.Idx) : ∃ pc ∈ (kernelRun0_C c i arg1 harg1 arg2 harg2 arg3 harg3 arg4 harg4 arg5 harg5 arg6 harg6 hc0 hc1 x0 xs0).2.2.2.1, y ∈ pc.1.set :=
  View.cover_of_tiledL (kernelRun0_C c i arg1 harg1 arg2 harg2 arg3 harg3 arg4 harg4 arg5 harg5 arg6 harg6 hc0 hc1 x0 xs0).2.2.2.1 S4096x1.size (by sl_kernel_rfl) y
/-- The running column sums after the body. -/
def sout0_C_0 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : ¬cond0_0 i) (hc1 : cond0_1 i) (x0 : Vec F S512x4096 .f32) (xs0 : Vec F S1x4096 .f32) : Vec F S1x4096 .f32 :=
  VS0_0.read (Elt F) (VS0_0.writes (Elt F) VS0_0.junk (kernelRun0_C c i arg1 harg1 arg2 harg2 arg3 harg3 arg4 harg4 arg5 harg5 arg6 harg6 hc0 hc1 x0 xs0).2.2.2.2.1)
theorem scover0_C_0 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : ¬cond0_0 i) (hc1 : cond0_1 i) (x0 : Vec F S512x4096 .f32) (xs0 : Vec F S1x4096 .f32) (y : S1x4096.Idx) : ∃ pc ∈ (kernelRun0_C c i arg1 harg1 arg2 harg2 arg3 harg3 arg4 harg4 arg5 harg5 arg6 harg6 hc0 hc1 x0 xs0).2.2.2.2.1, y ∈ pc.1.set :=
  View.cover_of_tiledL (kernelRun0_C c i arg1 harg1 arg2 harg2 arg3 harg3 arg4 harg4 arg5 harg5 arg6 harg6 hc0 hc1 x0 xs0).2.2.2.2.1 S1x4096.size (by sl_kernel_rfl) y

/-! ## What the buffers hold after each strip -/

/-- Placeholders for the two column outputs' buffers at the strips where their windows are idle: nothing consults them. -/
def jnk0_3 : Vec F S1x4096 .f32 := VO0_3.read (Elt F) VO0_3.junk
def jnk0_4 : Vec F S4096x1 .f32 := VO0_4.read (Elt F) VO0_4.junk

/-- THE ACCUMULATION over the sixteen strips: after strip `n`, the four outputs' buffers and, last, the running column
    sums — the first strip from the reset, every later strip from what the strip before left, the last strip also
    writing the two column outputs. -/
def outsAt0 (c : Dev nD) : (n : ℕ) → n < cfg0.N → Vec F S512x1 .f32 × Vec F S512x1 .f32 × Vec F S1x4096 .f32 × Vec F S4096x1 .f32 × Vec F S1x4096 .f32
  | 0, hn => (out0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), jnk0_3, jnk0_4, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    have hN : n + 1 < 16 := lt_of_lt_of_eq hn (show cfg0.N = 16 from N_0)
    have h0 : ¬(n + 1) % 16 = 0 := by omega
    if h1 : (n + 1) % 16 = 15 then
      (out0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2.2.2, out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2.2.2, out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2.2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2.2.2)
    else
      (out0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2.2.2, out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2.2.2, jnk0_3, jnk0_4, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2.2.2)

theorem outsAt0_A (c : Dev nD) (t : Fin cfg0.N) (h0 : t.val % 16 = 0) (h1 : ¬t.val % 16 = 15) :
    outsAt0 V c t.val t.isLt = (out0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t), out0_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t), jnk0_3, jnk0_4, sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t)) := by
  obtain ⟨n, hn⟩ := t
  have hN : n < 16 := lt_of_lt_of_eq hn (show cfg0.N = 16 from N_0)
  cases n with
  | zero => exact rfl
  | succ n => exact absurd h0 (by (try dsimp only); omega)

theorem outsAt0_B (c : Dev nD) (t : Fin cfg0.N) (h0 : ¬t.val % 16 = 0) (h1 : ¬t.val % 16 = 15) :
    outsAt0 V c t.val t.isLt = (out0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2.2.2, out0_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2.2.2, jnk0_3, jnk0_4, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h1).trans rfl

theorem outsAt0_C (c : Dev nD) (t : Fin cfg0.N) (h0 : ¬t.val % 16 = 0) (h1 : t.val % 16 = 15) :
    outsAt0 V c t.val t.isLt = (out0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.2.2, out0_C_2 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.2.2, out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.2.2, out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_pos h1).trans rfl

/-- The invariant before strip `n`: before the first strip the class's (the scratch at anything); afterwards the scratch
    at the running column sums the strip before left, beside the other pipelines' buffers and the generator register. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.2) ∗ rest0 (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2.2.2.2) ∗ rest0 (F := F) c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2.2.2.2) ∗ rest0 (F := F) c) ∗ (∃ r, prngReg c r)) := by
  cases n with
  | zero => exact absurd rfl hz
  | succ n => rfl

/-! ## The pipeline's proof data -/

/-- The proof data of the statistics pipeline: the arrays as the region finds them; after strip `t` the input's buffer at
    its block and the outputs' at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2.1
    | ⟨3, _⟩ => (outsAt0 V c t.val t.isLt).2.2.1
    | ⟨4, _⟩ => (outsAt0 V c t.val t.isLt).2.2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2.1 := by dsimp only [dat0]
theorem after0_3 (c : Dev nD) (t : Fin cfg0.N) : (dat0 V c).after 3 t = (outsAt0 V c t.val t.isLt).2.2.1 := by dsimp only [dat0]
theorem after0_4 (c : Dev nD) (t : Fin cfg0.N) : (dat0 V c).after 4 t = (outsAt0 V c t.val t.isLt).2.2.2.1 := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation, at a generic strip -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any strip: the input's buffer holds its block; the closed forms say which of the three cases the strip is
    in; the invariant hands the body the scratch at what the strip before left (at anything before the first strip) and
    takes it back at this strip's running sums; the idle column outputs pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 16 := lt_of_lt_of_eq t.isLt (show cfg0.N = 16 from N_0)
  by_cases h0 : t.val % 16 = 0
  · by_cases h1 : t.val % 16 = 15
    · exfalso; omega
    ·
        rw [show (dat0 V c).leavesExact 0 t = owns (c : Thread nD τ) (ms0_0 t) fullShare ((dat0 V c).after 0 t) from by
          unfold Dat.leavesExact; rw [liveAt0_0 t], after0_0]
        rw [show (dat0 V c).leavesExact 1 t = owns (c : Thread nD τ) (ms0_1 t) fullShare ((dat0 V c).after 1 t) from by
          unfold Dat.leavesExact; rw [liveAt0_1 t], after0_1]
        rw [show (dat0 V c).leavesExact 2 t = owns (c : Thread nD τ) (ms0_2 t) fullShare ((dat0 V c).after 2 t) from by
          unfold Dat.leavesExact; rw [liveAt0_2 t], after0_2]
        rw [Dat.leavesExact_idle (dat0 V c) 3 t (idleAt0_3 t (fun h => h1 ((hcond0_1 t).mp h))) (noFlush0_3 t (fun h => h1 ((hcond0_1 t).mp h)))]
        rw [Dat.leavesExact_idle (dat0 V c) 4 t (idleAt0_4 t (fun h => h1 ((hcond0_1 t).mp h))) (noFlush0_4 t (fun h => h1 ((hcond0_1 t).mp h)))]
        rw [outsAt0_A V c t h0 h1]
        unfold out0_A_1 out0_A_2 sout0_A_0; (try dsimp only)
        rw [PhiS_castSucc V c t, PhiS_zero V c _ _ (by omega), PhiA0_eq]
        iintro ⟨⟨⟨HS0, Hrest⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t)).2.2.2 _ _ Set.univ _)
        isplitl [H0]; · iexact H0
        isplitl [H1]; · iexists _; iexact H1
        isplitl [H2]; · iexists _; iexact H2
        isplitl [H3]; · iexact H3
        isplitl [H4]; · iexact H4
        isplitl [HS0]; · iexact HS0
        iintro ⟨H0, ⟨%e1, H1⟩, ⟨%e2, H2⟩, H3, H4, ⟨%es0, HS0⟩⟩
        isplitl [HS0 Hrest Hg]
        · isplitl [HS0 Hrest]
          · isplitl [HS0]
            · unfold owns; iexists _; isplitr; swap; iexact HS0; ipureintro; exact View.read_writes_of_cover _ _ _ _ _ (scover0_A_0 c _ _ _ _ _ _ _ _ _ _ _ _ _ _ _ _)
            iexact Hrest
          iexact Hg
        isplitl [Ho]; · iexact Ho
        isplitl [H0]; · iexact H0
        isplitl [H1]
        · unfold owns; iexists _; isplitr; swap; iexact H1; ipureintro; exact View.read_writes_of_cover _ _ _ _ _ (cover0_A_1 c _ _ _ _ _ _ _ _ _ _ _ _ _ _ _ _)
        isplitl [H2]
        · unfold owns; iexists _; isplitr; swap; iexact H2; ipureintro; exact View.read_writes_of_cover _ _ _ _ _ (cover0_A_2 c _ _ _ _ _ _ _ _ _ _ _ _ _ _ _ _)
        isplitl [H3]; · iexists _; iexact H3
        iexists _; iexact H4
  · by_cases h1 : t.val % 16 = 15
    ·
        rw [show (dat0 V c).leavesExact 0 t = owns (c : Thread nD τ) (ms0_0 t) fullShare ((dat0 V c).after 0 t) from by
          unfold Dat.leavesExact; rw [liveAt0_0 t], after0_0]
        rw [show (dat0 V c).leavesExact 1 t = owns (c : Thread nD τ) (ms0_1 t) fullShare ((dat0 V c).after 1 t) from by
          unfold Dat.leavesExact; rw [liveAt0_1 t], after0_1]
        rw [show (dat0 V c).leavesExact 2 t = owns (c : Thread nD τ) (ms0_2 t) fullShare ((dat0 V c).after 2 t) from by
          unfold Dat.leavesExact; rw [liveAt0_2 t], after0_2]
        rw [show (dat0 V c).leavesExact 3 t = owns (c : Thread nD τ) (ms0_3 t) fullShare ((dat0 V c).after 3 t) from by
          unfold Dat.leavesExact; rw [liveAt0_3 t ((hcond0_1 t).mpr h1)], after0_3]
        rw [show (dat0 V c).leavesExact 4 t = owns (c : Thread nD τ) (ms0_4 t) fullShare ((dat0 V c).after 4 t) from by
          unfold Dat.leavesExact; rw [liveAt0_4 t ((hcond0_1 t).mpr h1)], after0_4]
        rw [outsAt0_C V c t h0 h1]
        unfold out0_C_1 out0_C_2 out0_C_3 out0_C_4 sout0_C_0; (try dsimp only)
        rw [PhiS_castSucc V c t, PhiS_pos V c _ _ (by omega)]
        iintro ⟨⟨⟨HS0, Hrest⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ (fun h => h0 ((hcond0_0 t).mp h)) ((hcond0_1 t).mpr h1) (iblk0 V c 0 t) _).2.2.2.2.2 Set.univ _)
        isplitl [H0]; · iexact H0
        isplitl [H1]; · iexists _; iexact H1
        isplitl [H2]; · iexists _; iexact H2
        isplitl [H3]; · iexists _; iexact H3
        isplitl [H4]; · iexists _; iexact H4
        isplitl [HS0]; · iexact HS0
        iintro ⟨H0, ⟨%e1, H1⟩, ⟨%e2, H2⟩, ⟨%e3, H3⟩, ⟨%e4, H4⟩, ⟨%es0, HS0⟩⟩
        isplitl [HS0 Hrest Hg]
        · isplitl [HS0 Hrest]
          · isplitl [HS0]
            · unfold owns; iexists _; isplitr; swap; iexact HS0; ipureintro; exact View.read_writes_of_cover _ _ _ _ _ (scover0_C_0 c _ _ _ _ _ _ _ _ _ _ _ _ _ _ _ _ _)
            iexact Hrest
          iexact Hg
        isplitl [Ho]; · iexact Ho
        isplitl [H0]; · iexact H0
        isplitl [H1]
        · unfold owns; iexists _; isplitr; swap; iexact H1; ipureintro; exact View.read_writes_of_cover _ _ _ _ _ (cover0_C_1 c _ _ _ _ _ _ _ _ _ _ _ _ _ _ _ _ _)
        isplitl [H2]
        · unfold owns; iexists _; isplitr; swap; iexact H2; ipureintro; exact View.read_writes_of_cover _ _ _ _ _ (cover0_C_2 c _ _ _ _ _ _ _ _ _ _ _ _ _ _ _ _ _)
        isplitl [H3]
        · unfold owns; iexists _; isplitr; swap; iexact H3; ipureintro; exact View.read_writes_of_cover _ _ _ _ _ (cover0_C_3 c _ _ _ _ _ _ _ _ _ _ _ _ _ _ _ _ _)
        unfold owns; iexists _; isplitr; swap; iexact H4; ipureintro; exact View.read_writes_of_cover _ _ _ _ _ (cover0_C_4 c _ _ _ _ _ _ _ _ _ _ _ _ _ _ _ _ _)
    ·
        rw [show (dat0 V c).leavesExact 0 t = owns (c : Thread nD τ) (ms0_0 t) fullShare ((dat0 V c).after 0 t) from by
          unfold Dat.leavesExact; rw [liveAt0_0 t], after0_0]
        rw [show (dat0 V c).leavesExact 1 t = owns (c : Thread nD τ) (ms0_1 t) fullShare ((dat0 V c).after 1 t) from by
          unfold Dat.leavesExact; rw [liveAt0_1 t], after0_1]
        rw [show (dat0 V c).leavesExact 2 t = owns (c : Thread nD τ) (ms0_2 t) fullShare ((dat0 V c).after 2 t) from by
          unfold Dat.leavesExact; rw [liveAt0_2 t], after0_2]
        rw [Dat.leavesExact_idle (dat0 V c) 3 t (idleAt0_3 t (fun h => h1 ((hcond0_1 t).mp h))) (noFlush0_3 t (fun h => h1 ((hcond0_1 t).mp h)))]
        rw [Dat.leavesExact_idle (dat0 V c) 4 t (idleAt0_4 t (fun h => h1 ((hcond0_1 t).mp h))) (noFlush0_4 t (fun h => h1 ((hcond0_1 t).mp h)))]
        rw [outsAt0_B V c t h0 h1]
        unfold out0_B_1 out0_B_2 sout0_B_0; (try dsimp only)
        rw [PhiS_castSucc V c t, PhiS_pos V c _ _ (by omega)]
        iintro ⟨⟨⟨HS0, Hrest⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ (fun h => h0 ((hcond0_0 t).mp h)) (fun h => h1 ((hcond0_1 t).mp h)) (iblk0 V c 0 t) _).2.2.2 _ _ Set.univ _)
        isplitl [H0]; · iexact H0
        isplitl [H1]; · iexists _; iexact H1
        isplitl [H2]; · iexists _; iexact H2
        isplitl [H3]; · iexact H3
        isplitl [H4]; · iexact H4
        isplitl [HS0]; · iexact HS0
        iintro ⟨H0, ⟨%e1, H1⟩, ⟨%e2, H2⟩, H3, H4, ⟨%es0, HS0⟩⟩
        isplitl [HS0 Hrest Hg]
        · isplitl [HS0 Hrest]
          · isplitl [HS0]
            · unfold owns; iexists _; isplitr; swap; iexact HS0; ipureintro; exact View.read_writes_of_cover _ _ _ _ _ (scover0_B_0 c _ _ _ _ _ _ _ _ _ _ _ _ _ _ _ _ _)
            iexact Hrest
          iexact Hg
        isplitl [Ho]; · iexact Ho
        isplitl [H0]; · iexact H0
        isplitl [H1]
        · unfold owns; iexists _; isplitr; swap; iexact H1; ipureintro; exact View.read_writes_of_cover _ _ _ _ _ (cover0_B_1 c _ _ _ _ _ _ _ _ _ _ _ _ _ _ _ _ _)
        isplitl [H2]
        · unfold owns; iexists _; isplitr; swap; iexact H2; ipureintro; exact View.read_writes_of_cover _ _ _ _ _ (cover0_B_2 c _ _ _ _ _ _ _ _ _ _ _ _ _ _ _ _ _)
        isplitl [H3]; · iexists _; iexact H3
        iexists _; iexact H4

/-- The library's body obligation, at every strip. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first strip. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last strip the invariant gives the class's back: the scratch's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 16 := N_0; omega), PhiA0_eq]
  iintro ⟨⟨HS0, Hrest⟩, Hg⟩
  isplitl [HS0 Hrest]
  · isplitl [HS0]
    · iexists _; iexact HS0
    iexact Hrest
  iexact Hg

end Cert.KernelIdeal.Hand

end
-- ==== Proof.KI.Reg1.lean ====
/-
  Pipeline 1 of the idealized kernel program at the contents `V` its region is entered with.

  The grid is 16 x 4. At point (i, j) the body reads three blocks — the 512 x 1024 tile (i, j) of the matrix, the
  512 x 1 strip i of the row scale and the 1 x 1024 strip j of the column scale — and fills two: the tile (i, j) of
  the first result with (row scale * matrix) * column scale, entry by entry, and the tile (j, i) of the second
  result with the transpose of that tile. Each result buffer is also read once before it is filled; what is read
  there is used by nothing.

  Stated here, for any float model: each window's block at a point as a reading of the array the region finds;
  what the body leaves in each window's buffer (an input's block as it was, a result's buffer at its one store,
  which covers it); the body's triple; and the body's obligation at every point of the grid.
-/
import proofs.«132844_j8031588843576_2_alg».proof.Proof.Gen.KernelIdeal.Launch
import proofs.«132844_j8031588843576_2_alg».proof.Proof.Gen.KernelIdeal.Skeleton
import proofs.«132844_j8031588843576_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, for any proof data whose array is `V`'s and
    whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point — also at the points where it is not fetched
    (the block index moves only with the first grid coordinate, so between fetches the block is the same one). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its buffer -/

abbrev r1_0 : Rect S512x1024 := Rect.unit (s := S512x1024) ![0, 0] S512x1024.size inb_S512x1024_S512x1024_0_0
abbrev r1_1 : Rect S512x1 := Rect.unit (s := S512x1) ![0, 0] S512x1.size inb_S512x1_S512x1_0_0
abbrev r1_2 : Rect S1x1024 := Rect.unit (s := S1x1024) ![0, 0] S1x1024.size inb_S1x1024_S1x1024_0_0
abbrev r1_4 : Rect S1024x512 := Rect.unit (s := S1024x512) ![0, 0] S1024x512.size inb_S1024x512_S1024x512_0_0

/-! ## What the body leaves in each result window's buffer -/

/-- Window 3's buffer after the body, from the input blocks: its one store, of the scaled tile. -/
def out1_3 (x0 : Vec F S512x1024 .f32) (x1 : Vec F S512x1 .f32) (x2 : Vec F S1x1024 .f32) : Vec F S512x1024 .f32 :=
  View.canon [⟨r1_0, k1_pay1 (View.ld x1 r1_1) (View.ld x0 r1_0) (View.ld x2 r1_2)⟩]

/-- The store is of the whole buffer, so it covers it. -/
theorem cover1_3 (p0 : Vec F S512x1024 .f32) (y : S512x1024.Idx) :
    ∃ pc ∈ ([⟨r1_0, p0⟩] : List (View.Piece (Elt F) S512x1024 .f32)), y ∈ pc.1.set :=
  View.cover_of_tiled [⟨r1_0, p0⟩] S512x1024.size (by rfl) y

/-- Window 4's buffer after the body, from the input blocks: its one store, of the scaled tile transposed. -/
def out1_4 (x0 : Vec F S512x1024 .f32) (x1 : Vec F S512x1 .f32) (x2 : Vec F S1x1024 .f32) : Vec F S1024x512 .f32 :=
  View.canon [⟨r1_4, k1_pay2 (View.ld x1 r1_1) (View.ld x0 r1_0) (View.ld x2 r1_2)⟩]

/-- The store is of the whole buffer, so it covers it. -/
theorem cover1_4 (p0 : Vec F S1024x512 .f32) (y : S1024x512.Idx) :
    ∃ pc ∈ ([⟨r1_4, p0⟩] : List (View.Piece (Elt F) S1024x512 .f32)), y ∈ pc.1.set :=
  View.cover_of_tiled [⟨r1_4, p0⟩] S1024x512.size (by rfl) y

/-! ## The body's triple -/

set_option maxHeartbeats 1000000 in
/-- The body on whole buffers, the inputs' at read contents `xW` and the results' at anything, runs to the
    continuation holding the inputs' as they were and each result's at `out1_W` of the inputs'. -/
theorem sound_kernel1 (c : Dev nD) (E : Set ℕ) (i : grid1.Coords)
    (arg2 : Memref sig .tc .vmem S512x1024 .f32) (harg2 : arg2.IsWhole) (arg3 : Memref sig .tc .vmem S512x1 .f32) (harg3 : arg3.IsWhole)
    (arg4 : Memref sig .tc .vmem S1x1024 .f32) (harg4 : arg4.IsWhole) (arg5 : Memref sig .tc .vmem S512x1024 .f32) (harg5 : arg5.IsWhole)
    (arg6 : Memref sig .tc .vmem S1024x512 .f32) (harg6 : arg6.IsWhole)
    (x0 : Vec F S512x1024 .f32) (x1 : Vec F S512x1 .f32) (x2 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2) ∗ owns (c : Thread nD τ) arg6 fullShare (out1_4 x0 x1 x2)) -∗ K ⟨⟩))
      ⊢ wp frame (wpE (defs₀ (F := F)) Variants.none c none) E (cc1__agg_fused_kernel i arg2 harg2 arg3 harg3 arg4 harg4 arg5 harg5 arg6 harg6) K := by
  simp only [cc1__agg_fused_kernel_eq_skeleton]; unfold cc1__agg_fused_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-! ## The pipeline's proof data -/

/-- The proof data of pipeline 1 on core `c`: the arrays as the region finds them; after the body at point `t` each
    input's buffer at its block and each result's at `out1_W` of the input blocks; the invariant the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]
theorem after1_4 (c : Dev nD) (t : Fin cfg1.N) :
    (dat1 V c).after 4 t = out1_4 (iblk1 V c 0 t) (iblk1 V c 1 t) (iblk1 V c 2 t) := by dsimp only [dat1]

/-- Each input's current buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body's obligation, at every point. -/
theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := .rfl

theorem hout1 (c : Dev nD) : (dat1 V c).Φ (Fin.last cfg1.N) ⊢ Pipeline.ΦA spec1 c := .rfl

end Cert.KernelIdeal.Hand

end
-- ==== Proof.KI.Reg2.lean ====
/-
  Pipeline 2 of the idealized kernel program (the diagonal kernel on its 8x8 grid of 1024x1024 tiles), at the
  contents `V` its region is entered with. At grid point (i, j) the body stores the whole output tile: on the
  diagonal (i = j) the tile whose entry (r, s) is the input block's entry (r, 0) if r = s and zero otherwise; off the
  diagonal (i ≠ j) the zero tile. Exactly one of the body's two conditionals holds at every point, so what the body
  leaves in the output window's buffer is the single store of the case the point is in, and nothing is carried from
  point to point. The input window's buffer holds the input's block (i, 0) at every point, fetched there or not.
-/
import proofs.«132844_j8031588843576_2_alg».proof.Proof.Gen.KernelIdeal.Launch
import proofs.«132844_j8031588843576_2_alg».proof.Proof.Gen.KernelIdeal.Skeleton
import proofs.«132844_j8031588843576_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's current buffer holds its block at every point, fetched there or not (an unfetched point has
    the block index of the point before), for any proof data whose array is `V`'s and whose body leaves the block
    in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-! ## The body's two cases -/

/-- The first conditional is taken exactly where the second is not. -/
theorem hcond2 : ∀ t : Fin cfg2.N, k2_cond2 (grid2.coords t) = 1#1 ↔ ¬ k2_cond1 (grid2.coords t) = 1#1 :=
  (by decide +kernel : ∀ t : Fin grid2.N, k2_cond2 (grid2.coords t) = 1#1 ↔ ¬ k2_cond1 (grid2.coords t) = 1#1)

/-- The input window is idle at no point, -/
theorem liveAt2_0 : ∀ t : Fin cfg2.N, cfg2.idle 0 (grid2.coords t) = false := by decide +kernel
/-- and neither is the output window: one of the two stores happens at each point. -/
theorem liveAt2_1 : ∀ t : Fin cfg2.N, cfg2.idle 1 (grid2.coords t) = false := by decide +kernel

/-! ## The body's accesses and what it leaves in the output window's buffer -/

abbrev r2_0 : Rect S1024x1 := Rect.unit (s := S1024x1) ![0, 0] S1024x1.size inb_S1024x1_S1024x1_0_0
abbrev r2_1 : Rect S1024x1024 := Rect.unit (s := S1024x1024) ![0, 0] S1024x1024.size inb_S1024x1024_S1024x1024_0_0

/-- On the diagonal: the one store of the selected tile, over the input block. -/
def out2_diag (x0 : Vec F S1024x1 .f32) : Vec F S1024x1024 .f32 :=
  View.canon [⟨r2_1, k2_pay1 (View.ld x0 r2_0)⟩]

/-- Off the diagonal: the one store of the zero tile. -/
def out2_off : Vec F S1024x1024 .f32 :=
  View.canon [⟨r2_1, k2_pay2 (F := F)⟩]

/-- The one whole-tile store covers the buffer. -/
theorem cover2_1 (p0 : Vec F S1024x1024 .f32) (y : S1024x1024.Idx) :
    ∃ pc ∈ ([⟨r2_1, p0⟩] : List (View.Piece (Elt F) S1024x1024 .f32)), y ∈ pc.1.set :=
  View.cover_of_tiled [⟨r2_1, p0⟩] S1024x1024.size (by rfl) y

/-! ## The body's triple, case by case -/

set_option maxHeartbeats 1000000 in
/-- On the diagonal (the first conditional taken, the second not) the body, on whole staging memrefs with the input's
    at contents `x0` and the output's at anything, runs to the continuation holding the input's as it was and the
    output's at `out2_diag x0`. -/
theorem sound_kernel2_diag (c : Dev nD) (E : Set ℕ) (i : grid2.Coords) (arg2 : Memref sig .tc .vmem S1024x1 .f32) (harg2 : arg2.IsWhole) (arg3 : Memref sig .tc .vmem S1024x1024 .f32) (harg3 : arg3.IsWhole)
    (h1 : k2_cond1 i = 1#1) (h2 : ¬ k2_cond2 i = 1#1)
    (x0 : Vec F S1024x1 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out2_diag x0)) -∗ K ⟨⟩))
      ⊢ wp frame (wpE (defs₀ (F := F)) Variants.none c none) E (cc2__diag_kernel i arg2 harg2 arg3 harg3) K := by
  simp only [cc2__diag_kernel_eq_skeleton]; unfold cc2__diag_kernel_skel
  unfold owns
  iintro ⟨⟨%f0, %hf0, H0⟩, ⟨%d1, %f1, -, H1⟩, Hk⟩
  subst hf0
  sl_exec (disch := first | exact h1 | exact h2)
  sl_step
  iapply Hk
  isplitl [H0]
  · iexists f0; isplitr; · ipureintro; rfl
    iexact H0
  iexists _; isplitr
  swap; · iexact H1
  ipureintro
  exact View.read_writes_eq_canon _ _ _ (cover2_1 _)

set_option maxHeartbeats 1000000 in
/-- Off the diagonal (the first conditional not taken, the second taken) the body runs to the continuation holding
    the input's buffer as it was and the output's at `out2_off`. -/
theorem sound_kernel2_off (c : Dev nD) (E : Set ℕ) (i : grid2.Coords) (arg2 : Memref sig .tc .vmem S1024x1 .f32) (harg2 : arg2.IsWhole) (arg3 : Memref sig .tc .vmem S1024x1024 .f32) (harg3 : arg3.IsWhole)
    (h1 : ¬ k2_cond1 i = 1#1) (h2 : k2_cond2 i = 1#1)
    (x0 : Vec F S1024x1 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out2_off (F := F))) -∗ K ⟨⟩))
      ⊢ wp frame (wpE (defs₀ (F := F)) Variants.none c none) E (cc2__diag_kernel i arg2 harg2 arg3 harg3) K := by
  simp only [cc2__diag_kernel_eq_skeleton]; unfold cc2__diag_kernel_skel
  unfold owns
  iintro ⟨⟨%f0, %hf0, H0⟩, ⟨%d1, %f1, -, H1⟩, Hk⟩
  subst hf0
  sl_exec (disch := first | exact h1 | exact h2)
  sl_step
  iapply Hk
  isplitl [H0]
  · iexists f0; isplitr; · ipureintro; rfl
    iexact H0
  iexists _; isplitr
  swap; · iexact H1
  ipureintro
  exact View.read_writes_eq_canon _ _ _ (cover2_1 _)

/-! ## The pipeline's proof data -/

/-- The proof data of pipeline 2 on core `c`: the arrays as the region finds them; after the body at point `t` the
    input's buffer at its block and the output's at the store of the case the point is in; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => if k2_cond1 (grid2.coords t) = 1#1 then out2_diag (iblk2 V c 0 t) else out2_off
  Φ _ := Pipeline.ΦA spec2 c
  q _ := fullShare
  owed _ := 0

theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) :
    (dat2 V c).after 1 t = if k2_cond1 (grid2.coords t) = 1#1 then out2_diag (iblk2 V c 0 t) else out2_off := by dsimp only [dat2]
theorem after2_1_diag (c : Dev nD) (t : Fin cfg2.N) (h : k2_cond1 (grid2.coords t) = 1#1) :
    (dat2 V c).after 1 t = out2_diag (iblk2 V c 0 t) := by rw [after2_1, if_pos h]
theorem after2_1_off (c : Dev nD) (t : Fin cfg2.N) (h : ¬ k2_cond1 (grid2.coords t) = 1#1) :
    (dat2 V c).after 1 t = out2_off := by rw [after2_1, if_neg h]

/-- The input's current buffer holds its block at every point. -/
theorem before2_0 (c : Dev nD) (t : Fin cfg2.N) (d) : (dat2 V c).before 0 t d = iblk2 V c 0 t :=
  before2_0_of V (dat2 V c) (A_eq2 V c 0) (after2_0 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t)

/-- The body at any point: the input's memref holds its block, the point is in one of the two cases, and that case's
    triple applies; the invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t]]
  by_cases h1 : k2_cond1 (grid2.coords t) = 1#1
  · have h2 : ¬ k2_cond2 (grid2.coords t) = 1#1 := fun h => (hcond2 t).mp h h1
    rw [after2_1_diag V c t h1]
    iintro ⟨HΦ, Ho, ⟨%d0, H0⟩, ⟨%d1, H1⟩⟩
    iapply (sound_kernel2_diag c Set.univ _ _ _ _ _ h1 h2 (iblk2 V c 0 t) _)
    isplitl [H0]; · iexact H0
    isplitl [H1]; · iexists _; iexact H1
    iintro ⟨H0, H1⟩
    isplitl [HΦ]; · iexact HΦ
    isplitl [Ho]; · iexact Ho
    isplitl [H0]; · iexact H0
    iexact H1
  · have h2 : k2_cond2 (grid2.coords t) = 1#1 := (hcond2 t).mpr h1
    rw [after2_1_off V c t h1]
    iintro ⟨HΦ, Ho, ⟨%d0, H0⟩, ⟨%d1, H1⟩⟩
    iapply (sound_kernel2_off c Set.univ _ _ _ _ _ h1 h2 (iblk2 V c 0 t) _)
    isplitl [H0]; · iexact H0
    isplitl [H1]; · iexists _; iexact H1
    iintro ⟨H0, H1⟩
    isplitl [HΦ]; · iexact HΦ
    isplitl [Ho]; · iexact Ho
    isplitl [H0]; · iexact H0
    iexact H1

/-- The library's body obligation, at every point: the output window is idle nowhere. -/
theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := .rfl

theorem hout2 (c : Dev nD) : (dat2 V c).Φ (Fin.last cfg2.N) ⊢ Pipeline.ΦA spec2 c := .rfl

end Cert.KernelIdeal.Hand

end
-- ==== Proof.KI.Reg3.lean ====
/-
  Pipeline 3 of the idealized kernel program (the diagonal kernel on its 4x4 grid of 1024x1024 tiles), at the
  contents `V` its region is entered with. At grid point (i, j) the body stores the whole output tile: on the
  diagonal (i = j) the tile whose entry (r, s) is the input block's entry (r, 0) if r = s and zero otherwise; off the
  diagonal (i ≠ j) the zero tile. Exactly one of the body's two conditionals holds at every point, so what the body
  leaves in the output window's buffer is the single store of the case the point is in, and nothing is carried from
  point to point. The input window's buffer holds the input's block (i, 0) at every point, fetched there or not.
-/
import proofs.«132844_j8031588843576_2_alg».proof.Proof.Gen.KernelIdeal.Launch
import proofs.«132844_j8031588843576_2_alg».proof.Proof.Gen.KernelIdeal.Skeleton
import proofs.«132844_j8031588843576_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The input window's current buffer holds its block at every point, fetched there or not (an unfetched point has
    the block index of the point before), for any proof data whose array is `V`'s and whose body leaves the block
    in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-! ## The body's two cases -/

/-- The first conditional is taken exactly where the second is not. -/
theorem hcond3 : ∀ t : Fin cfg3.N, k3_cond2 (grid3.coords t) = 1#1 ↔ ¬ k3_cond1 (grid3.coords t) = 1#1 :=
  (by decide +kernel : ∀ t : Fin grid3.N, k3_cond2 (grid3.coords t) = 1#1 ↔ ¬ k3_cond1 (grid3.coords t) = 1#1)

/-- The input window is idle at no point, -/
theorem liveAt3_0 : ∀ t : Fin cfg3.N, cfg3.idle 0 (grid3.coords t) = false := by decide +kernel
/-- and neither is the output window: one of the two stores happens at each point. -/
theorem liveAt3_1 : ∀ t : Fin cfg3.N, cfg3.idle 1 (grid3.coords t) = false := by decide +kernel

/-! ## The body's accesses and what it leaves in the output window's buffer -/

abbrev r3_0 : Rect S1024x1 := Rect.unit (s := S1024x1) ![0, 0] S1024x1.size inb_S1024x1_S1024x1_0_0
abbrev r3_1 : Rect S1024x1024 := Rect.unit (s := S1024x1024) ![0, 0] S1024x1024.size inb_S1024x1024_S1024x1024_0_0

/-- On the diagonal: the one store of the selected tile, over the input block. -/
def out3_diag (x0 : Vec F S1024x1 .f32) : Vec F S1024x1024 .f32 :=
  View.canon [⟨r3_1, k3_pay1 (View.ld x0 r3_0)⟩]

/-- Off the diagonal: the one store of the zero tile. -/
def out3_off : Vec F S1024x1024 .f32 :=
  View.canon [⟨r3_1, k3_pay2 (F := F)⟩]

/-- The one whole-tile store covers the buffer. -/
theorem cover3_1 (p0 : Vec F S1024x1024 .f32) (y : S1024x1024.Idx) :
    ∃ pc ∈ ([⟨r3_1, p0⟩] : List (View.Piece (Elt F) S1024x1024 .f32)), y ∈ pc.1.set :=
  View.cover_of_tiled [⟨r3_1, p0⟩] S1024x1024.size (by rfl) y

/-! ## The body's triple, case by case -/

set_option maxHeartbeats 1000000 in
/-- On the diagonal (the first conditional taken, the second not) the body, on whole staging memrefs with the input's
    at contents `x0` and the output's at anything, runs to the continuation holding the input's as it was and the
    output's at `out3_diag x0`. -/
theorem sound_kernel3_diag (c : Dev nD) (E : Set ℕ) (i : grid3.Coords) (arg2 : Memref sig .tc .vmem S1024x1 .f32) (harg2 : arg2.IsWhole) (arg3 : Memref sig .tc .vmem S1024x1024 .f32) (harg3 : arg3.IsWhole)
    (h1 : k3_cond1 i = 1#1) (h2 : ¬ k3_cond2 i = 1#1)
    (x0 : Vec F S1024x1 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out3_diag x0)) -∗ K ⟨⟩))
      ⊢ wp frame (wpE (defs₀ (F := F)) Variants.none c none) E (cc3__diag_kernel i arg2 harg2 arg3 harg3) K := by
  simp only [cc3__diag_kernel_eq_skeleton]; unfold cc3__diag_kernel_skel
  unfold owns
  iintro ⟨⟨%f0, %hf0, H0⟩, ⟨%d1, %f1, -, H1⟩, Hk⟩
  subst hf0
  sl_exec (disch := first | exact h1 | exact h2)
  sl_step
  iapply Hk
  isplitl [H0]
  · iexists f0; isplitr; · ipureintro; rfl
    iexact H0
  iexists _; isplitr
  swap; · iexact H1
  ipureintro
  exact View.read_writes_eq_canon _ _ _ (cover3_1 _)

set_option maxHeartbeats 1000000 in
/-- Off the diagonal (the first conditional not taken, the second taken) the body runs to the continuation holding
    the input's buffer as it was and the output's at `out3_off`. -/
theorem sound_kernel3_off (c : Dev nD) (E : Set ℕ) (i : grid3.Coords) (arg2 : Memref sig .tc .vmem S1024x1 .f32) (harg2 : arg2.IsWhole) (arg3 : Memref sig .tc .vmem S1024x1024 .f32) (harg3 : arg3.IsWhole)
    (h1 : ¬ k3_cond1 i = 1#1) (h2 : k3_cond2 i = 1#1)
    (x0 : Vec F S1024x1 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out3_off (F := F))) -∗ K ⟨⟩))
      ⊢ wp frame (wpE (defs₀ (F := F)) Variants.none c none) E (cc3__diag_kernel i arg2 harg2 arg3 harg3) K := by
  simp only [cc3__diag_kernel_eq_skeleton]; unfold cc3__diag_kernel_skel
  unfold owns
  iintro ⟨⟨%f0, %hf0, H0⟩, ⟨%d1, %f1, -, H1⟩, Hk⟩
  subst hf0
  sl_exec (disch := first | exact h1 | exact h2)
  sl_step
  iapply Hk
  isplitl [H0]
  · iexists f0; isplitr; · ipureintro; rfl
    iexact H0
  iexists _; isplitr
  swap; · iexact H1
  ipureintro
  exact View.read_writes_eq_canon _ _ _ (cover3_1 _)

/-! ## The pipeline's proof data -/

/-- The proof data of pipeline 3 on core `c`: the arrays as the region finds them; after the body at point `t` the
    input's buffer at its block and the output's at the store of the case the point is in; the invariant the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => if k3_cond1 (grid3.coords t) = 1#1 then out3_diag (iblk3 V c 0 t) else out3_off
  Φ _ := Pipeline.ΦA spec3 c
  q _ := fullShare
  owed _ := 0

theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) :
    (dat3 V c).after 1 t = if k3_cond1 (grid3.coords t) = 1#1 then out3_diag (iblk3 V c 0 t) else out3_off := by dsimp only [dat3]
theorem after3_1_diag (c : Dev nD) (t : Fin cfg3.N) (h : k3_cond1 (grid3.coords t) = 1#1) :
    (dat3 V c).after 1 t = out3_diag (iblk3 V c 0 t) := by rw [after3_1, if_pos h]
theorem after3_1_off (c : Dev nD) (t : Fin cfg3.N) (h : ¬ k3_cond1 (grid3.coords t) = 1#1) :
    (dat3 V c).after 1 t = out3_off := by rw [after3_1, if_neg h]

/-- The input's current buffer holds its block at every point. -/
theorem before3_0 (c : Dev nD) (t : Fin cfg3.N) (d) : (dat3 V c).before 0 t d = iblk3 V c 0 t :=
  before3_0_of V (dat3 V c) (A_eq3 V c 0) (after3_0 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t)

/-- The body at any point: the input's memref holds its block, the point is in one of the two cases, and that case's
    triple applies; the invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).Φ t.succ = (dat3 V c).Φ t.castSucc from rfl,
    show (dat3 V c).owesAt () t.succ = (dat3 V c).owesAt () t.castSucc from rfl]
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t]]
  by_cases h1 : k3_cond1 (grid3.coords t) = 1#1
  · have h2 : ¬ k3_cond2 (grid3.coords t) = 1#1 := fun h => (hcond3 t).mp h h1
    rw [after3_1_diag V c t h1]
    iintro ⟨HΦ, Ho, ⟨%d0, H0⟩, ⟨%d1, H1⟩⟩
    iapply (sound_kernel3_diag c Set.univ _ _ _ _ _ h1 h2 (iblk3 V c 0 t) _)
    isplitl [H0]; · iexact H0
    isplitl [H1]; · iexists _; iexact H1
    iintro ⟨H0, H1⟩
    isplitl [HΦ]; · iexact HΦ
    isplitl [Ho]; · iexact Ho
    isplitl [H0]; · iexact H0
    iexact H1
  · have h2 : k3_cond2 (grid3.coords t) = 1#1 := (hcond3 t).mpr h1
    rw [after3_1_off V c t h1]
    iintro ⟨HΦ, Ho, ⟨%d0, H0⟩, ⟨%d1, H1⟩⟩
    iapply (sound_kernel3_off c Set.univ _ _ _ _ _ h1 h2 (iblk3 V c 0 t) _)
    isplitl [H0]; · iexact H0
    isplitl [H1]; · iexists _; iexact H1
    iintro ⟨H0, H1⟩
    isplitl [HΦ]; · iexact HΦ
    isplitl [Ho]; · iexact Ho
    isplitl [H0]; · iexact H0
    iexact H1

/-- The library's body obligation, at every point: the output window is idle nowhere. -/
theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := .rfl

theorem hout3 (c : Dev nD) : (dat3 V c).Φ (Fin.last cfg3.N) ⊢ Pipeline.ΦA spec3 c := .rfl

end Cert.KernelIdeal.Hand

end
-- ==== Proof.KI.Run.lean ====
/-
  The run of the idealized kernel program: its four kernel regions one after another from the launch memory.
  The buffers' contents at each boundary are a fold through the program — a region leaves each of its windows'
  arrays at what its pipeline's write-backs make of it and every other buffer as it found it — and each region is
  entered from the contents the one before it leaves. Every weakly fair execution terminates with every unscoped
  buffer at the last boundary's contents; the argument array is never written, so it ends as launched.
-/
import proofs.«132844_j8031588843576_2_alg».proof.Proof.KI.Reg0
import proofs.«132844_j8031588843576_2_alg».proof.Proof.KI.Reg1
import proofs.«132844_j8031588843576_2_alg».proof.Proof.KI.Reg2
import proofs.«132844_j8031588843576_2_alg».proof.Proof.KI.Reg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents at each boundary: a fold through the program -/

/-- Core `c`'s buffers at launch (region 0's entry). -/
abbrev W0 : Dev nD → Valuation τ sig (Elt F) := fun c b => m ((c : Dev nD), b)
/-- The same read at the TensorCore's references (what region 0's proof data take). -/
abbrev V0 : (c : Dev nD) → (b : Ref sig .tc) → Buf (Elt F) ((c : Thread nD τ).loc b) := fun c b => W0 m c b

/-- At region 0's exit (region 1's entry): its arrays at what the pipeline leaves (an input as entered, an output's write-backs
    folded), every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references (region 0's exit contents). -/
abbrev V1 : (c : Dev nD) → (b : Ref sig .tc) → Buf (Elt F) ((c : Thread nD τ).loc b) := fun c b => W1 m c b
/-- At region 0's exit each of its arrays holds what the pipeline leaves (`hF0`) and every other buffer what it
    held at entry (`hrest0`). -/
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- At region 1's exit (region 2's entry): its arrays at what the pipeline leaves (an input as entered, an output's write-backs
    folded), every other buffer as entered. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
/-- The same read at the TensorCore's references (region 1's exit contents). -/
abbrev V2 : (c : Dev nD) → (b : Ref sig .tc) → Buf (Elt F) ((c : Thread nD τ).loc b) := fun c b => W2 m c b
/-- At region 1's exit each of its arrays holds what the pipeline leaves (`hF1`) and every other buffer what it
    held at entry (`hrest1`). -/
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-- At region 2's exit (region 3's entry): its arrays at what the pipeline leaves (an input as entered, an output's write-backs
    folded), every other buffer as entered. -/
def W3 (c : Dev nD) : Valuation τ sig (Elt F) :=
  Pipeline.withArrays spec2 c (W2 m c) fun w => (dat2 (V2 m) c).arrAt w cfg2.N
theorem W3_arr (c : Dev nD) (w : Fin cfg2.W) :
    W3 m c (Proc.devRef .tc (Pipeline.arrRef spec2 w)) = (dat2 (V2 m) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m c (Proc.devRef .tc b) = W2 m c (Proc.devRef .tc b) := by
  unfold W3; exact Pipeline.withArrays_of_ne spec2 c _ _ b hb
/-- The same read at the TensorCore's references (region 2's exit contents). -/
abbrev V3 : (c : Dev nD) → (b : Ref sig .tc) → Buf (Elt F) ((c : Thread nD τ).loc b) := fun c b => W3 m c b
/-- At region 2's exit each of its arrays holds what the pipeline leaves (`hF2`) and every other buffer what it
    held at entry (`hrest2`). -/
theorem hF2 (c : Dev nD) (w : Fin cfg2.W) : (dat2 (V2 m) c).arrAt w cfg2.N = V3 m c (Pipeline.arrRef spec2 w) :=
  (W3_arr m c w).symm
theorem hrest2 (c : Dev nD) : ∀ b, b ∉ Finset.univ.image (Pipeline.arrRef spec2) → V3 m c b = V2 m c b :=
  fun b hb => W3_of_ne m c b fun w e => hb (Finset.mem_image.mpr ⟨w, Finset.mem_univ _, e⟩)

/-- At region 3's exit (the end): its arrays at what the pipeline leaves (an input as entered, an output's write-backs
    folded), every other buffer as entered. -/
def W4 (c : Dev nD) : Valuation τ sig (Elt F) :=
  Pipeline.withArrays spec3 c (W3 m c) fun w => (dat3 (V3 m) c).arrAt w cfg3.N
theorem W4_arr (c : Dev nD) (w : Fin cfg3.W) :
    W4 m c (Proc.devRef .tc (Pipeline.arrRef spec3 w)) = (dat3 (V3 m) c).arrAt w cfg3.N := by
  unfold W4; exact Pipeline.withArrays_arr spec3 launch3.win.arr_inj c _ _ w
theorem W4_of_ne (c : Dev nD) (b : Ref sig .tc) (hb : ∀ w, Pipeline.arrRef spec3 w ≠ b) :
    W4 m c (Proc.devRef .tc b) = W3 m c (Proc.devRef .tc b) := by
  unfold W4; exact Pipeline.withArrays_of_ne spec3 c _ _ b hb
/-- The same read at the TensorCore's references (region 3's exit contents). -/
abbrev V4 : (c : Dev nD) → (b : Ref sig .tc) → Buf (Elt F) ((c : Thread nD τ).loc b) := fun c b => W4 m c b
/-- At region 3's exit each of its arrays holds what the pipeline leaves (`hF3`) and every other buffer what it
    held at entry (`hrest3`). -/
theorem hF3 (c : Dev nD) (w : Fin cfg3.W) : (dat3 (V3 m) c).arrAt w cfg3.N = V4 m c (Pipeline.arrRef spec3 w) :=
  (W4_arr m c w).symm
theorem hrest3 (c : Dev nD) : ∀ b, b ∉ Finset.univ.image (Pipeline.arrRef spec3) → V4 m c b = V3 m c b :=
  fun b hb => W4_of_ne m c b fun w e => hb (Finset.mem_image.mpr ⟨w, Finset.mem_univ _, e⟩)

/-! ## What each region finds in the buffers it reads, and what the end holds

Each read walks the fold back: past a region none of whose windows is on the buffer (`WJ_of_ne`), to the region that
wrote it (`WJ_arr`) or, for an input window, through that region unchanged. -/

/-- Region 1 finds the argument array as launched: region 0 only reads it. -/
theorem V1_main_arg0 (c : Dev nD) : V1 m c main_arg0 = m ((c : Thread nD τ).loc main_arg0) :=
  (W1_arr m c 0).trans (((dat0 (V0 m) c).arrAt_in 0 rfl _).trans (A_eq0 (V0 m) c 0))
/-- Region 1 finds in `main_v0_0` what region 0's window 1 leaves. -/
theorem V1_main_v0_0 (c : Dev nD) : V1 m c main_v0_0 = (dat0 (V0 m) c).arrAt 1 cfg0.N := W1_arr m c 1
/-- Region 1 finds in `main_v0_2` what region 0's window 3 leaves. -/
theorem V1_main_v0_2 (c : Dev nD) : V1 m c main_v0_2 = (dat0 (V0 m) c).arrAt 3 cfg0.N := W1_arr m c 3
/-- Region 2 finds in `main_v0_1` what region 0's window 2 leaves: region 1 has no window on it. -/
theorem V2_main_v0_1 (c : Dev nD) : V2 m c main_v0_1 = (dat0 (V0 m) c).arrAt 2 cfg0.N :=
  (W2_of_ne m c main_v0_1 (by decide)).trans (W1_arr m c 2)
/-- Region 3 finds in `main_v0_3` what region 0's window 4 leaves: regions 1 and 2 have no window on it. -/
theorem V3_main_v0_3 (c : Dev nD) : V3 m c main_v0_3 = (dat0 (V0 m) c).arrAt 4 cfg0.N :=
  (W3_of_ne m c main_v0_3 (by decide)).trans ((W2_of_ne m c main_v0_3 (by decide)).trans (W1_arr m c 4))
/-- Region 2 is entered with the argument array as launched: region 1 only reads it. -/
theorem V2_main_arg0 (c : Dev nD) : V2 m c main_arg0 = m ((c : Thread nD τ).loc main_arg0) :=
  (W2_arr m c 0).trans (((dat1 (V1 m) c).arrAt_in 0 rfl _).trans ((A_eq1 (V1 m) c 0).trans (V1_main_arg0 m c)))
/-- The end holds in `main_v1_0` what region 1's window 3 leaves. -/
theorem V4_main_v1_0 (c : Dev nD) : V4 m c main_v1_0 = (dat1 (V1 m) c).arrAt 3 cfg1.N :=
  (W4_of_ne m c main_v1_0 (by decide)).trans ((W3_of_ne m c main_v1_0 (by decide)).trans (W2_arr m c 3))
/-- The end holds in `main_v1_1` what region 1's window 4 leaves. -/
theorem V4_main_v1_1 (c : Dev nD) : V4 m c main_v1_1 = (dat1 (V1 m) c).arrAt 4 cfg1.N :=
  (W4_of_ne m c main_v1_1 (by decide)).trans ((W3_of_ne m c main_v1_1 (by decide)).trans (W2_arr m c 4))
/-- The end holds in `main_v2` what region 2's window 1 leaves. -/
theorem V4_main_v2 (c : Dev nD) : V4 m c main_v2 = (dat2 (V2 m) c).arrAt 1 cfg2.N :=
  (W4_of_ne m c main_v2 (by decide)).trans (W3_arr m c 1)
/-- The end holds in `main_v3` what region 3's window 1 leaves. -/
theorem V4_main_v3 (c : Dev nD) : V4 m c main_v3 = (dat3 (V3 m) c).arrAt 1 cfg3.N := W4_arr m c 1
/-- The argument array ends as launched: regions 0 and 1 only read it, regions 2 and 3 have no window on it. -/
theorem V4_main_arg0 (c : Dev nD) : V4 m c main_arg0 = m ((c : Thread nD τ).loc main_arg0) :=
  (W4_of_ne m c main_arg0 (by decide)).trans ((W3_of_ne m c main_arg0 (by decide)).trans (V2_main_arg0 m c))

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
  | ⟨2, _⟩ => fun c => dat2 (V2 m) c
  | ⟨3, _⟩ => fun c => dat3 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every region: the core's generator register at some state and its dues,
    at nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- REGION 0 over the thread state: entered from every unscoped buffer at `W0`, left at `W1`. Its arrays are
    split out of the unscoped buffers and put back at the exit contents; the generator register and the scoped buffers
    no window stages go into the pipeline's invariant at the first point and come back from it at the last; nothing
    is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) (A_eq0 (V0 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (V0 m) c).Φ 0 from rfl]
    iintro ⟨Hp, -, Hr⟩
    iapply (hin0 (V0 m) c)
    unfold Pipeline.ΦA
    isplitl [Hr]; · iexact Hr
    iexact Hp
  hout c := by
    rw [Pipeline.ownSems0_none, show (pdats m 0 c).Φ (Fin.last _) = (dat0 (V0 m) c).Φ (Fin.last cfg0.N) from rfl]
    have h := hout0 (V0 m) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W1`, left at `W2`. Its arrays are
    split out of the unscoped buffers and put back at the exit contents; the generator register and the scoped buffers
    no window stages go into the pipeline's invariant at the first point and come back from it at the last; nothing
    is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) (A_eq1 (V1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V1 m) c).Φ 0 from rfl]
    iintro ⟨Hp, -, Hr⟩
    iapply (hin1 (V1 m) c)
    unfold Pipeline.ΦA
    isplitl [Hr]; · iexact Hr
    iexact Hp
  hout c := by
    rw [Pipeline.ownSems0_none, show (pdats m 1 c).Φ (Fin.last _) = (dat1 (V1 m) c).Φ (Fin.last cfg1.N) from rfl]
    have h := hout1 (V1 m) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W2`, left at `W3`. Its arrays are
    split out of the unscoped buffers and put back at the exit contents; the generator register and the scoped buffers
    no window stages go into the pipeline's invariant at the first point and come back from it at the last; nothing
    is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m) c).loose
  hwaits := Pipeline.hwaits_of_owed_zero _ _ _ _ L lv 2 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec2 c (V2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V2 m c) (A_eq2 (V2 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (V2 m) c).Φ 0 from rfl]
    iintro ⟨Hp, -, Hr⟩
    iapply (hin2 (V2 m) c)
    unfold Pipeline.ΦA
    isplitl [Hr]; · iexact Hr
    iexact Hp
  hout c := by
    rw [Pipeline.ownSems0_none, show (pdats m 2 c).Φ (Fin.last _) = (dat2 (V2 m) c).Φ (Fin.last cfg2.N) from rfl]
    have h := hout2 (V2 m) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V2 m c) (V3 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W3`, left at `W4`. Its arrays are
    split out of the unscoped buffers and put back at the exit contents; the generator register and the scoped buffers
    no window stages go into the pipeline's invariant at the first point and come back from it at the last; nothing
    is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V3 m) c).loose
  hwaits := Pipeline.hwaits_of_owed_zero _ _ _ _ L lv 3 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V3 m c) (A_eq3 (V3 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = (dat3 (V3 m) c).Φ 0 from rfl]
    iintro ⟨Hp, -, Hr⟩
    iapply (hin3 (V3 m) c)
    unfold Pipeline.ΦA
    isplitl [Hr]; · iexact Hr
    iexact Hp
  hout c := by
    rw [Pipeline.ownSems0_none, show (pdats m 3 c).Φ (Fin.last _) = (dat3 (V3 m) c).Φ (Fin.last cfg3.N) from rfl]
    have h := hout3 (V3 m) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V3 m c) (V4 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's four segments in order: a region per kernel call, each entered from the contents the one before
    it leaves. -/
abbrev segs : List (Pipeline.Seg (pcfgs (F := F)) adm (pdats m) () defs₀ 𝒱₀ L lv) :=
  [ .region (reg0 m), .region (reg1 m), .region (reg2 m), .region (reg3 m) ]
/-- The program is the run of the segments. -/
theorem main_run (c : Dev nD) : main (F := F) c = Pipeline.Seg.run (segs m) := (main_chain c).trans (by chain_rfl)

set_option backward.isDefEq.respectTransparency.types false in
/-- THE RUN, at any post: from any memory with zero counters, every weakly fair execution of the program on the
    TensorCores terminates, nothing faulting, and every final state has every unscoped buffer at the last boundary's
    contents `W4` — so any `Q` those readings give holds of it. -/
theorem run_of (ρ : Dev nD → PrngReg) {Q : PUnit × MemSt nD τ sig (Elt F) → Prop}
    (hQ : ∀ s : MemSt nD τ sig (Elt F), (∀ c : Dev nD, ∀ b ∈ Pipeline.ucRefs τ sig, s.mem ((c : Thread nD τ).1, b) = W4 m c b) → Q (⟨⟩, s)) :
    θ_run defs (onTc (τ := τ) (main (F := F))) ⟨m, fun _ => 0, ρ⟩ Q :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := hQ)

/-- THE RUN: every final state has every unscoped buffer at the last boundary's contents. -/
theorem run (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = W4 m c b) :=
  run_of m ρ fun _ h => h

/-- THE FRAME: every final state has the argument array as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  run_of m ρ fun s h c => (h c _ (mem_uc main_arg0 (by decide))).trans (V4_main_arg0 m c)

/-- A final state's reading of an unscoped TensorCore buffer is the last boundary's contents there. -/
theorem read_end {s : MemSt nD τ sig (Elt F)}
    (h : ∀ c : Dev nD, ∀ b ∈ Pipeline.ucRefs τ sig, s.mem ((c : Thread nD τ).1, b) = W4 m c b)
    (c : Dev nD) (b : Ref sig .tc) (hb : ¬ (Proc.devRef .tc b : DevRef τ sig).isScoped) :
    s.mem ((c : Thread nD τ).loc b) = V4 m c b := h c _ (mem_uc b hb)

end Cert.KernelIdeal.Hand

end
-- ==== Proof.KI.Val0Canon.lean ====
/-
  What each kind of strip (first, middle, last) leaves in each buffer of the row-and-column statistics body, as a value:
  every buffer is written by stores through its whole rectangle, so what it holds afterwards is the last store's
  payload, and each payload's loads read whole buffers. The first strip's running sums are the strip's column sums
  added to the zero row the reset stored just before; a later strip's are added to what the scratch held; at the last
  strip the two column outputs are computed from the running sums that strip has just stored.
-/
import proofs.«132844_j8031588843576_2_alg».proof.Proof.KI.Reg0RunC
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window BodyObligation cellOf)
open Cert.KernelIdeal Cert.KernelIdeal.Gen

variable {F : FTy → Type} [FloatOps F]

theorem hz0 : (![0, 0] : Fin 2 → Nat) = fun _ => 0 := funext fun a => by fin_cases a <;> rfl

/-! ## The first strip -/

theorem canon0_A_1 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : cond0_0 i) (hc1 : ¬cond0_1 i) (x0 : Vec F S512x4096 .f32) :
    View.canon (kernelRun0_A c i arg1 harg1 arg2 harg2 arg3 harg3 arg4 harg4 arg5 harg5 arg6 harg6 hc0 hc1 x0).1 = k0_pay2 x0 := by
  unfold kernelRun0_A
  dsimp only
  try sl_unfold_words
  rw [View.canon_unit_zero hz0]
  simp only [View.readAt_eq_ld, harg1.read_unread, harg6.read_unread, View.ld_unit_zero (S := S512x4096) hz0, View.ld_unit_zero (S := S1x4096) hz0]

theorem canon0_A_2 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : cond0_0 i) (hc1 : ¬cond0_1 i) (x0 : Vec F S512x4096 .f32) :
    View.canon (kernelRun0_A c i arg1 harg1 arg2 harg2 arg3 harg3 arg4 harg4 arg5 harg5 arg6 harg6 hc0 hc1 x0).2.1 = k0_pay3 x0 := by
  unfold kernelRun0_A
  dsimp only
  try sl_unfold_words
  rw [View.canon_unit_zero hz0]
  simp only [View.readAt_eq_ld, harg1.read_unread, harg6.read_unread, View.ld_unit_zero (S := S512x4096) hz0, View.ld_unit_zero (S := S1x4096) hz0]

theorem canon0_A_S (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : cond0_0 i) (hc1 : ¬cond0_1 i) (x0 : Vec F S512x4096 .f32) :
    View.canon (kernelRun0_A c i arg1 harg1 arg2 harg2 arg3 harg3 arg4 harg4 arg5 harg5 arg6 harg6 hc0 hc1 x0).2.2.1 = k0_pay5 x0 (k0_pay4 (F := F)) := by
  unfold kernelRun0_A
  dsimp only
  try sl_unfold_words
  rw [View.canon_cons_unit_zero (S := S1x4096) hz0, View.readCov_unit_zero (S := S1x4096) _ hz0]
  simp only [View.readAt_eq_ld, harg1.read_unread, harg6.read_unread, View.ld_unit_zero (S := S512x4096) hz0, View.ld_unit_zero (S := S1x4096) hz0]

/-! ## A middle strip -/

theorem canon0_B_1 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : ¬cond0_0 i) (hc1 : ¬cond0_1 i) (x0 : Vec F S512x4096 .f32) (xs0 : Vec F S1x4096 .f32) :
    View.canon (kernelRun0_B c i arg1 harg1 arg2 harg2 arg3 harg3 arg4 harg4 arg5 harg5 arg6 harg6 hc0 hc1 x0 xs0).1 = k0_pay2 x0 := by
  unfold kernelRun0_B
  dsimp only
  try sl_unfold_words
  rw [View.canon_unit_zero hz0]
  simp only [View.readAt_eq_ld, harg1.read_unread, harg6.read_unread, View.ld_unit_zero (S := S512x4096) hz0, View.ld_unit_zero (S := S1x4096) hz0]

theorem canon0_B_2 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : ¬cond0_0 i) (hc1 : ¬cond0_1 i) (x0 : Vec F S512x4096 .f32) (xs0 : Vec F S1x4096 .f32) :
    View.canon (kernelRun0_B c i arg1 harg1 arg2 harg2 arg3 harg3 arg4 harg4 arg5 harg5 arg6 harg6 hc0 hc1 x0 xs0).2.1 = k0_pay3 x0 := by
  unfold kernelRun0_B
  dsimp only
  try sl_unfold_words
  rw [View.canon_unit_zero hz0]
  simp only [View.readAt_eq_ld, harg1.read_unread, harg6.read_unread, View.ld_unit_zero (S := S512x4096) hz0, View.ld_unit_zero (S := S1x4096) hz0]

theorem canon0_B_S (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : ¬cond0_0 i) (hc1 : ¬cond0_1 i) (x0 : Vec F S512x4096 .f32) (xs0 : Vec F S1x4096 .f32) :
    View.canon (kernelRun0_B c i arg1 harg1 arg2 harg2 arg3 harg3 arg4 harg4 arg5 harg5 arg6 harg6 hc0 hc1 x0 xs0).2.2.1 = k0_pay5 x0 xs0 := by
  unfold kernelRun0_B
  dsimp only
  try sl_unfold_words
  rw [View.canon_unit_zero hz0]
  simp only [View.readAt_eq_ld, harg1.read_unread, harg6.read_unread, View.ld_unit_zero (S := S512x4096) hz0, View.ld_unit_zero (S := S1x4096) hz0]

/-! ## The last strip -/

theorem canon0_C_1 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : ¬cond0_0 i) (hc1 : cond0_1 i) (x0 : Vec F S512x4096 .f32) (xs0 : Vec F S1x4096 .f32) :
    View.canon (kernelRun0_C c i arg1 harg1 arg2 harg2 arg3 harg3 arg4 harg4 arg5 harg5 arg6 harg6 hc0 hc1 x0 xs0).1 = k0_pay2 x0 := by
  unfold kernelRun0_C
  dsimp only
  try sl_unfold_words
  rw [View.canon_unit_zero hz0]
  simp only [View.readAt_eq_ld, harg1.read_unread, harg6.read_unread, View.ld_unit_zero (S := S512x4096) hz0, View.ld_unit_zero (S := S1x4096) hz0]

theorem canon0_C_2 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : ¬cond0_0 i) (hc1 : cond0_1 i) (x0 : Vec F S512x4096 .f32) (xs0 : Vec F S1x4096 .f32) :
    View.canon (kernelRun0_C c i arg1 harg1 arg2 harg2 arg3 harg3 arg4 harg4 arg5 harg5 arg6 harg6 hc0 hc1 x0 xs0).2.1 = k0_pay3 x0 := by
  unfold kernelRun0_C
  dsimp only
  try sl_unfold_words
  rw [View.canon_unit_zero hz0]
  simp only [View.readAt_eq_ld, harg1.read_unread, harg6.read_unread, View.ld_unit_zero (S := S512x4096) hz0, View.ld_unit_zero (S := S1x4096) hz0]

theorem canon0_C_3 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : ¬cond0_0 i) (hc1 : cond0_1 i) (x0 : Vec F S512x4096 .f32) (xs0 : Vec F S1x4096 .f32) :
    View.canon (kernelRun0_C c i arg1 harg1 arg2 harg2 arg3 harg3 arg4 harg4 arg5 harg5 arg6 harg6 hc0 hc1 x0 xs0).2.2.1 = k0_pay6 (k0_pay5 x0 xs0) := by
  unfold kernelRun0_C
  dsimp only
  try sl_unfold_words
  rw [View.canon_unit_zero hz0, View.readCov_unit_zero (S := S1x4096) _ hz0]
  simp only [View.readAt_eq_ld, harg1.read_unread, harg6.read_unread, View.ld_unit_zero (S := S512x4096) hz0, View.ld_unit_zero (S := S1x4096) hz0]

theorem canon0_C_4 (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : ¬cond0_0 i) (hc1 : cond0_1 i) (x0 : Vec F S512x4096 .f32) (xs0 : Vec F S1x4096 .f32) :
    View.canon (kernelRun0_C c i arg1 harg1 arg2 harg2 arg3 harg3 arg4 harg4 arg5 harg5 arg6 harg6 hc0 hc1 x0 xs0).2.2.2.1 = k0_pay7 (k0_pay5 x0 xs0) := by
  unfold kernelRun0_C
  dsimp only
  try sl_unfold_words
  rw [View.canon_unit_zero hz0, View.readCov_unit_zero (S := S1x4096) _ hz0]
  simp only [View.readAt_eq_ld, harg1.read_unread, harg6.read_unread, View.ld_unit_zero (S := S512x4096) hz0, View.ld_unit_zero (S := S1x4096) hz0]

theorem canon0_C_S (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : ¬cond0_0 i) (hc1 : cond0_1 i) (x0 : Vec F S512x4096 .f32) (xs0 : Vec F S1x4096 .f32) :
    View.canon (kernelRun0_C c i arg1 harg1 arg2 harg2 arg3 harg3 arg4 harg4 arg5 harg5 arg6 harg6 hc0 hc1 x0 xs0).2.2.2.2.1 = k0_pay5 x0 xs0 := by
  unfold kernelRun0_C
  dsimp only
  try sl_unfold_words
  rw [View.canon_unit_zero hz0]
  simp only [View.readAt_eq_ld, harg1.read_unread, harg6.read_unread, View.ld_unit_zero (S := S512x4096) hz0, View.ld_unit_zero (S := S1x4096) hz0]

end Cert.KernelIdeal.Hand

end
-- ==== Proof.KI.Val0a.lean ====
/-
  The row-and-column statistics pipeline, read as values (any float instance): what each kind of strip leaves in each
  buffer is the corresponding stored value of the strip's block; so after strip t the two row outputs' buffers hold
  rsqrt (row sum + 1) and 1 / (row sum + 1) + 1 of strip t's block, the running column sums are the zero row plus
  strip 0's column sums after the first strip and grow by one strip's column sums at each later strip, and at the last
  strip the two column outputs are computed from the running sums of all sixteen strips. Each strip's block is rows
  512 t .. 512 t + 511 of the array, all 4096 columns.
-/
import proofs.«132844_j8031588843576_2_alg».proof.Proof.KI.Reg0
import proofs.«132844_j8031588843576_2_alg».proof.Proof.KI.Val0Canon
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window BodyObligation cellOf)
open Cert.KernelIdeal Cert.KernelIdeal.Gen

variable {F : FTy → Type} [FloatOps F]

variable (V : (c : Dev nD) → (b : Ref sig .tc) → Buf (Elt F) ((c : Thread nD τ).loc b))

/-! ## What each kind of strip leaves, per buffer -/

theorem out0_A_1_eq (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : cond0_0 i) (hc1 : ¬cond0_1 i) (x0 : Vec F S512x4096 .f32) :
    out0_A_1 c i arg1 harg1 arg2 harg2 arg3 harg3 arg4 harg4 arg5 harg5 arg6 harg6 hc0 hc1 x0 = k0_pay2 x0 := by
  unfold out0_A_1
  rw [View.read_writes_eq_canon _ _ _ (cover0_A_1 c i arg1 harg1 arg2 harg2 arg3 harg3 arg4 harg4 arg5 harg5 arg6 harg6 hc0 hc1 x0)]
  exact canon0_A_1 c i arg1 harg1 arg2 harg2 arg3 harg3 arg4 harg4 arg5 harg5 arg6 harg6 hc0 hc1 x0

theorem out0_A_2_eq (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : cond0_0 i) (hc1 : ¬cond0_1 i) (x0 : Vec F S512x4096 .f32) :
    out0_A_2 c i arg1 harg1 arg2 harg2 arg3 harg3 arg4 harg4 arg5 harg5 arg6 harg6 hc0 hc1 x0 = k0_pay3 x0 := by
  unfold out0_A_2
  rw [View.read_writes_eq_canon _ _ _ (cover0_A_2 c i arg1 harg1 arg2 harg2 arg3 harg3 arg4 harg4 arg5 harg5 arg6 harg6 hc0 hc1 x0)]
  exact canon0_A_2 c i arg1 harg1 arg2 harg2 arg3 harg3 arg4 harg4 arg5 harg5 arg6 harg6 hc0 hc1 x0

theorem sout0_A_0_eq (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : cond0_0 i) (hc1 : ¬cond0_1 i) (x0 : Vec F S512x4096 .f32) :
    sout0_A_0 c i arg1 harg1 arg2 harg2 arg3 harg3 arg4 harg4 arg5 harg5 arg6 harg6 hc0 hc1 x0 = k0_pay5 x0 (k0_pay4 (F := F)) := by
  unfold sout0_A_0
  rw [View.read_writes_eq_canon _ _ _ (scover0_A_0 c i arg1 harg1 arg2 harg2 arg3 harg3 arg4 harg4 arg5 harg5 arg6 harg6 hc0 hc1 x0)]
  exact canon0_A_S c i arg1 harg1 arg2 harg2 arg3 harg3 arg4 harg4 arg5 harg5 arg6 harg6 hc0 hc1 x0

theorem out0_B_1_eq (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : ¬cond0_0 i) (hc1 : ¬cond0_1 i) (x0 : Vec F S512x4096 .f32) (xs0 : Vec F S1x4096 .f32) :
    out0_B_1 c i arg1 harg1 arg2 harg2 arg3 harg3 arg4 harg4 arg5 harg5 arg6 harg6 hc0 hc1 x0 xs0 = k0_pay2 x0 := by
  unfold out0_B_1
  rw [View.read_writes_eq_canon _ _ _ (cover0_B_1 c i arg1 harg1 arg2 harg2 arg3 harg3 arg4 harg4 arg5 harg5 arg6 harg6 hc0 hc1 x0 xs0)]
  exact canon0_B_1 c i arg1 harg1 arg2 harg2 arg3 harg3 arg4 harg4 arg5 harg5 arg6 harg6 hc0 hc1 x0 xs0

theorem out0_B_2_eq (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : ¬cond0_0 i) (hc1 : ¬cond0_1 i) (x0 : Vec F S512x4096 .f32) (xs0 : Vec F S1x4096 .f32) :
    out0_B_2 c i arg1 harg1 arg2 harg2 arg3 harg3 arg4 harg4 arg5 harg5 arg6 harg6 hc0 hc1 x0 xs0 = k0_pay3 x0 := by
  unfold out0_B_2
  rw [View.read_writes_eq_canon _ _ _ (cover0_B_2 c i arg1 harg1 arg2 harg2 arg3 harg3 arg4 harg4 arg5 harg5 arg6 harg6 hc0 hc1 x0 xs0)]
  exact canon0_B_2 c i arg1 harg1 arg2 harg2 arg3 harg3 arg4 harg4 arg5 harg5 arg6 harg6 hc0 hc1 x0 xs0

theorem sout0_B_0_eq (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : ¬cond0_0 i) (hc1 : ¬cond0_1 i) (x0 : Vec F S512x4096 .f32) (xs0 : Vec F S1x4096 .f32) :
    sout0_B_0 c i arg1 harg1 arg2 harg2 arg3 harg3 arg4 harg4 arg5 harg5 arg6 harg6 hc0 hc1 x0 xs0 = k0_pay5 x0 xs0 := by
  unfold sout0_B_0
  rw [View.read_writes_eq_canon _ _ _ (scover0_B_0 c i arg1 harg1 arg2 harg2 arg3 harg3 arg4 harg4 arg5 harg5 arg6 harg6 hc0 hc1 x0 xs0)]
  exact canon0_B_S c i arg1 harg1 arg2 harg2 arg3 harg3 arg4 harg4 arg5 harg5 arg6 harg6 hc0 hc1 x0 xs0

theorem out0_C_1_eq (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : ¬cond0_0 i) (hc1 : cond0_1 i) (x0 : Vec F S512x4096 .f32) (xs0 : Vec F S1x4096 .f32) :
    out0_C_1 c i arg1 harg1 arg2 harg2 arg3 harg3 arg4 harg4 arg5 harg5 arg6 harg6 hc0 hc1 x0 xs0 = k0_pay2 x0 := by
  unfold out0_C_1
  rw [View.read_writes_eq_canon _ _ _ (cover0_C_1 c i arg1 harg1 arg2 harg2 arg3 harg3 arg4 harg4 arg5 harg5 arg6 harg6 hc0 hc1 x0 xs0)]
  exact canon0_C_1 c i arg1 harg1 arg2 harg2 arg3 harg3 arg4 harg4 arg5 harg5 arg6 harg6 hc0 hc1 x0 xs0

theorem out0_C_2_eq (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : ¬cond0_0 i) (hc1 : cond0_1 i) (x0 : Vec F S512x4096 .f32) (xs0 : Vec F S1x4096 .f32) :
    out0_C_2 c i arg1 harg1 arg2 harg2 arg3 harg3 arg4 harg4 arg5 harg5 arg6 harg6 hc0 hc1 x0 xs0 = k0_pay3 x0 := by
  unfold out0_C_2
  rw [View.read_writes_eq_canon _ _ _ (cover0_C_2 c i arg1 harg1 arg2 harg2 arg3 harg3 arg4 harg4 arg5 harg5 arg6 harg6 hc0 hc1 x0 xs0)]
  exact canon0_C_2 c i arg1 harg1 arg2 harg2 arg3 harg3 arg4 harg4 arg5 harg5 arg6 harg6 hc0 hc1 x0 xs0

theorem out0_C_3_eq (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : ¬cond0_0 i) (hc1 : cond0_1 i) (x0 : Vec F S512x4096 .f32) (xs0 : Vec F S1x4096 .f32) :
    out0_C_3 c i arg1 harg1 arg2 harg2 arg3 harg3 arg4 harg4 arg5 harg5 arg6 harg6 hc0 hc1 x0 xs0 = k0_pay6 (k0_pay5 x0 xs0) := by
  unfold out0_C_3
  rw [View.read_writes_eq_canon _ _ _ (cover0_C_3 c i arg1 harg1 arg2 harg2 arg3 harg3 arg4 harg4 arg5 harg5 arg6 harg6 hc0 hc1 x0 xs0)]
  exact canon0_C_3 c i arg1 harg1 arg2 harg2 arg3 harg3 arg4 harg4 arg5 harg5 arg6 harg6 hc0 hc1 x0 xs0

theorem out0_C_4_eq (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : ¬cond0_0 i) (hc1 : cond0_1 i) (x0 : Vec F S512x4096 .f32) (xs0 : Vec F S1x4096 .f32) :
    out0_C_4 c i arg1 harg1 arg2 harg2 arg3 harg3 arg4 harg4 arg5 harg5 arg6 harg6 hc0 hc1 x0 xs0 = k0_pay7 (k0_pay5 x0 xs0) := by
  unfold out0_C_4
  rw [View.read_writes_eq_canon _ _ _ (cover0_C_4 c i arg1 harg1 arg2 harg2 arg3 harg3 arg4 harg4 arg5 harg5 arg6 harg6 hc0 hc1 x0 xs0)]
  exact canon0_C_4 c i arg1 harg1 arg2 harg2 arg3 harg3 arg4 harg4 arg5 harg5 arg6 harg6 hc0 hc1 x0 xs0

theorem sout0_C_0_eq (c : Dev nD) (i : grid0.Coords) (arg1 : Memref sig .tc .vmem S512x4096 .f32) (harg1 : arg1.IsWhole) (arg2 : Memref sig .tc .vmem S512x1 .f32) (harg2 : arg2.IsWhole) (arg3 : Memref sig .tc .vmem S512x1 .f32) (harg3 : arg3.IsWhole) (arg4 : Memref sig .tc .vmem S1x4096 .f32) (harg4 : arg4.IsWhole) (arg5 : Memref sig .tc .vmem S4096x1 .f32) (harg5 : arg5.IsWhole) (arg6 : Memref sig .tc .vmem S1x4096 .f32) (harg6 : arg6.IsWhole) (hc0 : ¬cond0_0 i) (hc1 : cond0_1 i) (x0 : Vec F S512x4096 .f32) (xs0 : Vec F S1x4096 .f32) :
    sout0_C_0 c i arg1 harg1 arg2 harg2 arg3 harg3 arg4 harg4 arg5 harg5 arg6 harg6 hc0 hc1 x0 xs0 = k0_pay5 x0 xs0 := by
  unfold sout0_C_0
  rw [View.read_writes_eq_canon _ _ _ (scover0_C_0 c i arg1 harg1 arg2 harg2 arg3 harg3 arg4 harg4 arg5 harg5 arg6 harg6 hc0 hc1 x0 xs0)]
  exact canon0_C_S c i arg1 harg1 arg2 harg2 arg3 harg3 arg4 harg4 arg5 harg5 arg6 harg6 hc0 hc1 x0 xs0

/-! ## After strip t -/

theorem outs0_1_eq (c : Dev nD) (t : Fin cfg0.N) : (outsAt0 V c t.val t.isLt).1 = k0_pay2 (iblk0 V c 0 t) := by
  have hN : t.val < 16 := lt_of_lt_of_eq t.isLt (show cfg0.N = 16 from N_0)
  by_cases h0 : t.val % 16 = 0
  · have h1 : ¬t.val % 16 = 15 := by omega
    rw [outsAt0_A V c t h0 h1]
    dsimp only
    exact out0_A_1_eq c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t)
  · by_cases h1 : t.val % 16 = 15
    · rw [outsAt0_C V c t h0 h1]
      dsimp only
      exact out0_C_1_eq c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.2.2
    · rw [outsAt0_B V c t h0 h1]
      dsimp only
      exact out0_B_1_eq c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2.2.2

theorem outs0_2_eq (c : Dev nD) (t : Fin cfg0.N) : (outsAt0 V c t.val t.isLt).2.1 = k0_pay3 (iblk0 V c 0 t) := by
  have hN : t.val < 16 := lt_of_lt_of_eq t.isLt (show cfg0.N = 16 from N_0)
  by_cases h0 : t.val % 16 = 0
  · have h1 : ¬t.val % 16 = 15 := by omega
    rw [outsAt0_A V c t h0 h1]
    dsimp only
    exact out0_A_2_eq c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t)
  · by_cases h1 : t.val % 16 = 15
    · rw [outsAt0_C V c t h0 h1]
      dsimp only
      exact out0_C_2_eq c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.2.2
    · rw [outsAt0_B V c t h0 h1]
      dsimp only
      exact out0_B_2_eq c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2.2.2

/-- The running column sums after strip n. -/
def scr0 (c : Dev nD) (n : ℕ) (hn : n < cfg0.N) : Vec F S1x4096 .f32 := (outsAt0 V c n hn).2.2.2.2

/-- After the first strip: the zero row plus the strip's column sums. -/
theorem scr0_zero (c : Dev nD) (hn : 0 < cfg0.N) : scr0 V c 0 hn = k0_pay5 (iblk0 V c 0 ⟨0, hn⟩) (k0_pay4 (F := F)) := by
  unfold scr0
  have h0 : (⟨0, hn⟩ : Fin cfg0.N).val % 16 = 0 := rfl
  have h1 : ¬(⟨0, hn⟩ : Fin cfg0.N).val % 16 = 15 := by dsimp only; omega
  rw [outsAt0_A V c ⟨0, hn⟩ h0 h1]
  dsimp only
  exact (fun t (h0 : t.val % 16 = 0) (h1 : ¬t.val % 16 = 15) => sout0_A_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t)) ⟨0, hn⟩ h0 h1

/-- After a later strip: what the strip before left plus the strip's column sums. -/
theorem scr0_succ (c : Dev nD) (n : ℕ) (hn : n + 1 < cfg0.N) :
    scr0 V c (n + 1) hn = k0_pay5 (iblk0 V c 0 ⟨n + 1, hn⟩) (scr0 V c n (Nat.lt_of_succ_lt hn)) := by
  unfold scr0
  have hN : n + 1 < 16 := lt_of_lt_of_eq hn (show cfg0.N = 16 from N_0)
  have h0 : ¬(⟨n + 1, hn⟩ : Fin cfg0.N).val % 16 = 0 := by dsimp only; omega
  by_cases h1 : (⟨n + 1, hn⟩ : Fin cfg0.N).val % 16 = 15
  · rw [outsAt0_C V c ⟨n + 1, hn⟩ h0 h1]
    dsimp only
    exact (fun t (h0 : ¬t.val % 16 = 0) (h1 : t.val % 16 = 15) => sout0_C_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.2.2) ⟨n + 1, hn⟩ h0 h1
  · rw [outsAt0_B V c ⟨n + 1, hn⟩ h0 h1]
    dsimp only
    exact (fun t (h0 : ¬t.val % 16 = 0) (h1 : ¬t.val % 16 = 15) => sout0_B_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2.2.2) ⟨n + 1, hn⟩ h0 h1

/-- At the last strip the first column output is computed from the running sums that strip has just stored. -/
theorem outs0_3_eq (c : Dev nD) (t : Fin cfg0.N) (h1 : t.val % 16 = 15) :
    (outsAt0 V c t.val t.isLt).2.2.1 = k0_pay6 (scr0 V c t.val t.isLt) := by
  unfold scr0
  have h0 : ¬t.val % 16 = 0 := by omega
  rw [outsAt0_C V c t h0 h1]
  dsimp only
  exact (out0_C_3_eq c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.2.2).trans
    (congrArg k0_pay6 (sout0_C_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.2.2).symm)

/-- Likewise the second column output. -/
theorem outs0_4_eq (c : Dev nD) (t : Fin cfg0.N) (h1 : t.val % 16 = 15) :
    (outsAt0 V c t.val t.isLt).2.2.2.1 = k0_pay7 (scr0 V c t.val t.isLt) := by
  unfold scr0
  have h0 : ¬t.val % 16 = 0 := by omega
  rw [outsAt0_C V c t h0 h1]
  dsimp only
  exact (out0_C_4_eq c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.2.2).trans
    (congrArg k0_pay7 (sout0_C_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.2.2).symm)

/-! ## The windows' block indices, decided over the sixteen strips -/

theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Strip t's block is rows 512 t .. 512 t + 511 of the array, all columns. -/
theorem iblk0_apply (c : Dev nD) (t : Fin cfg0.N) (x : S512x4096.Idx) (k : S8192x4096.Idx)
    (hk0 : (k 0).val = 512 * t.val + (x 0).val) (hk1 : (k 1).val = (x 1).val) :
    (iblk0 V c 0 t : Vec F S512x4096 .f32) x = (V c main_arg0 : S8192x4096.Idx → Elt F .f32) k := by
  obtain ⟨e0, e1, -⟩ := idx_facts0 t
  unfold iblk0
  rw [View.read_apply]
  refine congrArg (V c main_arg0 : S8192x4096.Idx → Elt F .f32) (funext fun a => Fin.ext ?_)
  match a with
  | ⟨0, _⟩ => show win0_0.index t (0 : Fin 2) * 512 + 1 * (x 0).val = (k 0).val; rw [e0, hk0]; omega
  | ⟨1, _⟩ => show win0_0.index t (1 : Fin 2) * 4096 + 1 * (x 1).val = (k 1).val; rw [e1, hk1]; omega

end Cert.KernelIdeal.Hand

end
-- ==== Proof.LibColumns.lean ====
/-
  Column vectors read at an index: the keep-dimension forms of a shape cast and a broadcast.

  A row reduction that keeps its reduced axis leaves an `[a, 1]` column. Three layout steps meet such a column:
  an `[a]` vector cast to the column (entry (i, 0) is entry i), the column cast to a `[1, a]` row (entry (0, i) is
  entry (i, 0): both sit at row-major position i), and the column broadcast along its unit axis to `[a, b]`
  (entry (p, c) is entry (p, 0)). Each is stated at indices built from literal coordinates.
-/
import Idealize.ShloMosaic.Lib.Pipeline.Value
import Idealize.ShloMosaic.Lib.ValueIdx

namespace Cert.Columns

open Idealize.ShloMosaic Idealize.ShloMosaic.ValueIdx

variable {α : Type}

/-- An `[a]` vector cast to an `[a, 1]` column reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to a `[1, a]` row reads, at `(u, i)`, the operand at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` column broadcast to `[a, b]` reads, at `(p, c)`, the operand's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Columns
-- ==== Proof.KI.Val0Pay.lean ====
/-
  The seven values the row-and-column statistics body stores, each read at one index over the extended reals.

  A strip is a 512 x 4096 block x. Its row sums come as a [512, 1] column (a lane reduction along axis 1, the [512]
  vector cast to a column): entry (r, 0) is the sum over k of x (r, k). The two row outputs are rsqrt (row sum + 1) and
  1 / (row sum + 1) + 1. The running column sums are a [1, 4096] row: the reset stores the zero row, and each strip
  adds, at column q, the sum over its 512 rows of x (r, q) to what the row held. At the last strip the complete sums s
  give rsqrt (s + 1) as a row and 1 / (s + 1) + 1 as a [4096, 1] column (the row transposed).
-/
import proofs.«132844_j8031588843576_2_alg».proof.Proof.Gen.KernelIdeal.Skeleton
import proofs.«132844_j8031588843576_2_alg».proof.Proof.LibColumns
import Idealize.ShloMosaic.PureOps.Ideal.Laws
import Idealize.ShloMosaic.Lib.ValueLayout
import Idealize.ShloMosaic.Lib.ValueIdx
import Idealize.ShloMosaic.Lib.Pipeline.Value

noncomputable section

open scoped BigOperators

namespace Cert.KernelIdeal.Hand

open Idealize.ShloMosaic Idealize.ShloMosaic.ValueIdx
open Cert.KernelIdeal Cert.KernelIdeal.Gen

/-- The extended real the kernel's word for 1.0 denotes. -/
abbrev oneW : EReal := Ideal.ofBits .f32 0x3F800000#32
/-- The extended real the kernel's word for +0.0 denotes. -/
abbrev zeroW : EReal := Ideal.ofBits .f32 0x00000000#32

/-- The sum of row r of the [8192, 4096] array. -/
def rowS (A : S8192x4096.Idx → EReal) (r : Fin 8192) : EReal := ∑ k : Fin 4096, A (ix2 r k)
/-- The sum of column q of the [8192, 4096] array. -/
def colS (A : S8192x4096.Idx → EReal) (q : Fin 4096) : EReal := ∑ k : Fin 8192, A (ix2 k q)

/-- The lane reduction along axis 1 of a [512, 4096] block, at row r: the sum of the row's 4096 entries. -/
theorem rowReduce_apply (x : Vec Ideal S512x4096 .f32) (hacc : (0x00000000#32 : BitVec 32) = 0x00000000#32) (r : Fin 512) :
    multiReduction (F := Ideal) .add [1] S512 x 0x00000000#32 reduces_S512x4096_S512 (.inl rfl) hacc (ix1 r)
      = ∑ k : Fin 4096, x (ix2 r k) :=
  (Ideal.multiReduction_add_single x 0x00000000#32 reduces_S512x4096_S512 (.inl rfl) hacc (ix1 r)).trans
    (Finset.sum_congr rfl fun k _ => congrArg x (funext fun a => Fin.ext (match a with | ⟨0, _⟩ => rfl | ⟨1, _⟩ => rfl)))

/-- The reduction along axis 0 of a [512, 4096] block, at column q: the sum of the column's 512 entries. -/
theorem colReduce_apply (x : Vec Ideal S512x4096 .f32) (hacc : (0x00000000#32 : BitVec 32) = 0x00000000#32) (q : Fin 4096) :
    multiReduction (F := Ideal) .add [0] S4096 x 0x00000000#32 reduces_S512x4096_S4096 (.inl rfl) hacc (ix1 q)
      = ∑ k : Fin 512, x (ix2 k q) :=
  (Ideal.multiReduction_add_single x 0x00000000#32 reduces_S512x4096_S4096 (.inl rfl) hacc (ix1 q)).trans
    (Finset.sum_congr rfl fun k _ => congrArg x (funext fun a => Fin.ext (match a with | ⟨0, _⟩ => rfl | ⟨1, _⟩ => rfl)))

/-- The row sums as a column: entry (r, u) is the sum of row r. -/
theorem pay1_apply (x : Vec Ideal S512x4096 .f32) (r : Fin 512) (u : Fin 1) :
    k0_pay1 (F := Ideal) x (ix2 r u) = ∑ k : Fin 4096, x (ix2 r k) := by
  unfold k0_pay1
  refine (Cert.Columns.shapeCast_a_a1_apply _ shapeCasts_S512_S512x1 r u).trans ?_
  exact rowReduce_apply x rfl r

/-- The first row output: rsqrt (row sum + 1). -/
theorem pay2_apply (x : Vec Ideal S512x4096 .f32) (r : Fin 512) (u : Fin 1) :
    k0_pay2 (F := Ideal) x (ix2 r u) = Ideal.rsqrt ((∑ k : Fin 4096, x (ix2 r k)) + oneW) := by
  unfold k0_pay2
  show Ideal.rsqrt (k0_pay1 (F := Ideal) x (ix2 r u) + oneW) = _
  rw [pay1_apply]

/-- The second row output: 1 / (row sum + 1) + 1. -/
theorem pay3_apply (x : Vec Ideal S512x4096 .f32) (r : Fin 512) (u : Fin 1) :
    k0_pay3 (F := Ideal) x (ix2 r u) = Ideal.div oneW ((∑ k : Fin 4096, x (ix2 r k)) + oneW) + oneW := by
  unfold k0_pay3
  show Ideal.div oneW (k0_pay1 (F := Ideal) x (ix2 r u) + oneW) + oneW = _
  rw [pay1_apply]

/-- The reset: the zero row. -/
theorem pay4_apply (u : Fin 1) (q : Fin 4096) : k0_pay4 (F := Ideal) (ix2 u q) = zeroW := by
  unfold k0_pay4
  rw [shapeCast_self]
  rfl

/-- The running column sums after a strip: what the row held plus the strip's column sums. -/
theorem pay5_apply (x : Vec Ideal S512x4096 .f32) (s : Vec Ideal S1x4096 .f32) (u : Fin 1) (q : Fin 4096) :
    k0_pay5 (F := Ideal) x s (ix2 u q) = s (ix2 u q) + ∑ k : Fin 512, x (ix2 k q) := by
  unfold k0_pay5
  rw [shapeCast_self]
  show s (ix2 u q) + shapeCast S1x4096 _ shapeCasts_S4096_S1x4096 (ix2 u q) = _
  congr 1
  refine (shapeCast_a_1a_apply _ shapeCasts_S4096_S1x4096 u q).trans ?_
  exact colReduce_apply x rfl q

/-- The first column output: rsqrt (column sum + 1). -/
theorem pay6_apply (s : Vec Ideal S1x4096 .f32) (u : Fin 1) (q : Fin 4096) :
    k0_pay6 (F := Ideal) s (ix2 u q) = Ideal.rsqrt (s (ix2 u q) + oneW) := rfl

/-- The second column output, a column: entry (q, u) is 1 / (column sum q + 1) + 1. -/
theorem pay7_apply (s : Vec Ideal S1x4096 .f32) (q : Fin 4096) (u : Fin 1) :
    k0_pay7 (F := Ideal) s (ix2 q u) = Ideal.div oneW (s (ix2 u q) + oneW) + oneW := by
  unfold k0_pay7
  refine (transpose_ix2_apply _ transposes_S1x4096_p1_0_S4096x1 q u).trans ?_
  rfl

end Cert.KernelIdeal.Hand

end
-- ==== Proof.LibSumBlocks.lean ====
/- A sum over `m · n` consecutive positions, cut into `m` blocks of `n`: in any commutative additive monoid,
   `∑ x < m·n, f x = ∑ a < m, ∑ b < n, f (n·a + b)`; and the same cut applied twice, for a sum over `m · (n · p)` positions
   read as `m` groups of `n` blocks of `p`. What joins a sum taken chunk by chunk (a grid axis, then a loop, then the rows of
   one chunk) to one sum over all the rows. -/
import Mathlib.Algebra.BigOperators.Fin
import Mathlib.Logic.Equiv.Fin.Basic

namespace Cert.Voxel

open Finset

/-- A sum over `Fin (m * n)` is the sum over the `m` blocks of the sums over each block's `n` positions. -/
theorem sum_blocks {M : Type*} [AddCommMonoid M] (m n : ℕ) (f : ℕ → M) :
    ∑ x : Fin (m * n), f x.val = ∑ a : Fin m, ∑ b : Fin n, f (n * a.val + b.val) := by
  rw [← Equiv.sum_comp finProdFinEquiv (fun x : Fin (m * n) => f x.val), Fintype.sum_prod_type]
  refine Finset.sum_congr rfl fun a _ => Finset.sum_congr rfl fun b _ => ?_
  show f (finProdFinEquiv (a, b)).val = _
  rw [finProdFinEquiv_apply_val, Nat.add_comm]

/-- The same with the outer index a natural number below `m`. -/
theorem sum_blocks_range {M : Type*} [AddCommMonoid M] (m n : ℕ) (f : ℕ → M) :
    ∑ x : Fin (m * n), f x.val = ∑ a ∈ range m, ∑ b : Fin n, f (n * a + b.val) := by
  rw [sum_blocks, Fin.sum_univ_eq_sum_range (fun a => ∑ b : Fin n, f (n * a + b.val)) m]

/-- Cut twice: `m` groups of `n` blocks of `p` positions. -/
theorem sum_blocks₂ {M : Type*} [AddCommMonoid M] (m n p : ℕ) (f : ℕ → M) :
    ∑ x : Fin (m * (n * p)), f x.val
      = ∑ a ∈ range m, ∑ b ∈ range n, ∑ c : Fin p, f (n * p * a + (p * b + c.val)) := by
  rw [sum_blocks_range]
  refine Finset.sum_congr rfl fun a _ => ?_
  exact sum_blocks_range n p (fun x => f (n * p * a + x))

end Cert.Voxel
-- ==== Proof.KI.Val0.lean ====
/-
  The four arrays the row-and-column statistics pipeline writes, over the extended reals, index by index. With A the
  [8192, 4096] array as the region finds it, rowS A r the sum of row r and colS A q the sum of column q:
    the first row output at (r, 0) is rsqrt (rowS A r + 1), the second 1 / (rowS A r + 1) + 1;
    the first column output at (0, q) is rsqrt (colS A q + 1), the second, a column, at (q, 0) is 1 / (colS A q + 1) + 1.
  Row r belongs to strip r / 512, whose block is written back once, so the row outputs need no induction. The running
  column sums after strip n are, at column q, the sum over strips a ≤ n and rows b < 512 of A (512 a + b, q) (the zero
  the reset stores adds nothing); after the sixteenth strip that double sum is the one sum over all 8192 rows, by
  commutativity and associativity of addition alone.
-/
import proofs.«132844_j8031588843576_2_alg».proof.Proof.KI.Val0a
import proofs.«132844_j8031588843576_2_alg».proof.Proof.KI.Val0Pay
import proofs.«132844_j8031588843576_2_alg».proof.Proof.LibSumBlocks
import Idealize.ShloMosaic.Lib.IdealHost

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window BodyObligation cellOf)
open Cert.KernelIdeal Cert.KernelIdeal.Gen Idealize.ShloMosaic.ValueIdx
open scoped BigOperators

variable (V : (c : Dev nD) → (b : Ref sig .tc) → Buf (Elt Ideal) ((c : Thread nD τ).loc b))

/-! ## The row outputs -/

/-- A strip's first row output at a row of the strip, when the strip's block is rows 512 T .. of A. -/
theorem pay2_row (x : Vec Ideal S512x4096 .f32) (A : S8192x4096.Idx → EReal) (T : ℕ)
    (hx : ∀ (r : Fin 512) (k : Fin 4096) (i : S8192x4096.Idx), (i 0).val = 512 * T + r.val → (i 1).val = k.val → x (ix2 r k) = A i)
    (j : S512x1.Idx) (i : S8192x1.Idx) (hi : (i 0).val = 512 * T + (j 0).val) :
    k0_pay2 (F := Ideal) x j = Ideal.rsqrt (rowS A (i 0) + 1) := by
  obtain ⟨r, u, rfl⟩ : ∃ (r : Fin 512) (u : Fin 1), j = ix2 r u := ⟨j 0, j 1, eq_ix2 j⟩
  refine (pay2_apply x r u).trans ?_
  rw [show oneW = (1 : EReal) from Ideal.ofBits_one_f32]
  unfold rowS
  refine congrArg (fun s => Ideal.rsqrt (s + 1)) (Finset.sum_congr rfl fun k _ => ?_)
  exact hx r k (ix2 (i 0) k) hi rfl

/-- Likewise the second row output. -/
theorem pay3_row (x : Vec Ideal S512x4096 .f32) (A : S8192x4096.Idx → EReal) (T : ℕ)
    (hx : ∀ (r : Fin 512) (k : Fin 4096) (i : S8192x4096.Idx), (i 0).val = 512 * T + r.val → (i 1).val = k.val → x (ix2 r k) = A i)
    (j : S512x1.Idx) (i : S8192x1.Idx) (hi : (i 0).val = 512 * T + (j 0).val) :
    k0_pay3 (F := Ideal) x j = Ideal.div 1 (rowS A (i 0) + 1) + 1 := by
  obtain ⟨r, u, rfl⟩ : ∃ (r : Fin 512) (u : Fin 1), j = ix2 r u := ⟨j 0, j 1, eq_ix2 j⟩
  refine (pay3_apply x r u).trans ?_
  rw [show oneW = (1 : EReal) from Ideal.ofBits_one_f32]
  unfold rowS
  refine congrArg (fun s => Ideal.div 1 (s + 1) + 1) (Finset.sum_congr rfl fun k _ => ?_)
  exact hx r k (ix2 (i 0) k) hi rfl

/-- What strip t writes back of the first row output is its block of the closed form. -/
theorem flushed0_1_eq (c : Dev nD) (t : Fin cfg0.N) :
    (dat0 V c).flushed 1 t = ((cfg0.win 1).blk t).view.read (Elt Ideal)
      (fun i : S8192x1.Idx => Ideal.rsqrt (rowS (V c main_arg0) (i 0) + 1)) := by
  show (cfg0.win 1).cut (grid0.coords t) ((dat0 V c).after 1 t) = _
  rw [after0_1, outs0_1_eq]
  obtain ⟨-, -, e0, -⟩ := idx_facts0 t
  funext j
  show k0_pay2 (F := Ideal) (iblk0 V c 0 t) j = Ideal.rsqrt (rowS (V c main_arg0) ((((cfg0.win 1).blk t).view.emb j) 0) + 1)
  refine pay2_row (iblk0 V c 0 t) (V c main_arg0) t.val (fun r k i h0 h1 => iblk0_apply V c t (ix2 r k) i h0 h1) j (((cfg0.win 1).blk t).view.emb j) ?_
  show win0_1.index t (0 : Fin 2) * 512 + 1 * (j 0).val = 512 * t.val + (j 0).val
  rw [e0]; omega

theorem flushed0_2_eq (c : Dev nD) (t : Fin cfg0.N) :
    (dat0 V c).flushed 2 t = ((cfg0.win 2).blk t).view.read (Elt Ideal)
      (fun i : S8192x1.Idx => Ideal.div 1 (rowS (V c main_arg0) (i 0) + 1) + 1) := by
  show (cfg0.win 2).cut (grid0.coords t) ((dat0 V c).after 2 t) = _
  rw [after0_2, outs0_2_eq]
  obtain ⟨-, -, -, -, e0, -⟩ := idx_facts0 t
  funext j
  show k0_pay3 (F := Ideal) (iblk0 V c 0 t) j = Ideal.div 1 (rowS (V c main_arg0) ((((cfg0.win 2).blk t).view.emb j) 0) + 1) + 1
  refine pay3_row (iblk0 V c 0 t) (V c main_arg0) t.val (fun r k i h0 h1 => iblk0_apply V c t (ix2 r k) i h0 h1) j (((cfg0.win 2).blk t).view.emb j) ?_
  show win0_2.index t (0 : Fin 2) * 512 + 1 * (j 0).val = 512 * t.val + (j 0).val
  rw [e0]; omega

/-- Row r is in strip r / 512's block of the first row output. -/
theorem cover0_1 (i : S8192x1.Idx) : ∃ t : Fin cfg0.N, (cfg0.win 1).flush t = true ∧ i ∈ ((cfg0.win 1).blk t).view.set := by
  have hi0 : (i 0).val < 8192 := (i 0).isLt
  have hi1 : (i 1).val < 1 := (i 1).isLt
  obtain ⟨t, ht⟩ : ∃ t : Fin cfg0.N, t.val = (i 0).val / 512 :=
    ⟨⟨(i 0).val / 512, by rw [show cfg0.N = 16 from N_0]; omega⟩, rfl⟩
  obtain ⟨-, -, e0, e1, -⟩ := idx_facts0 t
  refine ⟨t, flush0_1 t, ?_⟩
  show i ∈ ((View.whole main_v0_0).slice (win0_1.rect t)).set
  rw [View.set_slice_whole, Rect.mem_set_unit]
  intro a
  match a with
  | ⟨0, _⟩ => show win0_1.index t (0 : Fin 2) * 512 ≤ (i 0).val ∧ (i 0).val < win0_1.index t (0 : Fin 2) * 512 + 512; rw [e0]; omega
  | ⟨1, _⟩ => show win0_1.index t (1 : Fin 2) * 1 ≤ (i 1).val ∧ (i 1).val < win0_1.index t (1 : Fin 2) * 1 + 1; rw [e1]; omega

theorem cover0_2 (i : S8192x1.Idx) : ∃ t : Fin cfg0.N, (cfg0.win 2).flush t = true ∧ i ∈ ((cfg0.win 2).blk t).view.set := by
  have hi0 : (i 0).val < 8192 := (i 0).isLt
  have hi1 : (i 1).val < 1 := (i 1).isLt
  obtain ⟨t, ht⟩ : ∃ t : Fin cfg0.N, t.val = (i 0).val / 512 :=
    ⟨⟨(i 0).val / 512, by rw [show cfg0.N = 16 from N_0]; omega⟩, rfl⟩
  obtain ⟨-, -, -, -, e0, e1, -⟩ := idx_facts0 t
  refine ⟨t, flush0_2 t, ?_⟩
  show i ∈ ((View.whole main_v0_1).slice (win0_2.rect t)).set
  rw [View.set_slice_whole, Rect.mem_set_unit]
  intro a
  match a with
  | ⟨0, _⟩ => show win0_2.index t (0 : Fin 2) * 512 ≤ (i 0).val ∧ (i 0).val < win0_2.index t (0 : Fin 2) * 512 + 512; rw [e0]; omega
  | ⟨1, _⟩ => show win0_2.index t (1 : Fin 2) * 1 ≤ (i 1).val ∧ (i 1).val < win0_2.index t (1 : Fin 2) * 1 + 1; rw [e1]; omega

/-- THE FIRST ROW OUTPUT after the sixteen strips: rsqrt (row sum + 1) at every row. -/
theorem final0_1 (c : Dev nD) :
    (dat0 (F := Ideal) V c).arrAt 1 cfg0.N = fun i : S8192x1.Idx => Ideal.rsqrt (rowS (V c main_arg0) (i 0) + 1) :=
  (dat0 V c).arrAt_eq_of_cover 1 _ (fun t _ => flushed0_1_eq V c t) cover0_1

/-- THE SECOND ROW OUTPUT: 1 / (row sum + 1) + 1 at every row. -/
theorem final0_2 (c : Dev nD) :
    (dat0 (F := Ideal) V c).arrAt 2 cfg0.N = fun i : S8192x1.Idx => Ideal.div 1 (rowS (V c main_arg0) (i 0) + 1) + 1 :=
  (dat0 V c).arrAt_eq_of_cover 2 _ (fun t _ => flushed0_2_eq V c t) cover0_2

/-! ## The running column sums -/

/-- Row R of column q of the array, zero past the last row. -/
def colAt (A : S8192x4096.Idx → EReal) (q : Fin 4096) (R : ℕ) : EReal := if h : R < 8192 then A (ix2 ⟨R, h⟩ q) else 0

/-- Strip t's column sums are the sums of rows 512 t .. 512 t + 511 of the array. -/
theorem blockSum0 (c : Dev nD) (t : Fin cfg0.N) (q : Fin 4096) (x : Vec Ideal S512x4096 .f32) (hx : x = iblk0 V c 0 t) :
    ∑ k : Fin 512, x (ix2 k q) = ∑ b : Fin 512, colAt (V c main_arg0) q (512 * t.val + b.val) := by
  subst hx
  have hN : t.val < 16 := lt_of_lt_of_eq t.isLt (show cfg0.N = 16 from N_0)
  refine Finset.sum_congr rfl fun k _ => ?_
  have hk : 512 * t.val + k.val < 8192 := by have := k.isLt; omega
  unfold colAt
  rw [dif_pos hk]
  exact iblk0_apply V c t (ix2 k q) (ix2 ⟨512 * t.val + k.val, hk⟩ q) rfl rfl

/-- After strip n the running sums hold, at column q, the sum over strips a ≤ n of the strips' column sums. -/
theorem scr0_inv (c : Dev nD) : ∀ (n : ℕ) (hn : n < cfg0.N) (u : Fin 1) (q : Fin 4096),
    scr0 V c n hn (ix2 u q) = ∑ a ∈ Finset.range (n + 1), ∑ b : Fin 512, colAt (V c main_arg0) q (512 * a + b.val)
  | 0, hn, u, q => by
    rw [scr0_zero]
    refine (pay5_apply (iblk0 V c 0 ⟨0, hn⟩) (k0_pay4 (F := Ideal)) u q).trans ?_
    rw [pay4_apply]
    refine (congrArg (· + _) Ideal.ofBits_zero_f32).trans ((zero_add _).trans ?_)
    refine (blockSum0 V c ⟨0, hn⟩ q _ rfl).trans ?_
    exact (Finset.sum_range_one (fun a => ∑ b : Fin 512, colAt (V c main_arg0) q (512 * a + b.val))).symm
  | n + 1, hn, u, q => by
    rw [scr0_succ]
    refine (pay5_apply (iblk0 V c 0 ⟨n + 1, hn⟩) (scr0 V c n (Nat.lt_of_succ_lt hn)) u q).trans ?_
    rw [scr0_inv c n (Nat.lt_of_succ_lt hn) u q]
    refine (congrArg (_ + ·) (blockSum0 V c ⟨n + 1, hn⟩ q _ rfl)).trans ?_
    exact (Finset.sum_range_succ (fun a => ∑ b : Fin 512, colAt (V c main_arg0) q (512 * a + b.val)) (n + 1)).symm

/-- The sixteen strips' column sums together are the column's sum over all 8192 rows. -/
theorem colsum_blocks (A : S8192x4096.Idx → EReal) (q : Fin 4096) :
    ∑ a ∈ Finset.range 16, ∑ b : Fin 512, colAt A q (512 * a + b.val) = colS A q := by
  unfold colS
  refine (Cert.Voxel.sum_blocks_range 16 512 (colAt A q)).symm.trans ?_
  show ∑ x : Fin 8192, colAt A q x.val = ∑ k : Fin 8192, A (ix2 k q)
  refine Finset.sum_congr rfl fun k _ => ?_
  unfold colAt
  rw [dif_pos k.isLt]

/-- After the last strip the running sums are the column sums. -/
theorem scr0_last (c : Dev nD) (n : ℕ) (hn : n < cfg0.N) (h15 : n = 15) (u : Fin 1) (q : Fin 4096) :
    scr0 V c n hn (ix2 u q) = colS (V c main_arg0) q := by
  subst h15
  rw [scr0_inv]
  exact colsum_blocks (V c main_arg0) q

/-! ## The column outputs -/

theorem pay6_col (s : Vec Ideal S1x4096 .f32) (A : S8192x4096.Idx → EReal)
    (hs : ∀ (u : Fin 1) (q : Fin 4096), s (ix2 u q) = colS A q)
    (j : S1x4096.Idx) (i : S1x4096.Idx) (hi : (i 1).val = (j 1).val) :
    k0_pay6 (F := Ideal) s j = Ideal.rsqrt (colS A (i 1) + 1) := by
  obtain ⟨u, q, rfl⟩ : ∃ (u : Fin 1) (q : Fin 4096), j = ix2 u q := ⟨j 0, j 1, eq_ix2 j⟩
  refine (pay6_apply s u q).trans ?_
  rw [hs, show oneW = (1 : EReal) from Ideal.ofBits_one_f32]
  have e : (i 1 : Fin 4096) = q := Fin.ext hi
  rw [e]

theorem pay7_col (s : Vec Ideal S1x4096 .f32) (A : S8192x4096.Idx → EReal)
    (hs : ∀ (u : Fin 1) (q : Fin 4096), s (ix2 u q) = colS A q)
    (j : S4096x1.Idx) (i : S4096x1.Idx) (hi : (i 0).val = (j 0).val) :
    k0_pay7 (F := Ideal) s j = Ideal.div 1 (colS A (i 0) + 1) + 1 := by
  obtain ⟨q, u, rfl⟩ : ∃ (q : Fin 4096) (u : Fin 1), j = ix2 q u := ⟨j 0, j 1, eq_ix2 j⟩
  refine (pay7_apply s q u).trans ?_
  rw [hs, show oneW = (1 : EReal) from Ideal.ofBits_one_f32]
  have e : (i 0 : Fin 4096) = q := Fin.ext hi
  rw [e]

/-- The one write-back of the first column output, at the last strip, writes the closed form. -/
theorem flushed0_3_eq (c : Dev nD) (t : Fin cfg0.N) (hf : (cfg0.win 3).flush t = true) :
    (dat0 V c).flushed 3 t = ((cfg0.win 3).blk t).view.read (Elt Ideal)
      (fun i : S1x4096.Idx => Ideal.rsqrt (colS (V c main_arg0) (i 1) + 1)) := by
  have h1 : t.val % 16 = 15 := (flush0_3 t).mp hf
  have hN : t.val < 16 := lt_of_lt_of_eq t.isLt (show cfg0.N = 16 from N_0)
  show (cfg0.win 3).cut (grid0.coords t) ((dat0 V c).after 3 t) = _
  rw [after0_3, outs0_3_eq V c t h1]
  obtain ⟨-, -, -, -, -, -, e0, e1, -⟩ := idx_facts0 t
  funext j
  show k0_pay6 (F := Ideal) (scr0 V c t.val t.isLt) j = Ideal.rsqrt (colS (V c main_arg0) ((((cfg0.win 3).blk t).view.emb j) 1) + 1)
  refine pay6_col (scr0 V c t.val t.isLt) (V c main_arg0) (fun u q => scr0_last V c t.val t.isLt (by omega) u q) j (((cfg0.win 3).blk t).view.emb j) ?_
  show win0_3.index t (1 : Fin 2) * 4096 + 1 * (j 1).val = (j 1).val
  rw [e1]; omega

theorem flushed0_4_eq (c : Dev nD) (t : Fin cfg0.N) (hf : (cfg0.win 4).flush t = true) :
    (dat0 V c).flushed 4 t = ((cfg0.win 4).blk t).view.read (Elt Ideal)
      (fun i : S4096x1.Idx => Ideal.div 1 (colS (V c main_arg0) (i 0) + 1) + 1) := by
  have h1 : t.val % 16 = 15 := (flush0_4 t).mp hf
  have hN : t.val < 16 := lt_of_lt_of_eq t.isLt (show cfg0.N = 16 from N_0)
  show (cfg0.win 4).cut (grid0.coords t) ((dat0 V c).after 4 t) = _
  rw [after0_4, outs0_4_eq V c t h1]
  obtain ⟨-, -, -, -, -, -, -, -, e0, e1⟩ := idx_facts0 t
  funext j
  show k0_pay7 (F := Ideal) (scr0 V c t.val t.isLt) j = Ideal.div 1 (colS (V c main_arg0) ((((cfg0.win 4).blk t).view.emb j) 0) + 1) + 1
  refine pay7_col (scr0 V c t.val t.isLt) (V c main_arg0) (fun u q => scr0_last V c t.val t.isLt (by omega) u q) j (((cfg0.win 4).blk t).view.emb j) ?_
  show win0_4.index t (0 : Fin 2) * 4096 + 1 * (j 0).val = (j 0).val
  rw [e0]; omega

/-- The last strip's block of a column output is the whole array. -/
theorem cover0_3 (i : S1x4096.Idx) : ∃ t : Fin cfg0.N, (cfg0.win 3).flush t = true ∧ i ∈ ((cfg0.win 3).blk t).view.set := by
  have hi0 : (i 0).val < 1 := (i 0).isLt
  have hi1 : (i 1).val < 4096 := (i 1).isLt
  obtain ⟨t, ht⟩ : ∃ t : Fin cfg0.N, t.val = 15 := ⟨⟨15, by rw [show cfg0.N = 16 from N_0]; omega⟩, rfl⟩
  obtain ⟨-, -, -, -, -, -, e0, e1, -⟩ := idx_facts0 t
  refine ⟨t, (flush0_3 t).mpr (by rw [ht]), ?_⟩
  show i ∈ ((View.whole main_v0_2).slice (win0_3.rect t)).set
  rw [View.set_slice_whole, Rect.mem_set_unit]
  intro a
  match a with
  | ⟨0, _⟩ => show win0_3.index t (0 : Fin 2) * 1 ≤ (i 0).val ∧ (i 0).val < win0_3.index t (0 : Fin 2) * 1 + 1; rw [e0]; omega
  | ⟨1, _⟩ => show win0_3.index t (1 : Fin 2) * 4096 ≤ (i 1).val ∧ (i 1).val < win0_3.index t (1 : Fin 2) * 4096 + 4096; rw [e1]; omega

theorem cover0_4 (i : S4096x1.Idx) : ∃ t : Fin cfg0.N, (cfg0.win 4).flush t = true ∧ i ∈ ((cfg0.win 4).blk t).view.set := by
  have hi0 : (i 0).val < 4096 := (i 0).isLt
  have hi1 : (i 1).val < 1 := (i 1).isLt
  obtain ⟨t, ht⟩ : ∃ t : Fin cfg0.N, t.val = 15 := ⟨⟨15, by rw [show cfg0.N = 16 from N_0]; omega⟩, rfl⟩
  obtain ⟨-, -, -, -, -, -, -, -, e0, e1⟩ := idx_facts0 t
  refine ⟨t, (flush0_4 t).mpr (by rw [ht]), ?_⟩
  show i ∈ ((View.whole main_v0_3).slice (win0_4.rect t)).set
  rw [View.set_slice_whole, Rect.mem_set_unit]
  intro a
  match a with
  | ⟨0, _⟩ => show win0_4.index t (0 : Fin 2) * 4096 ≤ (i 0).val ∧ (i 0).val < win0_4.index t (0 : Fin 2) * 4096 + 4096; rw [e0]; omega
  | ⟨1, _⟩ => show win0_4.index t (1 : Fin 2) * 1 ≤ (i 1).val ∧ (i 1).val < win0_4.index t (1 : Fin 2) * 1 + 1; rw [e1]; omega

/-- THE FIRST COLUMN OUTPUT after the sixteen strips: rsqrt (column sum + 1) at every column. -/
theorem final0_3 (c : Dev nD) :
    (dat0 (F := Ideal) V c).arrAt 3 cfg0.N = fun i : S1x4096.Idx => Ideal.rsqrt (colS (V c main_arg0) (i 1) + 1) :=
  (dat0 V c).arrAt_eq_of_cover 3 _ (flushed0_3_eq V c) cover0_3

/-- THE SECOND COLUMN OUTPUT, a column: 1 / (column sum + 1) + 1 at every column. -/
theorem final0_4 (c : Dev nD) :
    (dat0 (F := Ideal) V c).arrAt 4 cfg0.N = fun i : S4096x1.Idx => Ideal.div 1 (colS (V c main_arg0) (i 0) + 1) + 1 :=
  (dat0 V c).arrAt_eq_of_cover 4 _ (flushed0_4_eq V c) cover0_4

end Cert.KernelIdeal.Hand

end
-- ==== Proof.KI.Val1.lean ====
/-
  Pipeline 1 of the idealized kernel program, read at the extended reals: what its two result arrays hold after
  the last grid point, as functions of the three arrays it reads.

  Write adj for the 8192 x 4096 matrix, dx for the 8192 x 1 column of row scales and dy for the 1 x 4096 row of
  column scales, each as the region finds it. At grid point (i, j) the body stores, into the 512 x 1024 tile (i, j)
  of the first result, the products (dx[r] * adj[r, q]) * dy[q] of the tile's entries, and into the 1024 x 512 tile
  (j, i) of the second result the transpose of that tile. The 16 x 4 tiles (i, j) cover the first result and the
  4 x 16 tiles (j, i) cover the second, each written once, so after the last point

      first result  [r, q] = (dx[r] * adj[r, q]) * dy[q]          (r < 8192, q < 4096)
      second result [q, r] = (dx[r] * adj[r, q]) * dy[q]          (q < 4096, r < 8192).

  The steps: the body's stored tile at an entry (a column broadcast, a row broadcast, two entrywise products; the
  transposed tile at (q, p) is the tile at (p, q)); the block indices of the five windows at a grid point, decided
  over the 64 points; each point's write-back as a block of the whole-array function; the blocks cover the array.
-/
import proofs.«132844_j8031588843576_2_alg».proof.Proof.KI.Reg1
import proofs.«132844_j8031588843576_2_alg».proof.Proof.LibColumns
import Idealize.ShloMosaic.Lib.Pipeline.Value
import Idealize.ShloMosaic.Lib.ValueIdx
import Idealize.ShloMosaic.Lib.ValueLayout

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

/-! ## The stored tile at an entry -/

namespace Agg

theorem hz : (![0, 0] : Fin 2 → Nat) = fun _ => 0 := funext fun a => by fin_cases a <;> rfl

/-- The scaled tile at entry (p, q): the row scale's entry p times the matrix tile's entry (p, q), times the column
    scale's entry q. -/
theorem tile_at (x1 : FVec Ideal S512x1 .f32) (x0 : FVec Ideal S512x1024 .f32) (x2 : FVec Ideal S1x1024 .f32)
    (p : Fin 512) (q : Fin 1024) :
    k1_pay1 (F := Ideal) x1 x0 x2 (ix2 p q) = x1 (ix2 p (0 : Fin 1)) * x0 (ix2 p q) * x2 (ix2 (0 : Fin 1) q) := by
  unfold k1_pay1
  have e1 : broadcastTo S512x1024 (shapeCast S512x1 x1 shapeCasts_S512x1_S512x1) broadcasts_S512x1_S512x1024 (ix2 p q)
      = x1 (ix2 p (0 : Fin 1)) := by
    rw [shapeCast_self]; exact Cert.Columns.broadcastTo_a1_ab_apply x1 _ p q
  have e2 : broadcastTo S512x1024 (shapeCast S1x1024 x2 shapeCasts_S1x1024_S1x1024) broadcasts_S1x1024_S512x1024 (ix2 p q)
      = x2 (ix2 (0 : Fin 1) q) := by
    rw [shapeCast_self]; exact broadcastTo_1b_ab_apply x2 _ p q
  show (broadcastTo S512x1024 (shapeCast S512x1 x1 shapeCasts_S512x1_S512x1) broadcasts_S512x1_S512x1024 (ix2 p q) * x0 (ix2 p q))
      * broadcastTo S512x1024 (shapeCast S1x1024 x2 shapeCasts_S1x1024_S1x1024) broadcasts_S1x1024_S512x1024 (ix2 p q) = _
  rw [e1, e2]

/-- The transposed tile at entry (q, p) is the scaled tile at (p, q). -/
theorem tileT_at (x1 : FVec Ideal S512x1 .f32) (x0 : FVec Ideal S512x1024 .f32) (x2 : FVec Ideal S1x1024 .f32)
    (q : Fin 1024) (p : Fin 512) :
    k1_pay2 (F := Ideal) x1 x0 x2 (ix2 q p) = k1_pay1 (F := Ideal) x1 x0 x2 (ix2 p q) := by
  unfold k1_pay2
  exact transpose_ix2_apply (k1_pay1 (F := Ideal) x1 x0 x2) transposes_S512x1024_p1_0_S1024x512 q p

/-! ## The windows' block indices at a grid point -/

/-- Decided over the 64 grid points: the matrix tile and the first result's tile have the same block index
    (i, j); the row scale's block is (i, 0), the column scale's (0, j), the second result's (j, i); i < 16, j < 4. -/
theorem idx_facts : ∀ t : Fin cfg1.N,
    win1_0.index t (0 : Fin 2) = win1_3.index t (0 : Fin 2) ∧ win1_0.index t (1 : Fin 2) = win1_3.index t (1 : Fin 2)
    ∧ win1_1.index t (0 : Fin 2) = win1_3.index t (0 : Fin 2) ∧ win1_1.index t (1 : Fin 2) = 0
    ∧ win1_2.index t (0 : Fin 2) = 0 ∧ win1_2.index t (1 : Fin 2) = win1_3.index t (1 : Fin 2)
    ∧ win1_4.index t (0 : Fin 2) = win1_3.index t (1 : Fin 2) ∧ win1_4.index t (1 : Fin 2) = win1_3.index t (0 : Fin 2)
    ∧ win1_3.index t (0 : Fin 2) ≤ 15 ∧ win1_3.index t (1 : Fin 2) ≤ 3 :=
  (by decide +kernel : ∀ t : Fin grid1.N, _)

/-- Every tile (i, j) of the first result is some grid point's, -/
theorem idx_onto3 : ∀ (q0 : Fin 16) (q1 : Fin 4), ∃ t : Fin cfg1.N, win1_3.index t = ![q0.val, q1.val] :=
  (by decide +kernel : ∀ (q0 : Fin 16) (q1 : Fin 4), ∃ t : Fin grid1.N, win1_3.index t = ![q0.val, q1.val])

/-- and every tile (j, i) of the second. -/
theorem idx_onto4 : ∀ (q0 : Fin 4) (q1 : Fin 16), ∃ t : Fin cfg1.N, win1_4.index t = ![q0.val, q1.val] :=
  (by decide +kernel : ∀ (q0 : Fin 4) (q1 : Fin 16), ∃ t : Fin grid1.N, win1_4.index t = ![q0.val, q1.val])

variable (V : (c : Dev nD) → (b : Ref sig .tc) → Buf (Elt Ideal) ((c : Thread nD τ).loc b))

/-! ## The three arrays the region reads, and its two results as whole-array functions -/

/-- The matrix, as the region finds it. -/
abbrev adj (c : Dev nD) : FVec Ideal S8192x4096 .f32 := V c main_arg0
/-- The column of row scales, as the region finds it. -/
abbrev dx (c : Dev nD) : FVec Ideal S8192x1 .f32 := V c main_v0_0
/-- The row of column scales, as the region finds it. -/
abbrev dy (c : Dev nD) : FVec Ideal S1x4096 .f32 := V c main_v0_2

/-- The first result: entry (r, q) is (dx[r] * adj[r, q]) * dy[q]. -/
abbrev cell (c : Dev nD) : FVec Ideal S8192x4096 .f32 := fun i =>
  dx V c (ix2 (i 0) (0 : Fin 1)) * adj V c i * dy V c (ix2 (0 : Fin 1) (i 1))

/-- The second result: entry (q, r) is (dx[r] * adj[r, q]) * dy[q]. -/
abbrev drug (c : Dev nD) : FVec Ideal S4096x8192 .f32 := fun i =>
  dx V c (ix2 (i 1) (0 : Fin 1)) * adj V c (ix2 (i 1) (i 0)) * dy V c (ix2 (0 : Fin 1) (i 0))

/-! ## What a grid point writes back -/

/-- Point `t` writes back, to the first result, the block of `cell` its window names: entry (p, q) of tile
    (i, j) sits at row 512 i + p and column 1024 j + q, where the matrix tile, the row scale's strip and the column
    scale's strip were read. -/
theorem flushed3_eq (c : Dev nD) (t : Fin cfg1.N) :
    (dat1 (F := Ideal) V c).flushed 3 t = ((cfg1.win 3).blk t).view.read (Elt Ideal) (cell V c) := by
  show (cfg1.win 3).cut (grid1.coords t) ((dat1 (F := Ideal) V c).after 3 t) = _
  rw [after1_3]
  unfold out1_3
  rw [View.canon_unit_zero Agg.hz]
  simp only [View.ld_unit_zero (S := S512x1024) Agg.hz, View.ld_unit_zero (S := S512x1) Agg.hz, View.ld_unit_zero (S := S1x1024) Agg.hz]
  obtain ⟨e0, e1, e2, e3, e4, e5, -, -, b0, b1⟩ := Agg.idx_facts t
  funext j
  obtain ⟨p, q, rfl⟩ : ∃ (p : Fin 512) (q : Fin 1024), j = ix2 p q := ⟨j 0, j 1, eq_ix2 j⟩
  refine (Agg.tile_at (iblk1 V c 1 t) (iblk1 V c 0 t) (iblk1 V c 2 t) p q).trans ?_
  show dx V c (((cfg1.win 1).blk t).view.emb (ix2 p (0 : Fin 1))) * adj V c (((cfg1.win 0).blk t).view.emb (ix2 p q))
        * dy V c (((cfg1.win 2).blk t).view.emb (ix2 (0 : Fin 1) q))
      = dx V c (ix2 ((((cfg1.win 3).blk t).view.emb (ix2 p q)) 0) (0 : Fin 1)) * adj V c (((cfg1.win 3).blk t).view.emb (ix2 p q))
        * dy V c (ix2 (0 : Fin 1) ((((cfg1.win 3).blk t).view.emb (ix2 p q)) 1))
  have h0 : ((cfg1.win 0).blk t).view.emb (ix2 p q) = ((cfg1.win 3).blk t).view.emb (ix2 p q) := by
    funext a; apply Fin.ext
    match a with
    | ⟨0, _⟩ => show win1_0.index t (0 : Fin 2) * 512 + 1 * p.val = win1_3.index t (0 : Fin 2) * 512 + 1 * p.val; omega
    | ⟨1, _⟩ => show win1_0.index t (1 : Fin 2) * 1024 + 1 * q.val = win1_3.index t (1 : Fin 2) * 1024 + 1 * q.val; omega
  have h1 : ((cfg1.win 1).blk t).view.emb (ix2 p (0 : Fin 1)) = ix2 ((((cfg1.win 3).blk t).view.emb (ix2 p q)) 0) (0 : Fin 1) := by
    funext a; apply Fin.ext
    match a with
    | ⟨0, _⟩ => show win1_1.index t (0 : Fin 2) * 512 + 1 * p.val = win1_3.index t (0 : Fin 2) * 512 + 1 * p.val; omega
    | ⟨1, _⟩ => show win1_1.index t (1 : Fin 2) * 1 + 1 * 0 = 0; omega
  have h2 : ((cfg1.win 2).blk t).view.emb (ix2 (0 : Fin 1) q) = ix2 (0 : Fin 1) ((((cfg1.win 3).blk t).view.emb (ix2 p q)) 1) := by
    funext a; apply Fin.ext
    match a with
    | ⟨0, _⟩ => show win1_2.index t (0 : Fin 2) * 1 + 1 * 0 = 0; omega
    | ⟨1, _⟩ => show win1_2.index t (1 : Fin 2) * 1024 + 1 * q.val = win1_3.index t (1 : Fin 2) * 1024 + 1 * q.val; omega
  rw [h0, h1, h2]
  rfl

/-- Point `t` writes back, to the second result, the block of `drug` its window names: entry (q, p) of tile
    (j, i) sits at row 1024 j + q and column 512 i + p, and is the scaled tile's entry (p, q). -/
theorem flushed4_eq (c : Dev nD) (t : Fin cfg1.N) :
    (dat1 (F := Ideal) V c).flushed 4 t = ((cfg1.win 4).blk t).view.read (Elt Ideal) (drug V c) := by
  show (cfg1.win 4).cut (grid1.coords t) ((dat1 (F := Ideal) V c).after 4 t) = _
  rw [after1_4]
  unfold out1_4
  rw [View.canon_unit_zero Agg.hz]
  simp only [View.ld_unit_zero (S := S512x1024) Agg.hz, View.ld_unit_zero (S := S512x1) Agg.hz, View.ld_unit_zero (S := S1x1024) Agg.hz]
  obtain ⟨e0, e1, e2, e3, e4, e5, e6, e7, b0, b1⟩ := Agg.idx_facts t
  funext j
  obtain ⟨q, p, rfl⟩ : ∃ (q : Fin 1024) (p : Fin 512), j = ix2 q p := ⟨j 0, j 1, eq_ix2 j⟩
  refine (Agg.tileT_at (iblk1 V c 1 t) (iblk1 V c 0 t) (iblk1 V c 2 t) q p).trans ?_
  refine (Agg.tile_at (iblk1 V c 1 t) (iblk1 V c 0 t) (iblk1 V c 2 t) p q).trans ?_
  show dx V c (((cfg1.win 1).blk t).view.emb (ix2 p (0 : Fin 1))) * adj V c (((cfg1.win 0).blk t).view.emb (ix2 p q))
        * dy V c (((cfg1.win 2).blk t).view.emb (ix2 (0 : Fin 1) q))
      = dx V c (ix2 ((((cfg1.win 4).blk t).view.emb (ix2 q p)) 1) (0 : Fin 1))
        * adj V c (ix2 ((((cfg1.win 4).blk t).view.emb (ix2 q p)) 1) ((((cfg1.win 4).blk t).view.emb (ix2 q p)) 0))
        * dy V c (ix2 (0 : Fin 1) ((((cfg1.win 4).blk t).view.emb (ix2 q p)) 0))
  have h0 : ((cfg1.win 0).blk t).view.emb (ix2 p q)
      = ix2 ((((cfg1.win 4).blk t).view.emb (ix2 q p)) 1) ((((cfg1.win 4).blk t).view.emb (ix2 q p)) 0) := by
    funext a; apply Fin.ext
    match a with
    | ⟨0, _⟩ => show win1_0.index t (0 : Fin 2) * 512 + 1 * p.val = win1_4.index t (1 : Fin 2) * 512 + 1 * p.val; omega
    | ⟨1, _⟩ => show win1_0.index t (1 : Fin 2) * 1024 + 1 * q.val = win1_4.index t (0 : Fin 2) * 1024 + 1 * q.val; omega
  have h1 : ((cfg1.win 1).blk t).view.emb (ix2 p (0 : Fin 1)) = ix2 ((((cfg1.win 4).blk t).view.emb (ix2 q p)) 1) (0 : Fin 1) := by
    funext a; apply Fin.ext
    match a with
    | ⟨0, _⟩ => show win1_1.index t (0 : Fin 2) * 512 + 1 * p.val = win1_4.index t (1 : Fin 2) * 512 + 1 * p.val; omega
    | ⟨1, _⟩ => show win1_1.index t (1 : Fin 2) * 1 + 1 * 0 = 0; omega
  have h2 : ((cfg1.win 2).blk t).view.emb (ix2 (0 : Fin 1) q) = ix2 (0 : Fin 1) ((((cfg1.win 4).blk t).view.emb (ix2 q p)) 0) := by
    funext a; apply Fin.ext
    match a with
    | ⟨0, _⟩ => show win1_2.index t (0 : Fin 2) * 1 + 1 * 0 = 0; omega
    | ⟨1, _⟩ => show win1_2.index t (1 : Fin 2) * 1024 + 1 * q.val = win1_4.index t (0 : Fin 2) * 1024 + 1 * q.val; omega
  rw [h0, h1, h2]
  rfl

/-! ## The blocks cover the arrays -/

/-- An entry of the first result is in point `t`'s block iff each coordinate is in the block's range on its axis. -/
theorem mem_blk3 (t : Fin cfg1.N) (i : S8192x4096.Idx) :
    i ∈ ((cfg1.win 3).blk t).view.set ↔ ∀ a : Fin 2, win1_3.index t a * S512x1024.size a ≤ (i a).val ∧ (i a).val < win1_3.index t a * S512x1024.size a + S512x1024.size a := by
  show i ∈ ((View.whole main_v1_0).slice (win1_3.rect t)).set ↔ _
  rw [View.set_slice_whole, Rect.mem_set_unit]
  exact Iff.rfl

theorem mem_blk4 (t : Fin cfg1.N) (i : S4096x8192.Idx) :
    i ∈ ((cfg1.win 4).blk t).view.set ↔ ∀ a : Fin 2, win1_4.index t a * S1024x512.size a ≤ (i a).val ∧ (i a).val < win1_4.index t a * S1024x512.size a + S1024x512.size a := by
  show i ∈ ((View.whole main_v1_1).slice (win1_4.rect t)).set ↔ _
  rw [View.set_slice_whole, Rect.mem_set_unit]
  exact Iff.rfl

/-- Entry (r, q) of the first result is in the block of the point whose tile is (r / 512, q / 1024). -/
theorem covered3 (i : S8192x4096.Idx) : ∃ t : Fin cfg1.N, (cfg1.win 3).flush t = true ∧ i ∈ ((cfg1.win 3).blk t).view.set := by
  have hi0 : (i 0).val < 8192 := (i 0).isLt
  have hi1 : (i 1).val < 4096 := (i 1).isLt
  obtain ⟨t, ht⟩ := Agg.idx_onto3 ⟨(i 0).val / 512, by omega⟩ ⟨(i 1).val / 1024, by omega⟩
  have q0 : win1_3.index t (0 : Fin 2) = (i 0).val / 512 := congrFun ht 0
  have q1 : win1_3.index t (1 : Fin 2) = (i 1).val / 1024 := congrFun ht 1
  refine ⟨t, flush1_3 t, ?_⟩
  rw [mem_blk3]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 1024 ≤ (i 1).val ∧ (i 1).val < win1_3.index t (1 : Fin 2) * 1024 + 1024; omega

/-- Entry (q, r) of the second result is in the block of the point whose tile is (q / 1024, r / 512). -/
theorem covered4 (i : S4096x8192.Idx) : ∃ t : Fin cfg1.N, (cfg1.win 4).flush t = true ∧ i ∈ ((cfg1.win 4).blk t).view.set := by
  have hi0 : (i 0).val < 4096 := (i 0).isLt
  have hi1 : (i 1).val < 8192 := (i 1).isLt
  obtain ⟨t, ht⟩ := Agg.idx_onto4 ⟨(i 0).val / 1024, by omega⟩ ⟨(i 1).val / 512, by omega⟩
  have q0 : win1_4.index t (0 : Fin 2) = (i 0).val / 1024 := congrFun ht 0
  have q1 : win1_4.index t (1 : Fin 2) = (i 1).val / 512 := congrFun ht 1
  refine ⟨t, flush1_4 t, ?_⟩
  rw [mem_blk4]
  intro a
  match a with
  | ⟨0, _⟩ => show win1_4.index t (0 : Fin 2) * 1024 ≤ (i 0).val ∧ (i 0).val < win1_4.index t (0 : Fin 2) * 1024 + 1024; omega
  | ⟨1, _⟩ => show win1_4.index t (1 : Fin 2) * 512 ≤ (i 1).val ∧ (i 1).val < win1_4.index t (1 : Fin 2) * 512 + 512; omega

end Agg

variable (V : (c : Dev nD) → (b : Ref sig .tc) → Buf (Elt Ideal) ((c : Thread nD τ).loc b))

/-! ## The two results after the last point -/

/-- The first result after all 64 points: entry (r, q) is (dx[r] * adj[r, q]) * dy[q]. -/
theorem final1_3 (c : Dev nD) : (dat1 (F := Ideal) V c).arrAt 3 cfg1.N = Agg.cell V c :=
  (dat1 (F := Ideal) V c).arrAt_eq_of_cover 3 (Agg.cell V c) (fun t _ => Agg.flushed3_eq V c t) Agg.covered3

/-- The second result after all 64 points: entry (q, r) is (dx[r] * adj[r, q]) * dy[q]. -/
theorem final1_4 (c : Dev nD) : (dat1 (F := Ideal) V c).arrAt 4 cfg1.N = Agg.drug V c :=
  (dat1 (F := Ideal) V c).arrAt_eq_of_cover 4 (Agg.drug V c) (fun t _ => Agg.flushed4_eq V c t) Agg.covered4

/-- The same, entry by entry at literal coordinates. -/
theorem final1_3_apply (c : Dev nD) (r : Fin 8192) (q : Fin 4096) :
    (dat1 (F := Ideal) V c).arrAt 3 cfg1.N (ix2 r q)
      = Agg.dx V c (ix2 r (0 : Fin 1)) * Agg.adj V c (ix2 r q) * Agg.dy V c (ix2 (0 : Fin 1) q) := by
  rw [final1_3]

theorem final1_4_apply (c : Dev nD) (q : Fin 4096) (r : Fin 8192) :
    (dat1 (F := Ideal) V c).arrAt 4 cfg1.N (ix2 q r)
      = Agg.dx V c (ix2 r (0 : Fin 1)) * Agg.adj V c (ix2 r q) * Agg.dy V c (ix2 (0 : Fin 1) q) := by
  rw [final1_4]

end Cert.KernelIdeal.Hand

end
-- ==== Proof.KI.Val2.lean ====
/-
  What pipeline 2 of the idealized kernel program leaves in its output array, at the extended reals: the
  8192x8192 array whose entry (r, s) is entry (r, 0) of the input column if r = s, and zero otherwise.

  The diagonal tile's payload at entry (p, q) compares the row and column numbers p and q as 32-bit words (equal
  exactly when p = q, both being below 1024), and selects the input block's entry (p, 0) or the zero word, which
  denotes the extended real zero. The off-diagonal payload is the zero word everywhere. Grid point t writes tile
  (t / 8, t % 8); it is a diagonal tile exactly when t / 8 = t % 8, and then the input block it holds is block t / 8
  of the column, so global row b * 1024 + p meets global column b * 1024 + q on the diagonal exactly when p = q.
  Off the diagonal the tile's rows and columns lie in different 1024-blocks and never meet. The 64 tiles cover
  the array.
-/
import proofs.«132844_j8031588843576_2_alg».proof.Proof.KI.Reg2
import proofs.«132844_j8031588843576_2_alg».proof.Proof.LibColumns
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl

/-! ## The payloads at an index -/

/-- Two numbers below 1024, as 32-bit words, compare equal exactly when they are equal. -/
theorem cmpi_eq_ofNat2 (p q : Fin 1024) :
    IntOp.cmpi .eq (BitVec.ofNat 32 p.val) (BitVec.ofNat 32 q.val) = if p.val = q.val then 1#1 else 0#1 := by
  have hp : p.val < 1024 := p.isLt
  have hq : q.val < 1024 := q.isLt
  by_cases h : p.val = q.val
  · rw [if_pos h, h]; simp [IntOp.cmpi]
  · rw [if_neg h]
    have hne : BitVec.ofNat 32 p.val ≠ BitVec.ofNat 32 q.val := fun he => h (by
      have := congrArg BitVec.toNat he
      rw [BitVec.toNat_ofNat, BitVec.toNat_ofNat, Nat.mod_eq_of_lt (by omega), Nat.mod_eq_of_lt (by omega)] at this
      exact this)
    show BitVec.ofBool (BitVec.ofNat 32 p.val == BitVec.ofNat 32 q.val) = 0#1
    rw [beq_eq_false_iff_ne.mpr hne]; rfl

/-- The diagonal tile at entry (p, q): the input block's entry (p, 0) on the tile's diagonal, zero off it. -/
theorem pay1_apply2 (x0 : FVec Ideal S1024x1 .f32) (p q : Fin 1024) :
    k2_pay1 (F := Ideal) x0 (ix2 p q) = if p.val = q.val then x0 (ix2 p (0 : Fin 1)) else 0 := by
  unfold k2_pay1
  show Scalar.select (IntOp.cmpi .eq (iota .tc S1024x1024 32 [0] iota_S1024x1024_d0_w32 (ix2 p q)) (iota .tc S1024x1024 32 [1] iota_S1024x1024_d1_w32 (ix2 p q)))
      (broadcastTo S1024x1024 (shapeCast S1024x1 (shapeCast S1024x1 x0 shapeCasts_S1024x1_S1024x1) shapeCasts_S1024x1_S1024x1) broadcasts_S1024x1_S1024x1024 (ix2 p q))
      (Ideal.ofBits .f32 0x00000000#32) = _
  rw [iota_single_apply, iota_single_apply, shapeCast_self, shapeCast_self, Cert.Columns.broadcastTo_a1_ab_apply, Ideal.ofBits_zero_f32]
  show Scalar.select (IntOp.cmpi .eq (BitVec.ofNat 32 p.val) (BitVec.ofNat 32 q.val)) (x0 (ix2 p (0 : Fin 1))) 0 = _
  rw [cmpi_eq_ofNat2]
  by_cases h : p.val = q.val
  · rw [if_pos h, if_pos h]; exact select_one _ _
  · rw [if_neg h, if_neg h]; exact select_zero _ _

/-- The off-diagonal tile is zero at every entry. -/
theorem pay2_apply2 (j : S1024x1024.Idx) : k2_pay2 (F := Ideal) j = 0 := by
  unfold k2_pay2
  show Ideal.ofBits .f32 0x00000000#32 = 0
  exact Ideal.ofBits_zero_f32

/-! ## The blocks' places in their arrays -/

/-- The printed index maps over the grid: the input's block is row block t / 8; the output's tile is
    (t / 8, t % 8); the first conditional holds exactly on the diagonal tiles. -/
theorem idx_facts2 : ∀ t : Fin cfg2.N, win2_0.index t (0 : Fin 2) = t.val / 8 ∧ win2_0.index t (1 : Fin 2) = 0
    ∧ win2_1.index t (0 : Fin 2) = t.val / 8 ∧ win2_1.index t (1 : Fin 2) = t.val % 8
    ∧ (k2_cond1 (grid2.coords t) = 1#1 ↔ t.val / 8 = t.val % 8) :=
  (by decide +kernel : ∀ t : Fin grid2.N, _)

/-- Every tile is some point's. -/
theorem idx_onto2 : ∀ (q0 : Fin 8) (q1 : Fin 8), ∃ t : Fin cfg2.N, win2_1.index t = ![q0.val, q1.val] :=
  (by decide +kernel : ∀ (q0 : Fin 8) (q1 : Fin 8), ∃ t : Fin grid2.N, win2_1.index t = ![q0.val, q1.val])

/-- The input window's block at point t is rows 1024 (t / 8) … of the input column. -/
theorem iblk2_apply (c : Dev nD) (t : Fin cfg2.N) (x : S1024x1.Idx) (k : S8192x1.Idx)
    (hk0 : (k 0).val = 1024 * (t.val / 8) + (x 0).val) (hk1 : (k 1).val = 0) :
    (iblk2 V c 0 t : Vec Ideal S1024x1 .f32) x = (V c main_v0_1 : S8192x1.Idx → EReal) k := by
  obtain ⟨e0, e1, -⟩ := idx_facts2 t
  unfold iblk2
  rw [View.read_apply]
  show (V c main_v0_1 : S8192x1.Idx → EReal) _ = _
  congr 1
  funext a
  apply Fin.ext
  match a with
  | ⟨0, _⟩ => show win2_0.index t 0 * 1024 + 1 * (x 0).val = (k 0).val; rw [e0, hk0]; omega
  | ⟨1, _⟩ =>
    show win2_0.index t 1 * 1 + 1 * (x 1).val = (k 1).val
    have hx : (x 1).val < 1 := (x 1).isLt
    rw [e1, hk1]; omega

/-! ## What each point writes back, and the array -/

/-- The array the region leaves: the input column on the diagonal, zero elsewhere. -/
abbrev G2 (a : S8192x1.Idx → EReal) : S8192x8192.Idx → EReal :=
  fun i => if (i 0).val = (i 1).val then a (ix2 (n0 := 8192) (n1 := 1) (i 0) (0 : Fin 1)) else 0

/-- What point t writes back is tile t of that array. -/
theorem flushed2_eq (c : Dev nD) (t : Fin cfg2.N) :
    (dat2 V c).flushed 1 t = ((cfg2.win 1).blk t).view.read (Elt Ideal) (G2 (V c main_v0_1)) := by
  obtain ⟨e0, e1, e2, e3, e4⟩ := idx_facts2 t
  show (cfg2.win 1).cut (grid2.coords t) ((dat2 V c).after 1 t) = _
  by_cases h1 : k2_cond1 (grid2.coords t) = 1#1
  · have hd : t.val / 8 = t.val % 8 := e4.mp h1
    rw [after2_1_diag V c t h1]
    unfold out2_diag
    rw [View.canon_unit_zero hz2]
    simp only [View.ld_unit_zero (S := S1024x1) hz2]
    funext j
    obtain ⟨p, q, rfl⟩ : ∃ (p : Fin 1024) (q : Fin 1024), j = ix2 p q := ⟨j 0, j 1, eq_ix2 j⟩
    show k2_pay1 (F := Ideal) (iblk2 V c 0 t) (ix2 p q) = G2 (V c main_v0_1) (((cfg2.win 1).blk t).view.emb (ix2 p q))
    rw [pay1_apply2]
    have hi0 : ((((cfg2.win 1).blk t).view.emb (ix2 p q)) 0).val = win2_1.index t 0 * 1024 + 1 * p.val := rfl
    have hi1 : ((((cfg2.win 1).blk t).view.emb (ix2 p q)) 1).val = win2_1.index t 1 * 1024 + 1 * q.val := rfl
    generalize ((cfg2.win 1).blk t).view.emb (ix2 p q) = i at hi0 hi1 ⊢
    show _ = if (i 0).val = (i 1).val then (V c main_v0_1 : S8192x1.Idx → EReal) (ix2 (n0 := 8192) (n1 := 1) (i 0) (0 : Fin 1)) else (0 : EReal)
    rw [e2] at hi0; rw [e3] at hi1
    have hp : p.val < 1024 := p.isLt
    have hq : q.val < 1024 := q.isLt
    by_cases hpq : p.val = q.val
    · rw [if_pos hpq, if_pos (by omega)]
      exact iblk2_apply V c t _ _ (by show (i 0).val = 1024 * (t.val / 8) + p.val; omega) rfl
    · rw [if_neg hpq, if_neg (by omega)]
  · have hd : ¬ t.val / 8 = t.val % 8 := fun h => h1 (e4.mpr h)
    rw [after2_1_off V c t h1]
    unfold out2_off
    rw [View.canon_unit_zero hz2]
    funext j
    obtain ⟨p, q, rfl⟩ : ∃ (p : Fin 1024) (q : Fin 1024), j = ix2 p q := ⟨j 0, j 1, eq_ix2 j⟩
    show k2_pay2 (F := Ideal) (ix2 p q) = G2 (V c main_v0_1) (((cfg2.win 1).blk t).view.emb (ix2 p q))
    rw [pay2_apply2]
    have hi0 : ((((cfg2.win 1).blk t).view.emb (ix2 p q)) 0).val = win2_1.index t 0 * 1024 + 1 * p.val := rfl
    have hi1 : ((((cfg2.win 1).blk t).view.emb (ix2 p q)) 1).val = win2_1.index t 1 * 1024 + 1 * q.val := rfl
    generalize ((cfg2.win 1).blk t).view.emb (ix2 p q) = i at hi0 hi1 ⊢
    show _ = if (i 0).val = (i 1).val then (V c main_v0_1 : S8192x1.Idx → EReal) (ix2 (n0 := 8192) (n1 := 1) (i 0) (0 : Fin 1)) else (0 : EReal)
    rw [e2] at hi0; rw [e3] at hi1
    have hp : p.val < 1024 := p.isLt
    have hq : q.val < 1024 := q.isLt
    have hm : t.val % 8 < 8 := Nat.mod_lt _ (by decide)
    rw [if_neg (by omega)]

/-- An index of the array is in point t's tile iff each coordinate is in the tile's range on its axis. -/
theorem mem_blk2 (t : Fin cfg2.N) (i : S8192x8192.Idx) :
    i ∈ ((cfg2.win 1).blk t).view.set ↔ ∀ a : Fin 2, win2_1.index t a * S1024x1024.size a ≤ (i a).val ∧ (i a).val < win2_1.index t a * S1024x1024.size a + S1024x1024.size a := by
  show i ∈ ((View.whole main_v2).slice (win2_1.rect t)).set ↔ _
  rw [View.set_slice_whole, Rect.mem_set_unit]
  exact Iff.rfl

/-- The tiles cover the array: entry (r, s) lies in tile (r / 1024, s / 1024). -/
theorem cover2 (i : S8192x8192.Idx) : ∃ t : Fin cfg2.N, (cfg2.win 1).flush t = true ∧ i ∈ ((cfg2.win 1).blk t).view.set := by
  have hi0 : (i 0).val < 8192 := (i 0).isLt
  have hi1 : (i 1).val < 8192 := (i 1).isLt
  obtain ⟨t, ht⟩ := idx_onto2 ⟨(i 0).val / 1024, by omega⟩ ⟨(i 1).val / 1024, by omega⟩
  have q0 : win2_1.index t (0 : Fin 2) = (i 0).val / 1024 := congrFun ht 0
  have q1 : win2_1.index t (1 : Fin 2) = (i 1).val / 1024 := congrFun ht 1
  refine ⟨t, flush2_1 t, ?_⟩
  rw [mem_blk2]
  intro a
  match a with
  | ⟨0, _⟩ => show win2_1.index t (0 : Fin 2) * 1024 ≤ (i 0).val ∧ (i 0).val < win2_1.index t (0 : Fin 2) * 1024 + 1024; omega
  | ⟨1, _⟩ => show win2_1.index t (1 : Fin 2) * 1024 ≤ (i 1).val ∧ (i 1).val < win2_1.index t (1 : Fin 2) * 1024 + 1024; omega

/-- THE ARRAY after the region: the input column on the diagonal, zero elsewhere. -/
theorem final2_1 (c : Dev nD) :
    (dat2 (F := Ideal) V c).arrAt 1 cfg2.N
      = fun i : S8192x8192.Idx => if (i 0).val = (i 1).val then (V c main_v0_1 : S8192x1.Idx → EReal) (ValueIdx.ix2 (n0 := 8192) (n1 := 1) (i 0) (0 : Fin 1)) else (0 : EReal) :=
  (dat2 V c).arrAt_eq_of_cover 1 (G2 (V c main_v0_1)) (fun t _ => flushed2_eq V c t) (cover2)

end Cert.KernelIdeal.Hand

end
-- ==== Proof.KI.Val3.lean ====
/-
  What pipeline 3 of the idealized kernel program leaves in its output array, at the extended reals: the
  4096x4096 array whose entry (r, s) is entry (r, 0) of the input column if r = s, and zero otherwise.

  The diagonal tile's payload at entry (p, q) compares the row and column numbers p and q as 32-bit words (equal
  exactly when p = q, both being below 1024), and selects the input block's entry (p, 0) or the zero word, which
  denotes the extended real zero. The off-diagonal payload is the zero word everywhere. Grid point t writes tile
  (t / 4, t % 4); it is a diagonal tile exactly when t / 4 = t % 4, and then the input block it holds is block t / 4
  of the column, so global row b * 1024 + p meets global column b * 1024 + q on the diagonal exactly when p = q.
  Off the diagonal the tile's rows and columns lie in different 1024-blocks and never meet. The 16 tiles cover
  the array.
-/
import proofs.«132844_j8031588843576_2_alg».proof.Proof.KI.Reg3
import proofs.«132844_j8031588843576_2_alg».proof.Proof.LibColumns
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz3 : (![0, 0] : Fin 2 → Nat) = fun _ => 0 := funext fun a => by fin_cases a <;> rfl

/-! ## The payloads at an index -/

/-- Two numbers below 1024, as 32-bit words, compare equal exactly when they are equal. -/
theorem cmpi_eq_ofNat3 (p q : Fin 1024) :
    IntOp.cmpi .eq (BitVec.ofNat 32 p.val) (BitVec.ofNat 32 q.val) = if p.val = q.val then 1#1 else 0#1 := by
  have hp : p.val < 1024 := p.isLt
  have hq : q.val < 1024 := q.isLt
  by_cases h : p.val = q.val
  · rw [if_pos h, h]; simp [IntOp.cmpi]
  · rw [if_neg h]
    have hne : BitVec.ofNat 32 p.val ≠ BitVec.ofNat 32 q.val := fun he => h (by
      have := congrArg BitVec.toNat he
      rw [BitVec.toNat_ofNat, BitVec.toNat_ofNat, Nat.mod_eq_of_lt (by omega), Nat.mod_eq_of_lt (by omega)] at this
      exact this)
    show BitVec.ofBool (BitVec.ofNat 32 p.val == BitVec.ofNat 32 q.val) = 0#1
    rw [beq_eq_false_iff_ne.mpr hne]; rfl

/-- The diagonal tile at entry (p, q): the input block's entry (p, 0) on the tile's diagonal, zero off it. -/
theorem pay1_apply3 (x0 : FVec Ideal S1024x1 .f32) (p q : Fin 1024) :
    k3_pay1 (F := Ideal) x0 (ix2 p q) = if p.val = q.val then x0 (ix2 p (0 : Fin 1)) else 0 := by
  unfold k3_pay1
  show Scalar.select (IntOp.cmpi .eq (iota .tc S1024x1024 32 [0] iota_S1024x1024_d0_w32 (ix2 p q)) (iota .tc S1024x1024 32 [1] iota_S1024x1024_d1_w32 (ix2 p q)))
      (broadcastTo S1024x1024 (shapeCast S1024x1 (shapeCast S1024x1 x0 shapeCasts_S1024x1_S1024x1) shapeCasts_S1024x1_S1024x1) broadcasts_S1024x1_S1024x1024 (ix2 p q))
      (Ideal.ofBits .f32 0x00000000#32) = _
  rw [iota_single_apply, iota_single_apply, shapeCast_self, shapeCast_self, Cert.Columns.broadcastTo_a1_ab_apply, Ideal.ofBits_zero_f32]
  show Scalar.select (IntOp.cmpi .eq (BitVec.ofNat 32 p.val) (BitVec.ofNat 32 q.val)) (x0 (ix2 p (0 : Fin 1))) 0 = _
  rw [cmpi_eq_ofNat3]
  by_cases h : p.val = q.val
  · rw [if_pos h, if_pos h]; exact select_one _ _
  · rw [if_neg h, if_neg h]; exact select_zero _ _

/-- The off-diagonal tile is zero at every entry. -/
theorem pay2_apply3 (j : S1024x1024.Idx) : k3_pay2 (F := Ideal) j = 0 := by
  unfold k3_pay2
  show Ideal.ofBits .f32 0x00000000#32 = 0
  exact Ideal.ofBits_zero_f32

/-! ## The blocks' places in their arrays -/

/-- The printed index maps over the grid: the input's block is row block t / 4; the output's tile is
    (t / 4, t % 4); the first conditional holds exactly on the diagonal tiles. -/
theorem idx_facts3 : ∀ t : Fin cfg3.N, win3_0.index t (0 : Fin 2) = t.val / 4 ∧ win3_0.index t (1 : Fin 2) = 0
    ∧ win3_1.index t (0 : Fin 2) = t.val / 4 ∧ win3_1.index t (1 : Fin 2) = t.val % 4
    ∧ (k3_cond1 (grid3.coords t) = 1#1 ↔ t.val / 4 = t.val % 4) :=
  (by decide +kernel : ∀ t : Fin grid3.N, _)

/-- Every tile is some point's. -/
theorem idx_onto3 : ∀ (q0 : Fin 4) (q1 : Fin 4), ∃ t : Fin cfg3.N, win3_1.index t = ![q0.val, q1.val] :=
  (by decide +kernel : ∀ (q0 : Fin 4) (q1 : Fin 4), ∃ t : Fin grid3.N, win3_1.index t = ![q0.val, q1.val])

/-- The input window's block at point t is rows 1024 (t / 4) … of the input column. -/
theorem iblk3_apply (c : Dev nD) (t : Fin cfg3.N) (x : S1024x1.Idx) (k : S4096x1.Idx)
    (hk0 : (k 0).val = 1024 * (t.val / 4) + (x 0).val) (hk1 : (k 1).val = 0) :
    (iblk3 V c 0 t : Vec Ideal S1024x1 .f32) x = (V c main_v0_3 : S4096x1.Idx → EReal) k := by
  obtain ⟨e0, e1, -⟩ := idx_facts3 t
  unfold iblk3
  rw [View.read_apply]
  show (V c main_v0_3 : S4096x1.Idx → EReal) _ = _
  congr 1
  funext a
  apply Fin.ext
  match a with
  | ⟨0, _⟩ => show win3_0.index t 0 * 1024 + 1 * (x 0).val = (k 0).val; rw [e0, hk0]; omega
  | ⟨1, _⟩ =>
    show win3_0.index t 1 * 1 + 1 * (x 1).val = (k 1).val
    have hx : (x 1).val < 1 := (x 1).isLt
    rw [e1, hk1]; omega

/-! ## What each point writes back, and the array -/

/-- The array the region leaves: the input column on the diagonal, zero elsewhere. -/
abbrev G3 (a : S4096x1.Idx → EReal) : S4096x4096.Idx → EReal :=
  fun i => if (i 0).val = (i 1).val then a (ix2 (n0 := 4096) (n1 := 1) (i 0) (0 : Fin 1)) else 0

/-- What point t writes back is tile t of that array. -/
theorem flushed3_eq (c : Dev nD) (t : Fin cfg3.N) :
    (dat3 V c).flushed 1 t = ((cfg3.win 1).blk t).view.read (Elt Ideal) (G3 (V c main_v0_3)) := by
  obtain ⟨e0, e1, e2, e3, e4⟩ := idx_facts3 t
  show (cfg3.win 1).cut (grid3.coords t) ((dat3 V c).after 1 t) = _
  by_cases h1 : k3_cond1 (grid3.coords t) = 1#1
  · have hd : t.val / 4 = t.val % 4 := e4.mp h1
    rw [after3_1_diag V c t h1]
    unfold out3_diag
    rw [View.canon_unit_zero hz3]
    simp only [View.ld_unit_zero (S := S1024x1) hz3]
    funext j
    obtain ⟨p, q, rfl⟩ : ∃ (p : Fin 1024) (q : Fin 1024), j = ix2 p q := ⟨j 0, j 1, eq_ix2 j⟩
    show k3_pay1 (F := Ideal) (iblk3 V c 0 t) (ix2 p q) = G3 (V c main_v0_3) (((cfg3.win 1).blk t).view.emb (ix2 p q))
    rw [pay1_apply3]
    have hi0 : ((((cfg3.win 1).blk t).view.emb (ix2 p q)) 0).val = win3_1.index t 0 * 1024 + 1 * p.val := rfl
    have hi1 : ((((cfg3.win 1).blk t).view.emb (ix2 p q)) 1).val = win3_1.index t 1 * 1024 + 1 * q.val := rfl
    generalize ((cfg3.win 1).blk t).view.emb (ix2 p q) = i at hi0 hi1 ⊢
    show _ = if (i 0).val = (i 1).val then (V c main_v0_3 : S4096x1.Idx → EReal) (ix2 (n0 := 4096) (n1 := 1) (i 0) (0 : Fin 1)) else (0 : EReal)
    rw [e2] at hi0; rw [e3] at hi1
    have hp : p.val < 1024 := p.isLt
    have hq : q.val < 1024 := q.isLt
    by_cases hpq : p.val = q.val
    · rw [if_pos hpq, if_pos (by omega)]
      exact iblk3_apply V c t _ _ (by show (i 0).val = 1024 * (t.val / 4) + p.val; omega) rfl
    · rw [if_neg hpq, if_neg (by omega)]
  · have hd : ¬ t.val / 4 = t.val % 4 := fun h => h1 (e4.mpr h)
    rw [after3_1_off V c t h1]
    unfold out3_off
    rw [View.canon_unit_zero hz3]
    funext j
    obtain ⟨p, q, rfl⟩ : ∃ (p : Fin 1024) (q : Fin 1024), j = ix2 p q := ⟨j 0, j 1, eq_ix2 j⟩
    show k3_pay2 (F := Ideal) (ix2 p q) = G3 (V c main_v0_3) (((cfg3.win 1).blk t).view.emb (ix2 p q))
    rw [pay2_apply3]
    have hi0 : ((((cfg3.win 1).blk t).view.emb (ix2 p q)) 0).val = win3_1.index t 0 * 1024 + 1 * p.val := rfl
    have hi1 : ((((cfg3.win 1).blk t).view.emb (ix2 p q)) 1).val = win3_1.index t 1 * 1024 + 1 * q.val := rfl
    generalize ((cfg3.win 1).blk t).view.emb (ix2 p q) = i at hi0 hi1 ⊢
    show _ = if (i 0).val = (i 1).val then (V c main_v0_3 : S4096x1.Idx → EReal) (ix2 (n0 := 4096) (n1 := 1) (i 0) (0 : Fin 1)) else (0 : EReal)
    rw [e2] at hi0; rw [e3] at hi1
    have hp : p.val < 1024 := p.isLt
    have hq : q.val < 1024 := q.isLt
    have hm : t.val % 4 < 4 := Nat.mod_lt _ (by decide)
    rw [if_neg (by omega)]

/-- An index of the array is in point t's tile iff each coordinate is in the tile's range on its axis. -/
theorem mem_blk3 (t : Fin cfg3.N) (i : S4096x4096.Idx) :
    i ∈ ((cfg3.win 1).blk t).view.set ↔ ∀ a : Fin 2, win3_1.index t a * S1024x1024.size a ≤ (i a).val ∧ (i a).val < win3_1.index t a * S1024x1024.size a + S1024x1024.size a := by
  show i ∈ ((View.whole main_v3).slice (win3_1.rect t)).set ↔ _
  rw [View.set_slice_whole, Rect.mem_set_unit]
  exact Iff.rfl

/-- The tiles cover the array: entry (r, s) lies in tile (r / 1024, s / 1024). -/
theorem cover3 (i : S4096x4096.Idx) : ∃ t : Fin cfg3.N, (cfg3.win 1).flush t = true ∧ i ∈ ((cfg3.win 1).blk t).view.set := by
  have hi0 : (i 0).val < 4096 := (i 0).isLt
  have hi1 : (i 1).val < 4096 := (i 1).isLt
  obtain ⟨t, ht⟩ := idx_onto3 ⟨(i 0).val / 1024, by omega⟩ ⟨(i 1).val / 1024, by omega⟩
  have q0 : win3_1.index t (0 : Fin 2) = (i 0).val / 1024 := congrFun ht 0
  have q1 : win3_1.index t (1 : Fin 2) = (i 1).val / 1024 := congrFun ht 1
  refine ⟨t, flush3_1 t, ?_⟩
  rw [mem_blk3]
  intro a
  match a with
  | ⟨0, _⟩ => show win3_1.index t (0 : Fin 2) * 1024 ≤ (i 0).val ∧ (i 0).val < win3_1.index t (0 : Fin 2) * 1024 + 1024; omega
  | ⟨1, _⟩ => show win3_1.index t (1 : Fin 2) * 1024 ≤ (i 1).val ∧ (i 1).val < win3_1.index t (1 : Fin 2) * 1024 + 1024; omega

/-- THE ARRAY after the region: the input column on the diagonal, zero elsewhere. -/
theorem final3_1 (c : Dev nD) :
    (dat3 (F := Ideal) V c).arrAt 1 cfg3.N
      = fun i : S4096x4096.Idx => if (i 0).val = (i 1).val then (V c main_v0_3 : S4096x1.Idx → EReal) (ValueIdx.ix2 (n0 := 4096) (n1 := 1) (i 0) (0 : Fin 1)) else (0 : EReal) :=
  (dat3 V c).arrAt_eq_of_cover 1 (G3 (V c main_v0_3)) (fun t _ => flushed3_eq V c t) (cover3)

end Cert.KernelIdeal.Hand

end
-- ==== Proof.Ref.Run.lean ====
/-
  The reference program's run. @main is a straight line of host operations once its two calls of the diagonal
  builder (each calling the selection function) are unfolded at their call sites over the calls' own buffers: the
  list `ops`. Every weakly fair execution terminates with each of the four result buffers at the operations'
  composed pure term of the argument array, `R15` … `R38` below, and the argument unchanged.
-/
import proofs.«132844_j8031588843576_2_alg».proof.Proof.Gen.ReferenceIdeal
import Idealize.ShloMosaic.Lib.StableHlo.Run
import Idealize.ShloMosaic.PureOps.Ideal

noncomputable section

namespace Cert.ReferenceIdeal.Hand

open Cert.ReferenceIdeal Cert.ReferenceIdeal.Gen Idealize.ShloMosaic Idealize.ShloMosaic.TcCoe Idealize.SL.Sem Idealize.ShloMosaic.StableHlo

section Line

variable {F : FTy → Type} [FloatOps F]

/-- @main's seventy-seven operations in order, the calls unfolded: forty of @main's own (the two scaling vectors
    `(Σ + 1) ^ (-1/2)`, the two scaled arrays, the first diagonal's entries `(Σ_row + 1) ^ (-1) + 1`), the diagonal
    builder's ten into the first call's buffers followed by the selection's three, eleven more of @main's own (the second
    diagonal's entries), and the builder's thirteen again into the second call's buffers. -/
abbrev ops : List (HloOp τ sig (Elt F)) :=
  [
    nullary main_cst (constant S_ .f32 0x00000000#32),
    binary main_arg0 main_cst main_v0 ((fun x v => Host.reduceAdd x v reducesTo_S8192x4096_S8192_d1 h_S_) : (⟨S8192x4096, .f32⟩ : BufTy).Contents (Elt F) → (⟨S_, .f32⟩ : BufTy).Contents (Elt F) → (⟨S8192, .f32⟩ : BufTy).Contents (Elt F)),
    nullary main_cst_0 (constant S_ .f32 0x3F800000#32),
    unary main_cst_0 main_v1 (broadcastInDim S8192 ![] bcast_S_S8192 : (⟨S_, .f32⟩ : BufTy).Contents (Elt F) → (⟨S8192, .f32⟩ : BufTy).Contents (Elt F)),
    binary main_v0 main_v1 main_v2 (addf : (⟨S8192, .f32⟩ : BufTy).Contents (Elt F) → (⟨S8192, .f32⟩ : BufTy).Contents (Elt F) → (⟨S8192, .f32⟩ : BufTy).Contents (Elt F)),
    nullary main_cst_1 (constant S_ .f32 0xBF000000#32),
    unary main_cst_1 main_v3 (broadcastInDim S8192 ![] bcast_S_S8192 : (⟨S_, .f32⟩ : BufTy).Contents (Elt F) → (⟨S8192, .f32⟩ : BufTy).Contents (Elt F)),
    binary main_v2 main_v3 main_v4 (Host.powf : (⟨S8192, .f32⟩ : BufTy).Contents (Elt F) → (⟨S8192, .f32⟩ : BufTy).Contents (Elt F) → (⟨S8192, .f32⟩ : BufTy).Contents (Elt F)),
    nullary main_cst_2 (constant S_ .f32 0x00000000#32),
    binary main_arg0 main_cst_2 main_v5 ((fun x v => Host.reduceAdd x v reducesTo_S8192x4096_S4096_d0 h_S_) : (⟨S8192x4096, .f32⟩ : BufTy).Contents (Elt F) → (⟨S_, .f32⟩ : BufTy).Contents (Elt F) → (⟨S4096, .f32⟩ : BufTy).Contents (Elt F)),
    nullary main_cst_3 (constant S_ .f32 0x3F800000#32),
    unary main_cst_3 main_v6 (broadcastInDim S4096 ![] bcast_S_S4096 : (⟨S_, .f32⟩ : BufTy).Contents (Elt F) → (⟨S4096, .f32⟩ : BufTy).Contents (Elt F)),
    binary main_v5 main_v6 main_v7 (addf : (⟨S4096, .f32⟩ : BufTy).Contents (Elt F) → (⟨S4096, .f32⟩ : BufTy).Contents (Elt F) → (⟨S4096, .f32⟩ : BufTy).Contents (Elt F)),
    nullary main_cst_4 (constant S_ .f32 0xBF000000#32),
    unary main_cst_4 main_v8 (broadcastInDim S4096 ![] bcast_S_S4096 : (⟨S_, .f32⟩ : BufTy).Contents (Elt F) → (⟨S4096, .f32⟩ : BufTy).Contents (Elt F)),
    binary main_v7 main_v8 main_v9 (Host.powf : (⟨S4096, .f32⟩ : BufTy).Contents (Elt F) → (⟨S4096, .f32⟩ : BufTy).Contents (Elt F) → (⟨S4096, .f32⟩ : BufTy).Contents (Elt F)),
    unary main_v4 main_v10 (broadcastInDim S8192x1 ![0] bcast_S8192_S8192x1_0 : (⟨S8192, .f32⟩ : BufTy).Contents (Elt F) → (⟨S8192x1, .f32⟩ : BufTy).Contents (Elt F)),
    unary main_v10 main_v11 (broadcastInDim S8192x4096 ![0, 1] bcast_S8192x1_S8192x4096_0_1 : (⟨S8192x1, .f32⟩ : BufTy).Contents (Elt F) → (⟨S8192x4096, .f32⟩ : BufTy).Contents (Elt F)),
    binary main_v11 main_arg0 main_v12 (mulf : (⟨S8192x4096, .f32⟩ : BufTy).Contents (Elt F) → (⟨S8192x4096, .f32⟩ : BufTy).Contents (Elt F) → (⟨S8192x4096, .f32⟩ : BufTy).Contents (Elt F)),
    unary main_v9 main_v13 (broadcastInDim S1x4096 ![1] bcast_S4096_S1x4096_1 : (⟨S4096, .f32⟩ : BufTy).Contents (Elt F) → (⟨S1x4096, .f32⟩ : BufTy).Contents (Elt F)),
    unary main_v13 main_v14 (broadcastInDim S8192x4096 ![0, 1] bcast_S1x4096_S8192x4096_0_1 : (⟨S1x4096, .f32⟩ : BufTy).Contents (Elt F) → (⟨S8192x4096, .f32⟩ : BufTy).Contents (Elt F)),
    binary main_v12 main_v14 main_v15 (mulf : (⟨S8192x4096, .f32⟩ : BufTy).Contents (Elt F) → (⟨S8192x4096, .f32⟩ : BufTy).Contents (Elt F) → (⟨S8192x4096, .f32⟩ : BufTy).Contents (Elt F)),
    unary main_v9 main_v16 (broadcastInDim S4096x1 ![0] bcast_S4096_S4096x1_0 : (⟨S4096, .f32⟩ : BufTy).Contents (Elt F) → (⟨S4096x1, .f32⟩ : BufTy).Contents (Elt F)),
    unary main_arg0 main_v17 ((transpose S4096x8192 [1, 0] · transposes_S8192x4096_S4096x8192_1_0) : (⟨S8192x4096, .f32⟩ : BufTy).Contents (Elt F) → (⟨S4096x8192, .f32⟩ : BufTy).Contents (Elt F)),
    unary main_v16 main_v18 (broadcastInDim S4096x8192 ![0, 1] bcast_S4096x1_S4096x8192_0_1 : (⟨S4096x1, .f32⟩ : BufTy).Contents (Elt F) → (⟨S4096x8192, .f32⟩ : BufTy).Contents (Elt F)),
    binary main_v18 main_v17 main_v19 (mulf : (⟨S4096x8192, .f32⟩ : BufTy).Contents (Elt F) → (⟨S4096x8192, .f32⟩ : BufTy).Contents (Elt F) → (⟨S4096x8192, .f32⟩ : BufTy).Contents (Elt F)),
    unary main_v4 main_v20 (broadcastInDim S1x8192 ![1] bcast_S8192_S1x8192_1 : (⟨S8192, .f32⟩ : BufTy).Contents (Elt F) → (⟨S1x8192, .f32⟩ : BufTy).Contents (Elt F)),
    unary main_v20 main_v21 (broadcastInDim S4096x8192 ![0, 1] bcast_S1x8192_S4096x8192_0_1 : (⟨S1x8192, .f32⟩ : BufTy).Contents (Elt F) → (⟨S4096x8192, .f32⟩ : BufTy).Contents (Elt F)),
    binary main_v19 main_v21 main_v22 (mulf : (⟨S4096x8192, .f32⟩ : BufTy).Contents (Elt F) → (⟨S4096x8192, .f32⟩ : BufTy).Contents (Elt F) → (⟨S4096x8192, .f32⟩ : BufTy).Contents (Elt F)),
    nullary main_cst_5 (constant S_ .f32 0x00000000#32),
    binary main_arg0 main_cst_5 main_v23 ((fun x v => Host.reduceAdd x v reducesTo_S8192x4096_S8192_d1 h_S_) : (⟨S8192x4096, .f32⟩ : BufTy).Contents (Elt F) → (⟨S_, .f32⟩ : BufTy).Contents (Elt F) → (⟨S8192, .f32⟩ : BufTy).Contents (Elt F)),
    nullary main_cst_6 (constant S_ .f32 0x3F800000#32),
    unary main_cst_6 main_v24 (broadcastInDim S8192 ![] bcast_S_S8192 : (⟨S_, .f32⟩ : BufTy).Contents (Elt F) → (⟨S8192, .f32⟩ : BufTy).Contents (Elt F)),
    binary main_v23 main_v24 main_v25 (addf : (⟨S8192, .f32⟩ : BufTy).Contents (Elt F) → (⟨S8192, .f32⟩ : BufTy).Contents (Elt F) → (⟨S8192, .f32⟩ : BufTy).Contents (Elt F)),
    nullary main_cst_7 (constant S_ .f32 0xBF800000#32),
    unary main_cst_7 main_v26 (broadcastInDim S8192 ![] bcast_S_S8192 : (⟨S_, .f32⟩ : BufTy).Contents (Elt F) → (⟨S8192, .f32⟩ : BufTy).Contents (Elt F)),
    binary main_v25 main_v26 main_v27 (Host.powf : (⟨S8192, .f32⟩ : BufTy).Contents (Elt F) → (⟨S8192, .f32⟩ : BufTy).Contents (Elt F) → (⟨S8192, .f32⟩ : BufTy).Contents (Elt F)),
    nullary main_cst_8 (constant S_ .f32 0x3F800000#32),
    unary main_cst_8 main_v28 (broadcastInDim S8192 ![] bcast_S_S8192 : (⟨S_, .f32⟩ : BufTy).Contents (Elt F) → (⟨S8192, .f32⟩ : BufTy).Contents (Elt F)),
    binary main_v27 main_v28 main_v29 (addf : (⟨S8192, .f32⟩ : BufTy).Contents (Elt F) → (⟨S8192, .f32⟩ : BufTy).Contents (Elt F) → (⟨S8192, .f32⟩ : BufTy).Contents (Elt F)),
    TRef.nullary main_call0.cst (constant S_ .f32 0x00000000#32),
    TRef.binary (.of main_v29 : TRef sig ⟨S8192, .f32⟩) main_call0.cst main_call0.v0 (fun x v => pad S8192 ![0] ![0] ![0] x v pads_S8192_S8192_000 h_S_),
    TRef.nullary main_call0.v1 (iotaInDim S8192x8192 32 0),
    TRef.nullary main_call0.v2 (iotaInDim S8192x8192 32 1),
    TRef.nullary main_call0.c (constantI S_ 32 0#32),
    TRef.unary main_call0.c main_call0.v3 (broadcastInDim S8192x8192 ![] bcast_S_S8192x8192),
    TRef.binary main_call0.v1 main_call0.v3 main_call0.v4 addi,
    TRef.binary main_call0.v4 main_call0.v2 main_call0.v5 (cmpi .eq),
    TRef.unary main_call0.v0 main_call0.v6 (broadcastInDim S8192x1 ![0] bcast_S8192_S8192x1_0),
    TRef.nullary main_call0.cst_0 (constant S_ .f32 0x00000000#32),
    TRef.unary main_call0.v6 main_call0.call0.v0 (broadcastInDim S8192x8192 ![0, 1] bcast_S8192x1_S8192x8192_0_1),
    TRef.unary main_call0.cst_0 main_call0.call0.v1 (broadcastInDim S8192x8192 ![] bcast_S_S8192x8192),
    TRef.ternary main_call0.v5 main_call0.call0.v0 main_call0.call0.v1 main_call0.call0.v2 select,
    nullary main_cst_9 (constant S_ .f32 0x00000000#32),
    binary main_arg0 main_cst_9 main_v31 ((fun x v => Host.reduceAdd x v reducesTo_S8192x4096_S4096_d0 h_S_) : (⟨S8192x4096, .f32⟩ : BufTy).Contents (Elt F) → (⟨S_, .f32⟩ : BufTy).Contents (Elt F) → (⟨S4096, .f32⟩ : BufTy).Contents (Elt F)),
    nullary main_cst_10 (constant S_ .f32 0x3F800000#32),
    unary main_cst_10 main_v32 (broadcastInDim S4096 ![] bcast_S_S4096 : (⟨S_, .f32⟩ : BufTy).Contents (Elt F) → (⟨S4096, .f32⟩ : BufTy).Contents (Elt F)),
    binary main_v31 main_v32 main_v33 (addf : (⟨S4096, .f32⟩ : BufTy).Contents (Elt F) → (⟨S4096, .f32⟩ : BufTy).Contents (Elt F) → (⟨S4096, .f32⟩ : BufTy).Contents (Elt F)),
    nullary main_cst_11 (constant S_ .f32 0xBF800000#32),
    unary main_cst_11 main_v34 (broadcastInDim S4096 ![] bcast_S_S4096 : (⟨S_, .f32⟩ : BufTy).Contents (Elt F) → (⟨S4096, .f32⟩ : BufTy).Contents (Elt F)),
    binary main_v33 main_v34 main_v35 (Host.powf : (⟨S4096, .f32⟩ : BufTy).Contents (Elt F) → (⟨S4096, .f32⟩ : BufTy).Contents (Elt F) → (⟨S4096, .f32⟩ : BufTy).Contents (Elt F)),
    nullary main_cst_12 (constant S_ .f32 0x3F800000#32),
    unary main_cst_12 main_v36 (broadcastInDim S4096 ![] bcast_S_S4096 : (⟨S_, .f32⟩ : BufTy).Contents (Elt F) → (⟨S4096, .f32⟩ : BufTy).Contents (Elt F)),
    binary main_v35 main_v36 main_v37 (addf : (⟨S4096, .f32⟩ : BufTy).Contents (Elt F) → (⟨S4096, .f32⟩ : BufTy).Contents (Elt F) → (⟨S4096, .f32⟩ : BufTy).Contents (Elt F)),
    TRef.nullary main_call1.cst (constant S_ .f32 0x00000000#32),
    TRef.binary (.of main_v37 : TRef sig ⟨S4096, .f32⟩) main_call1.cst main_call1.v0 (fun x v => pad S4096 ![0] ![0] ![0] x v pads_S4096_S4096_000 h_S_),
    TRef.nullary main_call1.v1 (iotaInDim S4096x4096 32 0),
    TRef.nullary main_call1.v2 (iotaInDim S4096x4096 32 1),
    TRef.nullary main_call1.c (constantI S_ 32 0#32),
    TRef.unary main_call1.c main_call1.v3 (broadcastInDim S4096x4096 ![] bcast_S_S4096x4096),
    TRef.binary main_call1.v1 main_call1.v3 main_call1.v4 addi,
    TRef.binary main_call1.v4 main_call1.v2 main_call1.v5 (cmpi .eq),
    TRef.unary main_call1.v0 main_call1.v6 (broadcastInDim S4096x1 ![0] bcast_S4096_S4096x1_0),
    TRef.nullary main_call1.cst_0 (constant S_ .f32 0x00000000#32),
    TRef.unary main_call1.v6 main_call1.call0.v0 (broadcastInDim S4096x4096 ![0, 1] bcast_S4096x1_S4096x4096_0_1),
    TRef.unary main_call1.cst_0 main_call1.call0.v1 (broadcastInDim S4096x4096 ![] bcast_S_S4096x4096),
    TRef.ternary main_call1.v5 main_call1.call0.v0 main_call1.call0.v1 main_call1.call0.v2 select ]

set_option maxRecDepth 8192 in
/-- @main is that straight line: the functions' bodies unfolded at their calls, the sequencing re-associated. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    nullary_bufs_sub .., binary_bufs_sub .., nullary_bufs_sub .., unary_bufs_sub .., binary_bufs_sub .., nullary_bufs_sub ..,
    unary_bufs_sub .., binary_bufs_sub .., nullary_bufs_sub .., binary_bufs_sub .., nullary_bufs_sub .., unary_bufs_sub ..,
    binary_bufs_sub .., nullary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    unary_bufs_sub .., binary_bufs_sub .., unary_bufs_sub .., unary_bufs_sub .., binary_bufs_sub .., nullary_bufs_sub ..,
    binary_bufs_sub .., nullary_bufs_sub .., unary_bufs_sub .., binary_bufs_sub .., nullary_bufs_sub .., unary_bufs_sub ..,
    binary_bufs_sub .., nullary_bufs_sub .., unary_bufs_sub .., binary_bufs_sub .., nullary_bufs_sub .., binary_bufs_sub ..,
    nullary_bufs_sub .., nullary_bufs_sub .., nullary_bufs_sub .., unary_bufs_sub .., binary_bufs_sub .., binary_bufs_sub ..,
    unary_bufs_sub .., nullary_bufs_sub .., unary_bufs_sub .., unary_bufs_sub .., ternary_bufs_sub .., nullary_bufs_sub ..,
    binary_bufs_sub .., nullary_bufs_sub .., unary_bufs_sub .., binary_bufs_sub .., nullary_bufs_sub .., unary_bufs_sub ..,
    binary_bufs_sub .., nullary_bufs_sub .., unary_bufs_sub .., binary_bufs_sub .., nullary_bufs_sub .., binary_bufs_sub ..,
    nullary_bufs_sub .., nullary_bufs_sub .., nullary_bufs_sub .., unary_bufs_sub .., binary_bufs_sub .., binary_bufs_sub ..,
    unary_bufs_sub .., nullary_bufs_sub .., unary_bufs_sub .., unary_bufs_sub .., ternary_bufs_sub ..⟩

end Line

/-! ## The four results as pure terms of the argument array -/

/-- The row sums plus one: `sum(adj, 1) + 1`. -/
def rowP (x : FVec Ideal S8192x4096 .f32) : FVec Ideal S8192 .f32 :=
  addf (Host.reduceAdd x (constant S_ .f32 0x00000000#32) reducesTo_S8192x4096_S8192_d1 h_S_)
    (broadcastInDim S8192 ![] bcast_S_S8192 (constant S_ .f32 0x3F800000#32))

/-- The column sums plus one: `sum(adj, 0) + 1`. -/
def colP (x : FVec Ideal S8192x4096 .f32) : FVec Ideal S4096 .f32 :=
  addf (Host.reduceAdd x (constant S_ .f32 0x00000000#32) reducesTo_S8192x4096_S4096_d0 h_S_)
    (broadcastInDim S4096 ![] bcast_S_S4096 (constant S_ .f32 0x3F800000#32))

/-- `d_x = (sum(adj, 1) + 1) ^ (-1/2)`. -/
def dX (x : FVec Ideal S8192x4096 .f32) : FVec Ideal S8192 .f32 :=
  Host.powf (rowP x) (broadcastInDim S8192 ![] bcast_S_S8192 (constant S_ .f32 0xBF000000#32))

/-- `d_y = (sum(adj, 0) + 1) ^ (-1/2)`. -/
def dY (x : FVec Ideal S8192x4096 .f32) : FVec Ideal S4096 .f32 :=
  Host.powf (colP x) (broadcastInDim S4096 ![] bcast_S_S4096 (constant S_ .f32 0xBF000000#32))

/-- The first diagonal's entries: `(sum(adj, 1) + 1) ^ (-1) + 1`. -/
def diagC (x : FVec Ideal S8192x4096 .f32) : FVec Ideal S8192 .f32 :=
  addf (Host.powf (rowP x) (broadcastInDim S8192 ![] bcast_S_S8192 (constant S_ .f32 0xBF800000#32)))
    (broadcastInDim S8192 ![] bcast_S_S8192 (constant S_ .f32 0x3F800000#32))

/-- The second diagonal's entries: `(sum(adj, 0) + 1) ^ (-1) + 1`. -/
def diagD (x : FVec Ideal S8192x4096 .f32) : FVec Ideal S4096 .f32 :=
  addf (Host.powf (colP x) (broadcastInDim S4096 ![] bcast_S_S4096 (constant S_ .f32 0xBF800000#32)))
    (broadcastInDim S4096 ![] bcast_S_S4096 (constant S_ .f32 0x3F800000#32))

/-- `(d_x[:, None] * adj) * d_y[None, :]`. -/
def R15 (x : FVec Ideal S8192x4096 .f32) : FVec Ideal S8192x4096 .f32 :=
  mulf
    (mulf (broadcastInDim S8192x4096 ![0, 1] bcast_S8192x1_S8192x4096_0_1 (broadcastInDim S8192x1 ![0] bcast_S8192_S8192x1_0 (dX x))) x)
    (broadcastInDim S8192x4096 ![0, 1] bcast_S1x4096_S8192x4096_0_1 (broadcastInDim S1x4096 ![1] bcast_S4096_S1x4096_1 (dY x)))

/-- `(d_y[:, None] * adj.T) * d_x[None, :]`. -/
def R22 (x : FVec Ideal S8192x4096 .f32) : FVec Ideal S4096x8192 .f32 :=
  mulf
    (mulf (broadcastInDim S4096x8192 ![0, 1] bcast_S4096x1_S4096x8192_0_1 (broadcastInDim S4096x1 ![0] bcast_S4096_S4096x1_0 (dY x)))
      (transpose S4096x8192 [1, 0] x transposes_S8192x4096_S4096x8192_1_0))
    (broadcastInDim S4096x8192 ![0, 1] bcast_S1x8192_S4096x8192_0_1 (broadcastInDim S1x8192 ![1] bcast_S8192_S1x8192_1 (dX x)))

/-- The first diagonal array: where the row index equals the column index the entry of `diagC` for that row, elsewhere zero. -/
def R30 (x : FVec Ideal S8192x4096 .f32) : FVec Ideal S8192x8192 .f32 :=
  select
    (cmpi .eq (addi (iotaInDim S8192x8192 32 0) (broadcastInDim S8192x8192 ![] bcast_S_S8192x8192 (constantI S_ 32 0#32)))
      (iotaInDim S8192x8192 32 1))
    (broadcastInDim S8192x8192 ![0, 1] bcast_S8192x1_S8192x8192_0_1
      (broadcastInDim S8192x1 ![0] bcast_S8192_S8192x1_0
        (pad S8192 ![0] ![0] ![0] (diagC x) (constant S_ .f32 0x00000000#32) pads_S8192_S8192_000 h_S_)))
    (broadcastInDim S8192x8192 ![] bcast_S_S8192x8192 (constant S_ .f32 0x00000000#32))

/-- The second diagonal array: where the row index equals the column index the entry of `diagD` for that row, elsewhere zero. -/
def R38 (x : FVec Ideal S8192x4096 .f32) : FVec Ideal S4096x4096 .f32 :=
  select
    (cmpi .eq (addi (iotaInDim S4096x4096 32 0) (broadcastInDim S4096x4096 ![] bcast_S_S4096x4096 (constantI S_ 32 0#32)))
      (iotaInDim S4096x4096 32 1))
    (broadcastInDim S4096x4096 ![0, 1] bcast_S4096x1_S4096x4096_0_1
      (broadcastInDim S4096x1 ![0] bcast_S4096_S4096x1_0
        (pad S4096 ![0] ![0] ![0] (diagD x) (constant S_ .f32 0x00000000#32) pads_S4096_S4096_000 h_S_)))
    (broadcastInDim S4096x4096 ![] bcast_S_S4096x4096 (constant S_ .f32 0x00000000#32))

/-! ## What the line leaves at each result buffer -/

set_option maxRecDepth 8192 in
theorem after_v15 (V : Valuation τ sig (Elt Ideal)) :
    after ops V (main_v15 : DevRef τ sig) = R15 (V (main_arg0 : DevRef τ sig)) := by
  after_results_simp
  rfl

set_option maxRecDepth 8192 in
theorem after_v22 (V : Valuation τ sig (Elt Ideal)) :
    after ops V (main_v22 : DevRef τ sig) = R22 (V (main_arg0 : DevRef τ sig)) := by
  after_results_simp
  rfl

set_option maxRecDepth 8192 in
theorem after_v30 (V : Valuation τ sig (Elt Ideal)) :
    after ops V (main_v30 : DevRef τ sig) = R30 (V (main_arg0 : DevRef τ sig)) := by
  after_results_simp
  rfl

set_option maxRecDepth 8192 in
theorem after_v38 (V : Valuation τ sig (Elt Ideal)) :
    after ops V (main_v38 : DevRef τ sig) = R38 (V (main_arg0 : DevRef τ sig)) := by
  after_results_simp
  rfl

set_option maxRecDepth 8192 in
theorem after_arg0 (V : Valuation τ sig (Elt Ideal)) :
    after ops V (main_arg0 : DevRef τ sig) = V (main_arg0 : DevRef τ sig) := by
  after_results_simp

/-- From any memory with zero counters every weakly fair execution of @main terminates, each result buffer at its
    pure term of the argument array's launch contents and the argument unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v15) = R15 (m ((c.tc : Thread nD τ).loc main_arg0))
      ∧ r.2.mem ((c.tc : Thread nD τ).loc main_v22) = R22 (m ((c.tc : Thread nD τ).loc main_arg0))
      ∧ r.2.mem ((c.tc : Thread nD τ).loc main_v30) = R30 (m ((c.tc : Thread nD τ).loc main_arg0))
      ∧ r.2.mem ((c.tc : Thread nD τ).loc main_v38) = R38 (m ((c.tc : Thread nD τ).loc main_arg0))
      ∧ r.2.mem ((c.tc : Thread nD τ).loc main_arg0) = m ((c.tc : Thread nD τ).loc main_arg0)) :=
  (θ_run defs _ _).mono (fun _ h c => ⟨(h c main_v15).trans (after_v15 _), (h c main_v22).trans (after_v22 _),
      (h c main_v30).trans (after_v30 _), (h c main_v38).trans (after_v38 _), (h c main_arg0).trans (after_arg0 _)⟩)
    (run_seq scopedRefs_eq scopedSems_eq defs main (fun _ => ops) main_eq (fun _ => ops_sub) m ρ)

end Cert.ReferenceIdeal.Hand

end
-- ==== Proof.Ref.Val.lean ====
/-
  The reference's four results read at an index. With `rowS x r` the sum of row `r` of the argument array and
  `colS x q` the sum of its column `q`:
    the first result at `(r, q)` is `(rowS r + 1) ^ (-1/2) * x (r, q) * (colS q + 1) ^ (-1/2)`,
    the second at `(q, r)` is `(colS q + 1) ^ (-1/2) * x (r, q) * (rowS r + 1) ^ (-1/2)`,
    the third at `(r, r')` is `(rowS r + 1) ^ (-1) + 1` on the diagonal and zero off it,
    the fourth at `(q, q')` is `(colS q + 1) ^ (-1) + 1` on the diagonal and zero off it.
  The sums' initial value is the pattern of zero, so no `0 +` is left in front of them.
-/
import proofs.«132844_j8031588843576_2_alg».proof.Proof.Ref.Run
import Idealize.ShloMosaic.Lib.IdealHost
import Idealize.ShloMosaic.Lib.ValueLayout
import Idealize.ShloMosaic.Lib.KernelVsHost
import Idealize.ShloMosaic.Lib.Pipeline.Value

noncomputable section

namespace Cert.ReferenceIdeal.Hand

open Cert.ReferenceIdeal Cert.ReferenceIdeal.Gen Idealize.ShloMosaic Idealize.ShloMosaic.ValueIdx
open scoped BigOperators

/-- The sum of row `r` of the array. -/
def rowS (x : FVec Ideal S8192x4096 .f32) (r : Fin 8192) : EReal := ∑ k : Fin 4096, x (ix2 r k)

/-- The sum of column `q` of the array. -/
def colS (x : FVec Ideal S8192x4096 .f32) (q : Fin 4096) : EReal := ∑ k : Fin 8192, x (ix2 k q)

/-! ## The float constants as extended reals -/

/-- The pattern of `-0.5` denotes the real `-(1/2)`. -/
theorem ofBits_neg_half : Ideal.ofBits .f32 0xBF000000#32 = ((-(1 / 2) : ℝ) : EReal) := by
  simp [Ideal.ofBits, Ideal.ieee, -EReal.coe_mul, -EReal.coe_neg]; norm_num

/-- The pattern of `-1.0` denotes the real `-1`. -/
theorem ofBits_neg_one : Ideal.ofBits .f32 0xBF800000#32 = ((-1 : ℝ) : EReal) := by
  simp [Ideal.ofBits, Ideal.ieee, -EReal.coe_mul, -EReal.coe_neg]; norm_num

/-- The pattern of `1.0` denotes `1`. -/
theorem ofBits_one : Ideal.ofBits .f32 0x3F800000#32 = 1 := Ideal.ofBits_one_f32

/-! ## The sums -/

theorem reduces_rows : S8192x4096.Reduces [1] S8192 := by decide
theorem reduces_cols : S8192x4096.Reduces [0] S4096 := by decide

/-- The row sums plus one, at a row. -/
theorem rowP_apply (x : FVec Ideal S8192x4096 .f32) (j : S8192.Idx) : rowP x j = rowS x (j 0) + 1 := by
  unfold rowP rowS
  rw [addf_apply, hostReduceAdd_apply, Ideal.hostReduceAdd_single _ reduces_rows, broadcastInDim_scalar_apply,
    constant_apply, constant_apply, Ideal.ofBits_zero_f32, ofBits_one, zero_add]
  refine congrArg (· + (1 : EReal)) (Finset.sum_congr rfl fun k _ => congrArg x ?_)
  funext c; match c with | ⟨0, _⟩ => rfl | ⟨1, _⟩ => rfl

/-- The column sums plus one, at a column. -/
theorem colP_apply (x : FVec Ideal S8192x4096 .f32) (j : S4096.Idx) : colP x j = colS x (j 0) + 1 := by
  unfold colP colS
  rw [addf_apply, hostReduceAdd_apply, Ideal.hostReduceAdd_single _ reduces_cols, broadcastInDim_scalar_apply,
    constant_apply, constant_apply, Ideal.ofBits_zero_f32, ofBits_one, zero_add]
  refine congrArg (· + (1 : EReal)) (Finset.sum_congr rfl fun k _ => congrArg x ?_)
  funext c; match c with | ⟨0, _⟩ => rfl | ⟨1, _⟩ => rfl

/-! ## The scaling vectors and the diagonals' entries -/

/-- The host's power at an index is the ideal instance's power of the elements. -/
theorem hostPowf_apply {s : Shape} {φ : FTy} (a b : FVec Ideal s φ) (i : s.Idx) : Host.powf a b i = Ideal.pow (a i) (b i) := rfl

/-- `d_x` at a row: `(rowS + 1) ^ (-1/2)`. -/
theorem dX_apply (x : FVec Ideal S8192x4096 .f32) (j : S8192.Idx) :
    dX x j = Ideal.pow (rowS x (j 0) + 1) ((-(1 / 2) : ℝ) : EReal) := by
  unfold dX
  rw [hostPowf_apply, rowP_apply, broadcastInDim_scalar_apply, constant_apply, ofBits_neg_half]

/-- `d_y` at a column: `(colS + 1) ^ (-1/2)`. -/
theorem dY_apply (x : FVec Ideal S8192x4096 .f32) (j : S4096.Idx) :
    dY x j = Ideal.pow (colS x (j 0) + 1) ((-(1 / 2) : ℝ) : EReal) := by
  unfold dY
  rw [hostPowf_apply, colP_apply, broadcastInDim_scalar_apply, constant_apply, ofBits_neg_half]

/-- The first diagonal's entry at a row: `(rowS + 1) ^ (-1) + 1`. -/
theorem diagC_apply (x : FVec Ideal S8192x4096 .f32) (j : S8192.Idx) :
    diagC x j = Ideal.pow (rowS x (j 0) + 1) ((-1 : ℝ) : EReal) + 1 := by
  unfold diagC
  rw [addf_apply, hostPowf_apply, rowP_apply, broadcastInDim_scalar_apply, broadcastInDim_scalar_apply, constant_apply,
    constant_apply, ofBits_neg_one, ofBits_one]

/-- The second diagonal's entry at a column: `(colS + 1) ^ (-1) + 1`. -/
theorem diagD_apply (x : FVec Ideal S8192x4096 .f32) (j : S4096.Idx) :
    diagD x j = Ideal.pow (colS x (j 0) + 1) ((-1 : ℝ) : EReal) + 1 := by
  unfold diagD
  rw [addf_apply, hostPowf_apply, colP_apply, broadcastInDim_scalar_apply, broadcastInDim_scalar_apply, constant_apply,
    constant_apply, ofBits_neg_one, ofBits_one]

/-! ## A vector broadcast along the rows or down the columns of a matrix, read at an index -/

section Broadcasts
variable {α : Type}

/-- A vector of 8192 entries as the column of an 8192 × 4096 matrix: entry `(r, q)` is entry `r`. -/
theorem bcast_col_8192x4096 (v : S8192.Idx → α) (i : S8192x4096.Idx) :
    broadcastInDim S8192x4096 ![0, 1] bcast_S8192x1_S8192x4096_0_1 (broadcastInDim S8192x1 ![0] bcast_S8192_S8192x1_0 v) i
      = v (ix1 (i 0)) :=
  (broadcastInDim_apply ![0, 1] bcast_S8192x1_S8192x4096_0_1 (broadcastInDim S8192x1 ![0] bcast_S8192_S8192x1_0 v) i
      (ix2 (i 0) (0 : Fin 1)) (fun a => match a with | ⟨0, _⟩ => rfl | ⟨1, _⟩ => rfl)).trans
    (broadcastInDim_apply ![0] bcast_S8192_S8192x1_0 v (ix2 (i 0) (0 : Fin 1)) (ix1 (i 0))
      (fun a => match a with | ⟨0, _⟩ => rfl))

/-- A vector of 4096 entries as the row of an 8192 × 4096 matrix: entry `(r, q)` is entry `q`. -/
theorem bcast_row_8192x4096 (v : S4096.Idx → α) (i : S8192x4096.Idx) :
    broadcastInDim S8192x4096 ![0, 1] bcast_S1x4096_S8192x4096_0_1 (broadcastInDim S1x4096 ![1] bcast_S4096_S1x4096_1 v) i
      = v (ix1 (i 1)) :=
  (broadcastInDim_apply ![0, 1] bcast_S1x4096_S8192x4096_0_1 (broadcastInDim S1x4096 ![1] bcast_S4096_S1x4096_1 v) i
      (ix2 (0 : Fin 1) (i 1)) (fun a => match a with | ⟨0, _⟩ => rfl | ⟨1, _⟩ => rfl)).trans
    (broadcastInDim_apply ![1] bcast_S4096_S1x4096_1 v (ix2 (0 : Fin 1) (i 1)) (ix1 (i 1))
      (fun a => match a with | ⟨0, _⟩ => rfl))

/-- A vector of 4096 entries as the column of a 4096 × 8192 matrix: entry `(q, r)` is entry `q`. -/
theorem bcast_col_4096x8192 (v : S4096.Idx → α) (i : S4096x8192.Idx) :
    broadcastInDim S4096x8192 ![0, 1] bcast_S4096x1_S4096x8192_0_1 (broadcastInDim S4096x1 ![0] bcast_S4096_S4096x1_0 v) i
      = v (ix1 (i 0)) :=
  (broadcastInDim_apply ![0, 1] bcast_S4096x1_S4096x8192_0_1 (broadcastInDim S4096x1 ![0] bcast_S4096_S4096x1_0 v) i
      (ix2 (i 0) (0 : Fin 1)) (fun a => match a with | ⟨0, _⟩ => rfl | ⟨1, _⟩ => rfl)).trans
    (broadcastInDim_apply ![0] bcast_S4096_S4096x1_0 v (ix2 (i 0) (0 : Fin 1)) (ix1 (i 0))
      (fun a => match a with | ⟨0, _⟩ => rfl))

/-- A vector of 8192 entries as the row of a 4096 × 8192 matrix: entry `(q, r)` is entry `r`. -/
theorem bcast_row_4096x8192 (v : S8192.Idx → α) (i : S4096x8192.Idx) :
    broadcastInDim S4096x8192 ![0, 1] bcast_S1x8192_S4096x8192_0_1 (broadcastInDim S1x8192 ![1] bcast_S8192_S1x8192_1 v) i
      = v (ix1 (i 1)) :=
  (broadcastInDim_apply ![0, 1] bcast_S1x8192_S4096x8192_0_1 (broadcastInDim S1x8192 ![1] bcast_S8192_S1x8192_1 v) i
      (ix2 (0 : Fin 1) (i 1)) (fun a => match a with | ⟨0, _⟩ => rfl | ⟨1, _⟩ => rfl)).trans
    (broadcastInDim_apply ![1] bcast_S8192_S1x8192_1 v (ix2 (0 : Fin 1) (i 1)) (ix1 (i 1))
      (fun a => match a with | ⟨0, _⟩ => rfl))

/-- A vector of 8192 entries as the column of an 8192 × 8192 matrix: entry `(r, r')` is entry `r`. -/
theorem bcast_col_8192x8192 (v : S8192.Idx → α) (i : S8192x8192.Idx) :
    broadcastInDim S8192x8192 ![0, 1] bcast_S8192x1_S8192x8192_0_1 (broadcastInDim S8192x1 ![0] bcast_S8192_S8192x1_0 v) i
      = v (ix1 (i 0)) :=
  (broadcastInDim_apply ![0, 1] bcast_S8192x1_S8192x8192_0_1 (broadcastInDim S8192x1 ![0] bcast_S8192_S8192x1_0 v) i
      (ix2 (i 0) (0 : Fin 1)) (fun a => match a with | ⟨0, _⟩ => rfl | ⟨1, _⟩ => rfl)).trans
    (broadcastInDim_apply ![0] bcast_S8192_S8192x1_0 v (ix2 (i 0) (0 : Fin 1)) (ix1 (i 0))
      (fun a => match a with | ⟨0, _⟩ => rfl))

/-- A vector of 4096 entries as the column of a 4096 × 4096 matrix: entry `(q, q')` is entry `q`. -/
theorem bcast_col_4096x4096 (v : S4096.Idx → α) (i : S4096x4096.Idx) :
    broadcastInDim S4096x4096 ![0, 1] bcast_S4096x1_S4096x4096_0_1 (broadcastInDim S4096x1 ![0] bcast_S4096_S4096x1_0 v) i
      = v (ix1 (i 0)) :=
  (broadcastInDim_apply ![0, 1] bcast_S4096x1_S4096x4096_0_1 (broadcastInDim S4096x1 ![0] bcast_S4096_S4096x1_0 v) i
      (ix2 (i 0) (0 : Fin 1)) (fun a => match a with | ⟨0, _⟩ => rfl | ⟨1, _⟩ => rfl)).trans
    (broadcastInDim_apply ![0] bcast_S4096_S4096x1_0 v (ix2 (i 0) (0 : Fin 1)) (ix1 (i 0))
      (fun a => match a with | ⟨0, _⟩ => rfl))

/-- The transposed array at `(q, r)` is the array at `(r, q)`. -/
theorem transpose_arg_apply (x : S8192x4096.Idx → α) (i : S4096x8192.Idx) :
    transpose S4096x8192 [1, 0] x transposes_S8192x4096_S4096x8192_1_0 i = x (ix2 (i 1) (i 0)) :=
  transpose_apply [1, 0] x transposes_S8192x4096_S4096x8192_1_0 i (ix2 (i 1) (i 0))
    (fun b => match b with | ⟨0, _⟩ => rfl | ⟨1, _⟩ => rfl)

end Broadcasts

/-! ## The two scaled arrays -/

/-- The first result at `(r, q)`: `(rowS r + 1) ^ (-1/2) * x (r, q) * (colS q + 1) ^ (-1/2)`, the product associated
    as the reference computes it. -/
theorem R15_apply (x : FVec Ideal S8192x4096 .f32) (i : S8192x4096.Idx) :
    R15 x i = Ideal.pow (rowS x (i 0) + 1) ((-(1 / 2) : ℝ) : EReal) * x i
      * Ideal.pow (colS x (i 1) + 1) ((-(1 / 2) : ℝ) : EReal) := by
  unfold R15
  rw [mulf_apply, mulf_apply, bcast_col_8192x4096, bcast_row_8192x4096, dX_apply, dY_apply]

/-- The second result at `(q, r)`: `(colS q + 1) ^ (-1/2) * x (r, q) * (rowS r + 1) ^ (-1/2)`, the product associated
    as the reference computes it. -/
theorem R22_apply (x : FVec Ideal S8192x4096 .f32) (i : S4096x8192.Idx) :
    R22 x i = Ideal.pow (colS x (i 0) + 1) ((-(1 / 2) : ℝ) : EReal) * x (ix2 (i 1) (i 0))
      * Ideal.pow (rowS x (i 1) + 1) ((-(1 / 2) : ℝ) : EReal) := by
  unfold R22
  rw [mulf_apply, mulf_apply, bcast_col_4096x8192, bcast_row_4096x8192, transpose_arg_apply, dX_apply, dY_apply]

/-! ## The two diagonal arrays -/

/-- The diagonal's condition word at `(a, b)`, both below `2 ^ 32`: the word of `a` plus zero compared for equality
    with the word of `b` is the bit of `a = b`. -/
theorem diag_word (a b : Nat) (ha : a < 2 ^ 32) (hb : b < 2 ^ 32) :
    IntOp.cmpi .eq (IntOp.addi (BitVec.ofNat 32 a) 0#32) (BitVec.ofNat 32 b) = if a = b then 1#1 else 0#1 := by
  unfold IntOp.cmpi IntOp.addi
  rw [BitVec.add_zero]
  by_cases h : a = b
  · subst h; rw [if_pos rfl]; simp
  · rw [if_neg h]
    have hne : (BitVec.ofNat 32 a == BitVec.ofNat 32 b) = false := by
      rw [beq_eq_false_iff_ne]
      intro e
      have e' := congrArg BitVec.toNat e
      rw [BitVec.toNat_ofNat, BitVec.toNat_ofNat, Nat.mod_eq_of_lt ha, Nat.mod_eq_of_lt hb] at e'
      exact h e'
    simp [hne]

section Pads
variable {α : Type}

/-- A padding of no entries on either side and none between reads the vector itself. -/
theorem pad_none_8192 (v : S8192.Idx → α) (z : S_.Idx → α) (j : S8192.Idx) :
    pad S8192 ![0] ![0] ![0] v z pads_S8192_S8192_000 h_S_ j = v j :=
  pad_apply_of_inside ![0] ![0] ![0] v z pads_S8192_S8192_000 h_S_ j j
    (fun a => match a with | ⟨0, _⟩ => by show (j 0).val = 0 + (j 0).val * (0 + 1); omega)

theorem pad_none_4096 (v : S4096.Idx → α) (z : S_.Idx → α) (j : S4096.Idx) :
    pad S4096 ![0] ![0] ![0] v z pads_S4096_S4096_000 h_S_ j = v j :=
  pad_apply_of_inside ![0] ![0] ![0] v z pads_S4096_S4096_000 h_S_ j j
    (fun a => match a with | ⟨0, _⟩ => by show (j 0).val = 0 + (j 0).val * (0 + 1); omega)

end Pads

/-- The third result at `(r, r')`: `(rowS r + 1) ^ (-1) + 1` where `r = r'`, zero elsewhere. -/
theorem R30_apply (x : FVec Ideal S8192x4096 .f32) (i : S8192x8192.Idx) :
    R30 x i = if (i 0).val = (i 1).val then Ideal.pow (rowS x (i 0) + 1) ((-1 : ℝ) : EReal) + 1 else 0 := by
  unfold R30
  rw [select_apply]
  have hw : cmpi .eq (addi (iotaInDim S8192x8192 32 0) (broadcastInDim S8192x8192 ![] bcast_S_S8192x8192 (constantI S_ 32 0#32)))
      (iotaInDim S8192x8192 32 1) i = if (i 0).val = (i 1).val then 1#1 else 0#1 :=
    diag_word (i 0).val (i 1).val (by have := idx2_lt0 i; omega) (by have := idx2_lt1 i; omega)
  rw [hw]
  by_cases h : (i 0).val = (i 1).val
  · rw [if_pos h, if_pos h, select_one, bcast_col_8192x8192, pad_none_8192, diagC_apply]
  · rw [if_neg h, if_neg h, select_zero, broadcastInDim_scalar_apply, constant_apply, Ideal.ofBits_zero_f32]

/-- The fourth result at `(q, q')`: `(colS q + 1) ^ (-1) + 1` where `q = q'`, zero elsewhere. -/
theorem R38_apply (x : FVec Ideal S8192x4096 .f32) (i : S4096x4096.Idx) :
    R38 x i = if (i 0).val = (i 1).val then Ideal.pow (colS x (i 0) + 1) ((-1 : ℝ) : EReal) + 1 else 0 := by
  unfold R38
  rw [select_apply]
  have hw : cmpi .eq (addi (iotaInDim S4096x4096 32 0) (broadcastInDim S4096x4096 ![] bcast_S_S4096x4096 (constantI S_ 32 0#32)))
      (iotaInDim S4096x4096 32 1) i = if (i 0).val = (i 1).val then 1#1 else 0#1 :=
    diag_word (i 0).val (i 1).val (by have := idx2_lt0 i; omega) (by have := idx2_lt1 i; omega)
  rw [hw]
  by_cases h : (i 0).val = (i 1).val
  · rw [if_pos h, if_pos h, select_one, bcast_col_4096x4096, pad_none_4096, diagD_apply]
  · rw [if_neg h, if_neg h, select_zero, broadcastInDim_scalar_apply, constant_apply, Ideal.ofBits_zero_f32]

end Cert.ReferenceIdeal.Hand

end
-- ==== Proof.KernelValue.lean ====
/-
  The four result arrays of the idealized kernel program as functions of the input matrix x, given what the statistics
  pipeline leaves in its four output arrays (the two row vectors rsqrt (row sum + 1) and 1 / (row sum + 1) + 1, the two
  column vectors rsqrt (column sum + 1) and 1 / (column sum + 1) + 1): the scaled matrix (dx · x) · dy, its transpose, and
  the two diagonal matrices. Each result is read back from the end of the run through the pipelines' array contents.
-/
import proofs.«132844_j8031588843576_2_alg».proof.Proof.KI.Run
import proofs.«132844_j8031588843576_2_alg».proof.Proof.KI.Val1
import proofs.«132844_j8031588843576_2_alg».proof.Proof.KI.Val2
import proofs.«132844_j8031588843576_2_alg».proof.Proof.KI.Val3
import proofs.«132844_j8031588843576_2_alg».proof.Proof.Ref.Val

noncomputable section

namespace Cert.KernelIdeal.Hand

open Idealize.ShloMosaic Idealize.ShloMosaic.TcCoe Idealize.SL.Sem Idealize.ShloMosaic.ValueIdx
open Cert.KernelIdeal Cert.KernelIdeal.Gen
open Cert.ReferenceIdeal.Hand (rowS colS)
open scoped BigOperators

variable (m : (ℓ : Loc nD τ sig) → Buf (Elt Ideal) ℓ) (c : Dev nD)

/-- The input matrix on core `c`. -/
abbrev inp : FVec Ideal S8192x4096 .f32 := m ((c : Thread nD τ).loc main_arg0)

/-- The first result: entry (r, q) is rsqrt (row sum r + 1) · x (r, q) · rsqrt (column sum q + 1). -/
theorem val15
    (h1 : (dat0 (F := Ideal) (V0 m) c).arrAt 1 cfg0.N = fun i : S8192x1.Idx => Ideal.rsqrt (rowS (inp m c) (i 0) + 1))
    (h3 : (dat0 (F := Ideal) (V0 m) c).arrAt 3 cfg0.N = fun i : S1x4096.Idx => Ideal.rsqrt (colS (inp m c) (i 1) + 1)) :
    V4 m c main_v1_0 = fun i : S8192x4096.Idx =>
      Ideal.rsqrt (rowS (inp m c) (i 0) + 1) * inp m c i * Ideal.rsqrt (colS (inp m c) (i 1) + 1) := by
  rw [V4_main_v1_0, final1_3]
  have e0 : Agg.dx (V1 m) c = fun j : S8192x1.Idx => Ideal.rsqrt (rowS (inp m c) (j 0) + 1) := (V1_main_v0_0 m c).trans h1
  have e1 : Agg.adj (V1 m) c = inp m c := V1_main_arg0 m c
  have e2 : Agg.dy (V1 m) c = fun j : S1x4096.Idx => Ideal.rsqrt (colS (inp m c) (j 1) + 1) := (V1_main_v0_2 m c).trans h3
  funext i
  show Agg.dx (V1 m) c (ix2 (i 0) (0 : Fin 1)) * Agg.adj (V1 m) c i * Agg.dy (V1 m) c (ix2 (0 : Fin 1) (i 1)) = _
  rw [e0, e1, e2]
  try rfl

/-- The second result is the first one transposed: entry (q, r) is rsqrt (row sum r + 1) · x (r, q) · rsqrt (column sum q + 1). -/
theorem val22
    (h1 : (dat0 (F := Ideal) (V0 m) c).arrAt 1 cfg0.N = fun i : S8192x1.Idx => Ideal.rsqrt (rowS (inp m c) (i 0) + 1))
    (h3 : (dat0 (F := Ideal) (V0 m) c).arrAt 3 cfg0.N = fun i : S1x4096.Idx => Ideal.rsqrt (colS (inp m c) (i 1) + 1)) :
    V4 m c main_v1_1 = fun i : S4096x8192.Idx =>
      Ideal.rsqrt (rowS (inp m c) (i 1) + 1) * inp m c (ix2 (i 1) (i 0)) * Ideal.rsqrt (colS (inp m c) (i 0) + 1) := by
  rw [V4_main_v1_1, final1_4]
  have e0 : Agg.dx (V1 m) c = fun j : S8192x1.Idx => Ideal.rsqrt (rowS (inp m c) (j 0) + 1) := (V1_main_v0_0 m c).trans h1
  have e1 : Agg.adj (V1 m) c = inp m c := V1_main_arg0 m c
  have e2 : Agg.dy (V1 m) c = fun j : S1x4096.Idx => Ideal.rsqrt (colS (inp m c) (j 1) + 1) := (V1_main_v0_2 m c).trans h3
  funext i
  show Agg.dx (V1 m) c (ix2 (i 1) (0 : Fin 1)) * Agg.adj (V1 m) c (ix2 (i 1) (i 0)) * Agg.dy (V1 m) c (ix2 (0 : Fin 1) (i 0)) = _
  rw [e0, e1, e2]
  try rfl

/-- The third result: the diagonal matrix of 1 / (row sum + 1) + 1. -/
theorem val30
    (h2 : (dat0 (F := Ideal) (V0 m) c).arrAt 2 cfg0.N = fun i : S8192x1.Idx => Ideal.div 1 (rowS (inp m c) (i 0) + 1) + 1) :
    V4 m c main_v2 = fun i : S8192x8192.Idx =>
      if (i 0).val = (i 1).val then Ideal.div 1 (rowS (inp m c) (i 0) + 1) + 1 else 0 := by
  rw [V4_main_v2, final2_1, V2_main_v0_1, h2]

/-- The fourth result: the diagonal matrix of 1 / (column sum + 1) + 1. -/
theorem val38
    (h4 : (dat0 (F := Ideal) (V0 m) c).arrAt 4 cfg0.N = fun i : S4096x1.Idx => Ideal.div 1 (colS (inp m c) (i 0) + 1) + 1) :
    V4 m c main_v3 = fun i : S4096x4096.Idx =>
      if (i 0).val = (i 1).val then Ideal.div 1 (colS (inp m c) (i 0) + 1) + 1 else 0 := by
  rw [V4_main_v3, final3_1, V3_main_v0_3, h4]

end Cert.KernelIdeal.Hand

end
-- ==== Proof.PreDecode.lean ====
/-
  The precondition read as three facts about the input matrix (at the ideal instance, where an entry is an extended
  real): every entry is a real number (its magnitude is below +∞); for every row, zero plus the sum of the row's entries,
  plus one, is positive; the same for every column. The sums appear as the host's reduction spells them — from the
  initial value zero — which is also how the reference computes its normalisers.
-/
import proofs.«132844_j8031588843576_2_alg».proof.Pre_finite_inputs
import Idealize.ShloMosaic.Lib.ReduceAll
import Idealize.ShloMosaic.Lib.Affine
import Idealize.ShloMosaic.Lib.ValueIdx
import Idealize.ShloMosaic.Lib.IdealHost
import Idealize.ShloMosaic.PureOps.Ideal.Laws
noncomputable section
namespace Cert.Hand.PreDecode
open Idealize.ShloMosaic Cert.Pre_finite_inputs
variable [Facts]
instance : Subsingleton S_.Idx := ⟨fun a b => funext fun d => d.elim0⟩

theorem of_ofBool {p : Prop} [Decidable p] (h : BitVec.ofBool (decide p) = 1#1) : p := by
  by_cases hp : p
  · exact hp
  · simp [hp] at h

theorem inf_val : Ideal.ofBits .f32 0x7F800000#32 = ⊤ := by simp [Ideal.ofBits, Ideal.ieee]

/-- An entry whose magnitude is below +∞ is a real number. -/
theorem fin_of (x : FVec Ideal S8192x4096 .f32) (i : S8192x4096.Idx)
    (e : Ideal.cmp CmpFPredicate.olt (Host.absf x i) (broadcastInDim S8192x4096 ![] Facts.bcast_S_S8192x4096 (constant (F := Ideal) S_ FTy.f32 0x7F800000#32) i) = 1#1) :
    x i ≠ ⊤ ∧ x i ≠ ⊥ := by
  simp only [Host.absf, broadcastInDim, constant, Ideal.cmp] at e
  have hlt := of_ofBool e
  rw [Ideal.ofBits_def, inf_val, Ideal.hostAbsf_def, Ideal.absf_def] at hlt
  constructor
  · intro hx; rw [hx] at hlt; simp at hlt
  · intro hx; rw [hx] at hlt; simp at hlt

/-- The row condition at row `r`: zero plus the sum of the row's entries, plus one, is positive. -/
theorem row_of (x : FVec Ideal S8192x4096 .f32) (r : Fin 8192)
    (e : Ideal.cmp CmpFPredicate.ogt
        (addf (Host.reduceAdd x (constant (F := Ideal) S_ FTy.f32 0#32) Facts.reducesTo_S8192x4096_S8192_d1 Facts.h_S_)
              (broadcastInDim S8192 ![] Facts.bcast_S_S8192 (constant (F := Ideal) S_ FTy.f32 0x3F800000#32)) (ValueIdx.ix1 r))
        (broadcastInDim S8192 ![] Facts.bcast_S_S8192 (constant (F := Ideal) S_ FTy.f32 0#32) (ValueIdx.ix1 r)) = 1#1) :
    (0 : EReal) < (0 + ∑ k : Fin 4096, x (ValueIdx.ix2 r k)) + 1 := by
  have hR : S8192x4096.Reduces [1] S8192 := by decide
  rw [ValueIdx.addf_apply, ValueIdx.hostReduceAdd_apply, ValueIdx.broadcastInDim_scalar_apply, ValueIdx.broadcastInDim_scalar_apply,
    ValueIdx.constant_apply, ValueIdx.constant_apply, ValueIdx.constant_apply, Ideal.ofBits_one_f32, Ideal.ofBits_zero_f32,
    Ideal.hostReduceAdd_single Facts.reducesTo_S8192x4096_S8192_d1 hR] at e
  simp only [Ideal.cmp] at e
  have hlt := of_ofBool e
  have hidx : ∀ k : Fin 4096, hR.lift (ValueIdx.ix1 r) k = ValueIdx.ix2 r k := fun k =>
    funext fun a => Fin.ext (by match a with | ⟨0, _⟩ => rfl | ⟨1, _⟩ => rfl)
  have hlt' : (0 : EReal) < 0 + (∑ k : Fin 4096, x (hR.lift (ValueIdx.ix1 r) k)) + 1 := hlt
  simp only [hidx] at hlt'
  exact hlt'

/-- The column condition at column `q`. -/
theorem col_of (x : FVec Ideal S8192x4096 .f32) (q : Fin 4096)
    (e : Ideal.cmp CmpFPredicate.ogt
        (addf (Host.reduceAdd x (constant (F := Ideal) S_ FTy.f32 0#32) Facts.reducesTo_S8192x4096_S4096_d0 Facts.h_S_)
              (broadcastInDim S4096 ![] Facts.bcast_S_S4096 (constant (F := Ideal) S_ FTy.f32 0x3F800000#32)) (ValueIdx.ix1 q))
        (broadcastInDim S4096 ![] Facts.bcast_S_S4096 (constant (F := Ideal) S_ FTy.f32 0#32) (ValueIdx.ix1 q)) = 1#1) :
    (0 : EReal) < (0 + ∑ k : Fin 8192, x (ValueIdx.ix2 k q)) + 1 := by
  have hR : S8192x4096.Reduces [0] S4096 := by decide
  rw [ValueIdx.addf_apply, ValueIdx.hostReduceAdd_apply, ValueIdx.broadcastInDim_scalar_apply, ValueIdx.broadcastInDim_scalar_apply,
    ValueIdx.constant_apply, ValueIdx.constant_apply, ValueIdx.constant_apply, Ideal.ofBits_one_f32, Ideal.ofBits_zero_f32,
    Ideal.hostReduceAdd_single Facts.reducesTo_S8192x4096_S4096_d0 hR] at e
  simp only [Ideal.cmp] at e
  have hlt := of_ofBool e
  have hidx : ∀ k : Fin 8192, hR.lift (ValueIdx.ix1 q) k = ValueIdx.ix2 k q := fun k =>
    funext fun a => Fin.ext (by match a with | ⟨0, _⟩ => rfl | ⟨1, _⟩ => rfl)
  have hlt' : (0 : EReal) < 0 + (∑ k : Fin 8192, x (hR.lift (ValueIdx.ix1 q) k)) + 1 := hlt
  simp only [hidx] at hlt'
  exact hlt'

/-- THE PRECONDITION READ: every entry of the input is a real number, every row sum plus one is positive, every column
    sum plus one is positive (the sums as the host's reduction spells them: from zero). -/
theorem decode (x : FVec Ideal S8192x4096 .f32) (h : fn (F := Ideal) x = fun _ => 1#1) :
    (∀ i : S8192x4096.Idx, x i ≠ ⊤ ∧ x i ≠ ⊥)
    ∧ (∀ r : Fin 8192, (0 : EReal) < (0 + ∑ k : Fin 4096, x (ValueIdx.ix2 r k)) + 1)
    ∧ (∀ q : Fin 4096, (0 : EReal) < (0 + ∑ k : Fin 8192, x (ValueIdx.ix2 k q)) + 1) := by
  have h0 := congrFun h ValueIdx.ix0
  dsimp only [fn, fn_part1] at h0
  obtain ⟨h12, hcol⟩ := IntOp.andi_eq_one.1 h0
  obtain ⟨hfin, hrow⟩ := IntOp.andi_eq_one.1 h12
  clear h0 h12 h
  refine ⟨fun i => ?_, fun r => ?_, fun q => ?_⟩
  · have e := Host.reduce_andi_all _ _ _ _ _ hfin i
    rw [ValueIdx.cmpf_apply, Ideal.cmpf_def] at e
    exact fin_of x i e
  · have e := Host.reduce_andi_all _ _ _ _ _ hrow (ValueIdx.ix1 r)
    rw [ValueIdx.cmpf_apply, Ideal.cmpf_def] at e
    exact row_of x r e
  · have e := Host.reduce_andi_all _ _ _ _ _ hcol (ValueIdx.ix1 q)
    rw [ValueIdx.cmpf_apply, Ideal.cmpf_def] at e
    exact col_of x q e

end Cert.Hand.PreDecode

end
-- ==== Proof.Algebra.lean ====
/-
  The algebra that joins the kernel's and the reference's normalisations on the extended reals. For a POSITIVE REAL v
  the reference's powers are the kernel's operations: v ^ (-1/2) = 1 / sqrt v and v ^ (-1) = 1 / v. (At v ≤ 0 the two
  sides differ — a power of a non-positive base is read as a junk real, the reciprocal root as an infinity — which is
  why the precondition keeps every row sum plus one and every column sum plus one positive.) A finite sum of real
  entries is real, so each "sum plus one" is such a v.
-/
import Idealize.ShloMosaic.PureOps.Ideal
import Idealize.ShloMosaic.PureOps.Ideal.Laws
import Mathlib.Analysis.SpecialFunctions.Pow.Real
import Mathlib.Analysis.SpecialFunctions.Sqrt

noncomputable section

namespace Cert.Hand.Algebra

open Idealize.ShloMosaic

/-- A finite sum of extended reals none of which is infinite is a real number. -/
theorem sum_real {ι : Type} (s : Finset ι) (f : ι → EReal) (hf : ∀ i ∈ s, f i ≠ ⊤ ∧ f i ≠ ⊥) :
    ∃ v : ℝ, ∑ i ∈ s, f i = (v : EReal) := by
  classical
  induction s using Finset.induction_on with
  | empty => exact ⟨0, by simp⟩
  | insert a s ha ih =>
    obtain ⟨v, hv⟩ := ih (fun i hi => hf i (Finset.mem_insert_of_mem hi))
    obtain ⟨h1, h2⟩ := hf a (Finset.mem_insert_self a s)
    lift f a to ℝ using ⟨h1, h2⟩ with w hw
    exact ⟨w + v, by rw [Finset.sum_insert ha, ← hw, hv, EReal.coe_add]⟩

/-- "Zero plus a sum of real entries, plus one", when positive, is a positive real. -/
theorem pos_real {ι : Type} (s : Finset ι) (f : ι → EReal) (hf : ∀ i ∈ s, f i ≠ ⊤ ∧ f i ≠ ⊥)
    (hpos : (0 : EReal) < (0 + ∑ i ∈ s, f i) + 1) : ∃ v : ℝ, 0 < v ∧ (0 + ∑ i ∈ s, f i) + 1 = (v : EReal) := by
  obtain ⟨w, hw⟩ := sum_real s f hf
  refine ⟨w + 1, ?_, ?_⟩
  · rw [hw, zero_add] at hpos
    have : ((0 : ℝ) : EReal) < ((w + 1 : ℝ) : EReal) := by rw [EReal.coe_add]; simpa using hpos
    exact_mod_cast this
  · rw [hw, zero_add, EReal.coe_add]; rfl

/-- At a positive real the power -1/2 is the reciprocal square root. -/
theorem pow_neg_half (v : ℝ) (hv : 0 < v) :
    Ideal.pow (v : EReal) ((-(1 / 2) : ℝ) : EReal) = Ideal.rsqrt (v : EReal) := by
  rw [Ideal.pow_coe_coe, Ideal.rsqrt_coe, if_neg (not_lt.mpr hv.le), if_neg hv.ne']
  congr 1
  show v ^ (-(1 / 2) : ℝ) = (Real.sqrt v)⁻¹
  rw [Real.rpow_neg hv.le, Real.sqrt_eq_rpow]

/-- At a positive real the power -1 is the quotient of one by it. -/
theorem pow_neg_one (v : ℝ) (hv : 0 < v) :
    Ideal.pow (v : EReal) ((-1 : ℝ) : EReal) = Ideal.div 1 (v : EReal) := by
  rw [Ideal.pow_coe_coe, Ideal.div_coe hv.ne', one_mul]
  congr 1
  show v ^ (-1 : ℝ) = 1 / v
  rw [Real.rpow_neg_one, one_div]

end Cert.Hand.Algebra

end
-- ==== Proof.Bridge.lean ====
/-
  The kernel's four results as closed forms of the argument array, and their equality with the reference's. With
  `rowS x r` and `colS x q` the row and column sums, the kernel scales by the reciprocal square roots
  `1 / sqrt (rowS + 1)` and `1 / sqrt (colS + 1)` and puts `1 / (rowS + 1) + 1` and `1 / (colS + 1) + 1` on the
  diagonals; the reference writes the same numbers as the powers `-1/2` and `-1`. Where every entry is finite and every
  "sum plus one" is positive, each "sum plus one" is a positive real, at which the power `-1/2` is the reciprocal square
  root and the power `-1` the reciprocal.
-/
import proofs.«132844_j8031588843576_2_alg».proof.Proof.Ref.Val
import proofs.«132844_j8031588843576_2_alg».proof.Proof.Algebra

noncomputable section

namespace Cert.Hand.Bridge

open Cert.ReferenceIdeal Cert.ReferenceIdeal.Hand Cert.Hand.Algebra Idealize.ShloMosaic Idealize.ShloMosaic.ValueIdx
open scoped BigOperators

/-- The kernel's row scaling: `1 / sqrt (rowS + 1)`. -/
def dxK (x : FVec Ideal S8192x4096 .f32) (r : Fin 8192) : EReal := Ideal.rsqrt (rowS x r + 1)
/-- The kernel's column scaling: `1 / sqrt (colS + 1)`. -/
def dyK (x : FVec Ideal S8192x4096 .f32) (q : Fin 4096) : EReal := Ideal.rsqrt (colS x q + 1)
/-- The kernel's first diagonal entry: `1 / (rowS + 1) + 1`. -/
def dcK (x : FVec Ideal S8192x4096 .f32) (r : Fin 8192) : EReal := Ideal.div 1 (rowS x r + 1) + 1
/-- The kernel's second diagonal entry: `1 / (colS + 1) + 1`. -/
def ddK (x : FVec Ideal S8192x4096 .f32) (q : Fin 4096) : EReal := Ideal.div 1 (colS x q + 1) + 1

/-- The scaled array: `(dx * adj) * dy`. -/
def K15 (x : FVec Ideal S8192x4096 .f32) : S8192x4096.Idx → EReal := fun i => dxK x (i 0) * x i * dyK x (i 1)
/-- The scaled array transposed, the product associated the same way: `(dx * adj^T) * dy` at `(q, r)`. -/
def K22 (x : FVec Ideal S8192x4096 .f32) : S4096x8192.Idx → EReal :=
  fun i => dxK x (i 1) * x (ix2 (i 1) (i 0)) * dyK x (i 0)
/-- The first diagonal array. -/
def K30 (x : FVec Ideal S8192x4096 .f32) : S8192x8192.Idx → EReal :=
  fun i => if (i 0).val = (i 1).val then dcK x (i 0) else 0
/-- The second diagonal array. -/
def K38 (x : FVec Ideal S8192x4096 .f32) : S4096x4096.Idx → EReal :=
  fun i => if (i 0).val = (i 1).val then ddK x (i 0) else 0

section Eq

variable (x : FVec Ideal S8192x4096 .f32)
  (hfin : ∀ i : S8192x4096.Idx, x i ≠ ⊤ ∧ x i ≠ ⊥)
  (hrow : ∀ r : Fin 8192, (0 : EReal) < (0 + ∑ k : Fin 4096, x (ix2 r k)) + 1)
  (hcol : ∀ q : Fin 4096, (0 : EReal) < (0 + ∑ k : Fin 8192, x (ix2 k q)) + 1)

include hfin hrow in
/-- A row sum plus one is a positive real. -/
theorem row_real (r : Fin 8192) : ∃ v : ℝ, 0 < v ∧ rowS x r + 1 = (v : EReal) := by
  obtain ⟨v, hv, he⟩ := pos_real Finset.univ (fun k : Fin 4096 => x (ix2 r k)) (fun k _ => hfin _) (hrow r)
  refine ⟨v, hv, ?_⟩
  rw [← he, zero_add]
  rfl

include hfin hcol in
/-- A column sum plus one is a positive real. -/
theorem col_real (q : Fin 4096) : ∃ v : ℝ, 0 < v ∧ colS x q + 1 = (v : EReal) := by
  obtain ⟨v, hv, he⟩ := pos_real Finset.univ (fun k : Fin 8192 => x (ix2 k q)) (fun k _ => hfin _) (hcol q)
  refine ⟨v, hv, ?_⟩
  rw [← he, zero_add]
  rfl

include hfin hrow in
/-- The reference's row scaling is the kernel's. -/
theorem pow_row_neg_half (r : Fin 8192) : Ideal.pow (rowS x r + 1) ((-(1 / 2) : ℝ) : EReal) = dxK x r := by
  obtain ⟨v, hv, he⟩ := row_real x hfin hrow r
  unfold dxK
  rw [he, pow_neg_half v hv]

include hfin hcol in
/-- The reference's column scaling is the kernel's. -/
theorem pow_col_neg_half (q : Fin 4096) : Ideal.pow (colS x q + 1) ((-(1 / 2) : ℝ) : EReal) = dyK x q := by
  obtain ⟨v, hv, he⟩ := col_real x hfin hcol q
  unfold dyK
  rw [he, pow_neg_half v hv]

include hfin hrow in
/-- The reference's first diagonal entry is the kernel's. -/
theorem pow_row_neg_one (r : Fin 8192) : Ideal.pow (rowS x r + 1) ((-1 : ℝ) : EReal) + 1 = dcK x r := by
  obtain ⟨v, hv, he⟩ := row_real x hfin hrow r
  unfold dcK
  rw [he, pow_neg_one v hv]

include hfin hcol in
/-- The reference's second diagonal entry is the kernel's. -/
theorem pow_col_neg_one (q : Fin 4096) : Ideal.pow (colS x q + 1) ((-1 : ℝ) : EReal) + 1 = ddK x q := by
  obtain ⟨v, hv, he⟩ := col_real x hfin hcol q
  unfold ddK
  rw [he, pow_neg_one v hv]

include hfin hrow hcol in
theorem K15_eq : K15 x = R15 x := by
  funext i
  rw [R15_apply, pow_row_neg_half x hfin hrow (i 0), pow_col_neg_half x hfin hcol (i 1)]
  rfl

include hfin hrow hcol in
theorem K22_eq : K22 x = R22 x := by
  funext i
  rw [R22_apply, pow_row_neg_half x hfin hrow (i 1), pow_col_neg_half x hfin hcol (i 0)]
  show dxK x (i 1) * x (ix2 (i 1) (i 0)) * dyK x (i 0) = dyK x (i 0) * x (ix2 (i 1) (i 0)) * dxK x (i 1)
  rw [mul_comm (dxK x (i 1)) (x (ix2 (i 1) (i 0))), mul_right_comm, mul_comm (x (ix2 (i 1) (i 0))) (dyK x (i 0))]

include hfin hrow in
theorem K30_eq : K30 x = R30 x := by
  funext i
  rw [R30_apply, pow_row_neg_one x hfin hrow (i 0)]
  rfl

include hfin hcol in
theorem K38_eq : K38 x = R38 x := by
  funext i
  rw [R38_apply, pow_col_neg_one x hfin hcol (i 0)]
  rfl

end Eq

end Cert.Hand.Bridge

end
-- ==== Proof.lean ====
/-
  GCN-style degree normalisation of a cell-by-drug adjacency matrix x (8192 × 4096): the kernel program against its
  reference, over the extended reals.

  With s_r the sum of row r and t_q the sum of column q, both programs return
    (i)   the matrix  (s_r + 1)^(-1/2) · x(r,q) · (t_q + 1)^(-1/2),
    (ii)  its transpose,
    (iii) the 8192 × 8192 diagonal matrix with entries (s_r + 1)^(-1) + 1,
    (iv)  the 4096 × 4096 diagonal matrix with entries (t_q + 1)^(-1) + 1.
  The reference takes the powers as written; the kernel program computes 1 / sqrt (s + 1) and 1 / (s + 1) in four
  pipelines: one pass over sixteen row strips that writes the two row vectors and accumulates the column sums in a scratch
  buffer (writing the two column vectors at the last strip), one tiled pass that scales a tile and writes it and its
  transpose, and two passes that write the diagonal matrices tile by tile. On the extended reals a power of a base that is
  not positive and the reciprocal (root) of it are read differently, so the claim is made where the reference's powers
  are defined: every entry of x finite, every s_r + 1 and every t_q + 1 positive (the precondition). There each "sum plus
  one" is a positive real v, and v^(-1/2) = 1 / sqrt v, v^(-1) = 1 / v; the transposed result also uses that the product
  of extended reals is commutative and associative. The column sums meet the reference's single sum over 8192 rows by
  regrouping sixteen partial sums of 512 rows.

  The three frame claims are the runs of the two kernel programs (the same text at the word level and at the ideal
  instance) and of the reference with the results forgotten; the ideal pass rewrote nothing, so its conjunct is trivial.
-/
import proofs.«132844_j8031588843576_2_alg».proof.Defs
import proofs.«132844_j8031588843576_2_alg».proof.Proof.Gen.Kernel
import proofs.«132844_j8031588843576_2_alg».proof.Proof.Gen.KernelIdeal
import proofs.«132844_j8031588843576_2_alg».proof.Proof.Gen.ReferenceIdeal
import proofs.«132844_j8031588843576_2_alg».proof.Proof.Gen.Pre_finite_inputs
import proofs.«132844_j8031588843576_2_alg».proof.Proof.K.Run
import proofs.«132844_j8031588843576_2_alg».proof.Proof.KI.Run
import proofs.«132844_j8031588843576_2_alg».proof.Proof.KI.Val0
import proofs.«132844_j8031588843576_2_alg».proof.Proof.KernelValue
import proofs.«132844_j8031588843576_2_alg».proof.Proof.Ref.Run
import proofs.«132844_j8031588843576_2_alg».proof.Proof.Ref.Val
import proofs.«132844_j8031588843576_2_alg».proof.Proof.PreDecode
import proofs.«132844_j8031588843576_2_alg».proof.Proof.Bridge
import Idealize.ShloMosaic.Adequacy
import Idealize.ShloMosaic.Init

noncomputable section

namespace Cert.Proof

open Idealize.ShloMosaic Idealize.ShloMosaic.TcCoe Idealize.SL.Sem

/-- The kernel program as printed runs to the end, faults nowhere and leaves the input matrix as it found it. -/
theorem frame_kernel : Cert.frame_Kernel := fun m ρ _ => Cert.Kernel.Hand.frame m ρ

/-- The same of its reading over the extended reals. -/
theorem frame_kernelIdeal : Cert.frame_KernelIdeal := fun m ρ _ => Cert.KernelIdeal.Hand.frame m ρ

/-- The reference's run with its four results forgotten. -/
theorem frame_reference : Cert.frame_ReferenceIdeal := fun m ρ _ =>
  (θ_run Cert.ReferenceIdeal.defs _ _).mono (fun _ h c => (h c).2.2.2.2) (Cert.ReferenceIdeal.Hand.run m ρ)

/-- The ideal pass rewrote no operation. -/
theorem preserves : Cert.preserves_Kernel_KernelIdeal := trivial

open Cert.KernelIdeal.Hand in
/-- From memories that agree on the input matrix both programs end with the same four results: the kernel program's
    arrays are the functions (i)–(iv) with 1 / sqrt and 1 / in place of the powers, which under the precondition are the
    reference's. -/
theorem algebraic : Cert.algebraic_KernelIdeal_ReferenceIdeal := by
  intro m ρ m' ρ' hpre hagree
  refine ⟨fun c => Cert.ReferenceIdeal.Hand.R15 (inp m c), fun c => Cert.ReferenceIdeal.Hand.R22 (inp m c),
    fun c => Cert.ReferenceIdeal.Hand.R30 (inp m c), fun c => Cert.ReferenceIdeal.Hand.R38 (inp m c), ?_, ?_⟩
  · refine run_of m ρ (fun s h c => ?_)
    obtain ⟨hfin, hrow, hcol⟩ := Cert.Hand.PreDecode.decode (inp m c) (hpre c)
    have h1 := final0_1 (V0 m) c
    have h2 := final0_2 (V0 m) c
    have h3 := final0_3 (V0 m) c
    have h4 := final0_4 (V0 m) c
    refine ⟨?_, ?_, ?_, ?_, ?_⟩
    · exact ((read_end m h c Cert.KernelIdeal.main_v1_0 (by decide)).trans (val15 m c h1 h3)).trans
        (Cert.Hand.Bridge.K15_eq (inp m c) hfin hrow hcol)
    · exact ((read_end m h c Cert.KernelIdeal.main_v1_1 (by decide)).trans (val22 m c h1 h3)).trans
        (Cert.Hand.Bridge.K22_eq (inp m c) hfin hrow hcol)
    · exact ((read_end m h c Cert.KernelIdeal.main_v2 (by decide)).trans (val30 m c h2)).trans
        (Cert.Hand.Bridge.K30_eq (inp m c) hfin hrow)
    · exact ((read_end m h c Cert.KernelIdeal.main_v3 (by decide)).trans (val38 m c h4)).trans
        (Cert.Hand.Bridge.K38_eq (inp m c) hfin hcol)
    · exact (read_end m h c Cert.KernelIdeal.main_arg0 (by decide)).trans (V4_main_arg0 m c)
  · refine (θ_run Cert.ReferenceIdeal.defs _ _).mono (fun _ h c => ?_) (Cert.ReferenceIdeal.Hand.run m' ρ')
    obtain ⟨h15, h22, h30, h38, harg⟩ := h c
    rw [hagree c] at h15 h22 h30 h38
    exact ⟨h15, h22, h30, h38, harg⟩

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_kernel, Cert.Proof.frame_kernelIdeal, Cert.Proof.frame_reference, Cert.Proof.preserves, Cert.Proof.algebraic⟩

end
